-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S256x128 : Shape := ⟨2, ![256, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S640000 : Shape := ⟨1, ![640000]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S4x128x128 .f32) (main_arg5 : FVec F S4x128 .f32) (main_arg6 : FVec F S128x64 .f32) (main_arg7 : FVec F S64 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S40000x256 .f32) (main_arg1 : FVec F S256x128 .f32) (main_arg2 : FVec F S128 .f32) (main_arg3 : FVec F S4x128x128 .f32) (main_arg4 : FVec F S4x128x128 .f32) (main_arg5 : FVec F S4x128 .f32) (main_arg6 : FVec F S128x64 .f32) (main_arg7 : FVec F S64 .f32) (main_arg8 : IVec S640000 32) (main_arg9 : IVec S640000 32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_arg7 main_v13 main_v16
-- ==== Kernel.lean ====
abbrev S40000x256 : Shape := ⟨2, ![40000, 256]⟩
abbrev S256x128 : Shape := ⟨2, ![256, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S40000x128 : Shape := ⟨2, ![40000, 128]⟩
abbrev S4000x256 : Shape := ⟨2, ![4000, 256]⟩
abbrev S4000x128 : Shape := ⟨2, ![4000, 128]⟩
abbrev S1x128 : Shape := ⟨2, ![1, 128]⟩
abbrev S640000x128 : Shape := ⟨2, ![640000, 128]⟩
abbrev S1x128x128 : Shape := ⟨3, ![1, 128, 128]⟩
abbrev S128x128 : Shape := ⟨2, ![128, 128]⟩
abbrev S40000x64 : Shape := ⟨2, ![40000, 64]⟩
abbrev S4000x64 : Shape := ⟨2, ![4000, 64]⟩
abbrev S1x64 : Shape := ⟨2, ![1, 64]⟩

abbrev nBuf : Space → Nat
  | .hbm => 134
  | .vmem => 56
  | .smem => 0
  | _ => 0

abbrev hbmTy0_0 (i : Nat) : BufTy := match i % 128 with
  | 0 => ⟨S40000x256, .f32⟩
  | 1 => ⟨S256x128, .f32⟩
  | 2 => ⟨S128, .f32⟩
  | 3 => ⟨S4x128x128, .f32⟩
  | 4 => ⟨S4x128x128, .f32⟩
  | 5 => ⟨S4x128, .f32⟩
  | 6 => ⟨S128x64, .f32⟩
  | 7 => ⟨S64, .f32⟩
  | 8 => ⟨S640000, .i32⟩
  | 9 => ⟨S640000, .i32⟩
  | 10 => ⟨S_, .f32⟩
  | 11 => ⟨S640000, .f32⟩
  | 12 => ⟨S_, .f32⟩
  | 13 => ⟨S40000, .f32⟩
  | 14 => ⟨S640000x1, .i32⟩
  | 15 => ⟨S40000, .f32⟩
  | 16 => ⟨S_, .f32⟩
  | 17 => ⟨S_, .f32⟩
  | 18 => ⟨S40000, .f32⟩
  | 19 => ⟨S40000, .f32⟩
  | 20 => ⟨S_, .f32⟩
  | 21 => ⟨S40000, .f32⟩
  | 22 => ⟨S640000x1, .i32⟩
  | 23 => ⟨S40000, .f32⟩
  | 24 => ⟨S_, .f32⟩
  | 25 => ⟨S_, .f32⟩
  | 26 => ⟨S40000, .f32⟩
  | 27 => ⟨S40000, .f32⟩
  | 28 => ⟨S_, .f32⟩
  | 29 => ⟨S40000, .f32⟩
  | 30 => ⟨S40000, .f32⟩
  | 31 => ⟨S40000x1, .f32⟩
  | 32 => ⟨S_, .f32⟩
  | 33 => ⟨S40000, .f32⟩
  | 34 => ⟨S40000, .f32⟩
  | 35 => ⟨S40000x1, .f32⟩
  | 36 => ⟨S40000x128, .f32⟩
  | 37 => ⟨S40000x128, .f32⟩
  | 38 => ⟨S40000x128, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S_, .f32⟩
  | 49 => ⟨S40000x128, .f32⟩
  | 50 => ⟨S640000x1, .i32⟩
  | 51 => ⟨S40000x128, .f32⟩
  | 52 => ⟨S40000x128, .f32⟩
  | 53 => ⟨S40000x128, .f32⟩
  | 54 => ⟨S1x128x128, .f32⟩
  | 55 => ⟨S128x128, .f32⟩
  | 56 => ⟨S1x128x128, .f32⟩
  | 57 => ⟨S128x128, .f32⟩
  | 58 => ⟨S1x128, .f32⟩
  | 59 => ⟨S128, .f32⟩
  | 60 => ⟨S40000x128, .f32⟩
  | 61 => ⟨S40000x128, .f32⟩
  | 62 => ⟨S40000x128, .f32⟩
  | 63 => ⟨S_, .i32⟩
  | 64 => ⟨S640000, .i32⟩
  | 65 => ⟨S640000, .i1⟩
  | 66 => ⟨S_, .i32⟩
  | 67 => ⟨S640000, .i32⟩
  | 68 => ⟨S640000, .i32⟩
  | 69 => ⟨S640000, .i32⟩
  | 70 => ⟨S640000x1, .i32⟩
  | 71 => ⟨S640000x128, .f32⟩
  | 72 => ⟨S_, .f32⟩
  | 73 => ⟨S40000x128, .f32⟩
  | 74 => ⟨S640000x1, .i32⟩
  | 75 => ⟨S40000x128, .f32⟩
  | 76 => ⟨S40000x128, .f32⟩
  | 77 => ⟨S40000x128, .f32⟩
  | 78 => ⟨S1x128x128, .f32⟩
  | 79 => ⟨S128x128, .f32⟩
  | 80 => ⟨S1x128x128, .f32⟩
  | 81 => ⟨S128x128, .f32⟩
  | 82 => ⟨S1x128, .f32⟩
  | 83 => ⟨S128, .f32⟩
  | 84 => ⟨S40000x128, .f32⟩
  | 85 => ⟨S40000x128, .f32⟩
  | 86 => ⟨S40000x128, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S640000x128, .f32⟩
  | 96 => ⟨S_, .f32⟩
  | 97 => ⟨S40000x128, .f32⟩
  | 98 => ⟨S640000x1, .i32⟩
  | 99 => ⟨S40000x128, .f32⟩
  | 100 => ⟨S40000x128, .f32⟩
  | 101 => ⟨S40000x128, .f32⟩
  | 102 => ⟨S1x128x128, .f32⟩
  | 103 => ⟨S128x128, .f32⟩
  | 104 => ⟨S1x128x128, .f32⟩
  | 105 => ⟨S128x128, .f32⟩
  | 106 => ⟨S1x128, .f32⟩
  | 107 => ⟨S128, .f32⟩
  | 108 => ⟨S40000x128, .f32⟩
  | 109 => ⟨S40000x128, .f32⟩
  | 110 => ⟨S40000x128, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x128, .f32⟩
  | 120 => ⟨S_, .f32⟩
  | 121 => ⟨S40000x128, .f32⟩
  | 122 => ⟨S640000x1, .i32⟩
  | 123 => ⟨S40000x128, .f32⟩
  | 124 => ⟨S40000x128, .f32⟩
  | 125 => ⟨S40000x128, .f32⟩
  | 126 => ⟨S1x128x128, .f32⟩
  | 127 => ⟨S128x128, .f32⟩
  | _ => ⟨S40000x256, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S40000x128, .f32⟩
  | 5 => ⟨S40000x64, .f32⟩
  | _ => ⟨S40000x256, .f32⟩

abbrev hbmTy (i : Nat) : BufTy := match i / 128 with
  | 0 => hbmTy0_0 i
  | 1 => hbmTy0_1 i
  | _ => ⟨S40000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S128x128, .f32⟩
  | .local _ .vmem, ⟨25, _⟩ => ⟨S128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x128, .f32⟩
  | .local _ .vmem, ⟨35, _⟩ => ⟨S128x128, .f32⟩
  | .local _ .vmem, ⟨36, _⟩ => ⟨S128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S128x128, .f32⟩
  | .local _ .vmem, ⟨46, _⟩ => ⟨S128x128, .f32⟩
  | .local _ .vmem, ⟨47, _⟩ => ⟨S128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S128x64, .f32⟩
  | .local _ .vmem, ⟨53, _⟩ => ⟨S64, .f32⟩
  | .local _ .vmem, ⟨54, _⟩ => ⟨S4000x64, .f32⟩
  | .local _ .vmem, ⟨55, _⟩ => ⟨S4000x64, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_14 : Ref sig .tc := ⟨.hbm, 111, rfl⟩
abbrev main_v81 : Ref sig .tc := ⟨.hbm, 112, rfl⟩
abbrev main_v82 : Ref sig .tc := ⟨.hbm, 113, rfl⟩
abbrev main_c_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_16 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem3_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S40000_S640000x1_S640000_n_0_0_1_wf : ScatterDims.WF S40000 S640000x1 S640000 [] [0] [0] 1
  dot_S4000x256_S256x128_S4000x128_1_0_0_1_n_n_wf : DotDims.WF S4000x256 S256x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S40000x256.size a
  hwx0_0 : ∀ i : grid0.Coords, EltTy.bits .f32 = 32 ∨ (Rect.block (s := S40000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .f32 = 32 ∨ (Rect.block (s := S40000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S40000x128.size a
  hwx1_2 : ∀ i : grid1.Coords, EltTy.bits .f32 = 32 ∨ (Rect.block (s := S40000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S40000x128.size a
  hwx1_6 : ∀ i : grid1.Coords, EltTy.bits .f32 = 32 ∨ (Rect.block (s := S40000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S40000x128.size a
  hwx2_1 : ∀ i : grid2.Coords, EltTy.bits .f32 = 32 ∨ (Rect.block (s := S40000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S40000x128.size a
  hwx2_2 : ∀ i : grid2.Coords, EltTy.bits .f32 = 32 ∨ (Rect.block (s := S40000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S40000x128.size a
  hwx2_6 : ∀ i : grid2.Coords, EltTy.bits .f32 = 32 ∨ (Rect.block (s := S40000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S40000x128.size a
  hwx3_0 : ∀ i : grid3.Coords, EltTy.bits .f32 = 32 ∨ (Rect.block (s := S40000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S40000x128.size a
  hwx3_1 : ∀ i : grid3.Coords, EltTy.bits .f32 = 32 ∨ (Rect.block (s := S40000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S40000x128.size a
  hwx3_2 : ∀ i : grid3.Coords, EltTy.bits .f32 = 32 ∨ (Rect.block (s := S40000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S40000x128.size a
  hwx3_6 : ∀ i : grid3.Coords, EltTy.bits .f32 = 32 ∨ (Rect.block (s := S40000x128) S4000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S40000x128.size a
  hwx4_0 : ∀ i : grid4.Coords, EltTy.bits .f32 = 32 ∨ (Rect.block (s := S40000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S40000x128.size a
  hwx4_1 : ∀ i : grid4.Coords, EltTy.bits .f32 = 32 ∨ (Rect.block (s := S40000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S40000x128.size a
  hwx4_2 : ∀ i : grid4.Coords, EltTy.bits .f32 = 32 ∨ (Rect.block (s := S40000x128) S4000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S40000x128.size a
  hwx4_6 : ∀ i : grid4.Coords, EltTy.bits .f32 = 32 ∨ (Rect.block (s := S40000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S40000x128.size a
  hwx5_0 : ∀ i : grid5.Coords, EltTy.bits .f32 = 32 ∨ (Rect.block (s := S40000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x64.size a ≤ S40000x64.size a
  hwx5_3 : ∀ i : grid5.Coords, EltTy.bits .f32 = 32 ∨ (Rect.block (s := S40000x64) S4000x64.size (cc5_transform_3 i) (hinb5_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v71) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v92) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v94) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v99) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v99) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S4000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S40000x256 : Shape := ⟨2, ![40000, 256]⟩
abbrev S256x128 : Shape := ⟨2, ![256, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S40000x128 : Shape := ⟨2, ![40000, 128]⟩
abbrev S1x128 : Shape := ⟨2, ![1, 128]⟩
abbrev S640000x128 : Shape := ⟨2, ![640000, 128]⟩
abbrev S1x128x128 : Shape := ⟨3, ![1, 128, 128]⟩
abbrev S128x128 : Shape := ⟨2, ![128, 128]⟩
abbrev S40000x64 : Shape := ⟨2, ![40000, 64]⟩
abbrev S1x64 : Shape := ⟨2, ![1, 64]⟩

abbrev nBuf : Space → Nat
  | .hbm => 235
  | .vmem => 0
  | .smem => 0
  | _ => 0

abbrev hbmTy0_0 (i : Nat) : BufTy := match i % 128 with
  | 0 => ⟨S40000x256, .f32⟩
  | 1 => ⟨S256x128, .f32⟩
  | 2 => ⟨S128, .f32⟩
  | 3 => ⟨S4x128x128, .f32⟩
  | 4 => ⟨S4x128x128, .f32⟩
  | 5 => ⟨S4x128, .f32⟩
  | 6 => ⟨S128x64, .f32⟩
  | 7 => ⟨S64, .f32⟩
  | 8 => ⟨S640000, .i32⟩
  | 9 => ⟨S640000, .i32⟩
  | 10 => ⟨S_, .f32⟩
  | 11 => ⟨S640000, .f32⟩
  | 12 => ⟨S_, .f32⟩
  | 13 => ⟨S40000, .f32⟩
  | 14 => ⟨S640000x1, .i32⟩
  | 15 => ⟨S40000, .f32⟩
  | 16 => ⟨S_, .f32⟩
  | 17 => ⟨S_, .f32⟩
  | 18 => ⟨S40000, .f32⟩
  | 19 => ⟨S40000, .f32⟩
  | 20 => ⟨S_, .f32⟩
  | 21 => ⟨S40000, .f32⟩
  | 22 => ⟨S640000x1, .i32⟩
  | 23 => ⟨S40000, .f32⟩
  | 24 => ⟨S_, .f32⟩
  | 25 => ⟨S_, .f32⟩
  | 26 => ⟨S40000, .f32⟩
  | 27 => ⟨S40000, .f32⟩
  | 28 => ⟨S_, .f32⟩
  | 29 => ⟨S40000, .f32⟩
  | 30 => ⟨S40000, .f32⟩
  | 31 => ⟨S40000x1, .f32⟩
  | 32 => ⟨S_, .f32⟩
  | 33 => ⟨S40000, .f32⟩
  | 34 => ⟨S40000, .f32⟩
  | 35 => ⟨S40000x1, .f32⟩
  | 36 => ⟨S40000x128, .f32⟩
  | 37 => ⟨S1x128, .f32⟩
  | 38 => ⟨S40000x128, .f32⟩
  | 39 => ⟨S40000x128, .f32⟩
  | 40 => ⟨S_, .f32⟩
  | 41 => ⟨S40000x128, .f32⟩
  | 42 => ⟨S40000x128, .f32⟩
  | 43 => ⟨S40000x128, .f32⟩
  | 44 => ⟨S40000x128, .f32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000x128, .f32⟩
  | 54 => ⟨S_, .f32⟩
  | 55 => ⟨S40000x128, .f32⟩
  | 56 => ⟨S640000x1, .i32⟩
  | 57 => ⟨S40000x128, .f32⟩
  | 58 => ⟨S40000x128, .f32⟩
  | 59 => ⟨S40000x128, .f32⟩
  | 60 => ⟨S_, .f32⟩
  | 61 => ⟨S40000x128, .f32⟩
  | 62 => ⟨S40000x128, .f32⟩
  | 63 => ⟨S_, .f32⟩
  | 64 => ⟨S40000x128, .f32⟩
  | 65 => ⟨S40000x128, .f32⟩
  | 66 => ⟨S40000x128, .f32⟩
  | 67 => ⟨S_, .f32⟩
  | 68 => ⟨S40000x128, .f32⟩
  | 69 => ⟨S40000x128, .f32⟩
  | 70 => ⟨S1x128x128, .f32⟩
  | 71 => ⟨S128x128, .f32⟩
  | 72 => ⟨S40000x128, .f32⟩
  | 73 => ⟨S1x128x128, .f32⟩
  | 74 => ⟨S128x128, .f32⟩
  | 75 => ⟨S40000x128, .f32⟩
  | 76 => ⟨S40000x128, .f32⟩
  | 77 => ⟨S_, .f32⟩
  | 78 => ⟨S40000x128, .f32⟩
  | 79 => ⟨S40000x128, .f32⟩
  | 80 => ⟨S40000x128, .f32⟩
  | 81 => ⟨S1x128, .f32⟩
  | 82 => ⟨S128, .f32⟩
  | 83 => ⟨S1x128, .f32⟩
  | 84 => ⟨S40000x128, .f32⟩
  | 85 => ⟨S40000x128, .f32⟩
  | 86 => ⟨S40000x128, .f32⟩
  | 87 => ⟨S_, .f32⟩
  | 88 => ⟨S40000x128, .f32⟩
  | 89 => ⟨S40000x128, .f32⟩
  | 90 => ⟨S40000x128, .f32⟩
  | 91 => ⟨S40000x128, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000x128, .f32⟩
  | 101 => ⟨S_, .f32⟩
  | 102 => ⟨S40000x128, .f32⟩
  | 103 => ⟨S640000x1, .i32⟩
  | 104 => ⟨S40000x128, .f32⟩
  | 105 => ⟨S40000x128, .f32⟩
  | 106 => ⟨S40000x128, .f32⟩
  | 107 => ⟨S_, .f32⟩
  | 108 => ⟨S40000x128, .f32⟩
  | 109 => ⟨S40000x128, .f32⟩
  | 110 => ⟨S_, .f32⟩
  | 111 => ⟨S40000x128, .f32⟩
  | 112 => ⟨S40000x128, .f32⟩
  | 113 => ⟨S40000x128, .f32⟩
  | 114 => ⟨S_, .f32⟩
  | 115 => ⟨S40000x128, .f32⟩
  | 116 => ⟨S40000x128, .f32⟩
  | 117 => ⟨S1x128x128, .f32⟩
  | 118 => ⟨S128x128, .f32⟩
  | 119 => ⟨S40000x128, .f32⟩
  | 120 => ⟨S1x128x128, .f32⟩
  | 121 => ⟨S128x128, .f32⟩
  | 122 => ⟨S40000x128, .f32⟩
  | 123 => ⟨S40000x128, .f32⟩
  | 124 => ⟨S_, .f32⟩
  | 125 => ⟨S40000x128, .f32⟩
  | 126 => ⟨S40000x128, .f32⟩
  | 127 => ⟨S40000x128, .f32⟩
  | _ => ⟨S40000x256, .f32⟩

abbrev hbmTy0_1 (i : Nat) : BufTy := match i % 128 with
  | 0 => ⟨S1x128, .f32⟩
  | 1 => ⟨S128, .f32⟩
  | 2 => ⟨S1x128, .f32⟩
  | 3 => ⟨S40000x128, .f32⟩
  | 4 => ⟨S40000x128, .f32⟩
  | 5 => ⟨S40000x128, .f32⟩
  | 6 => ⟨S_, .f32⟩
  | 7 => ⟨S40000x128, .f32⟩
  | 8 => ⟨S40000x128, .f32⟩
  | 9 => ⟨S40000x128, .f32⟩
  | 10 => ⟨S40000x128, .f32⟩
  | 11 => ⟨S_, .i32⟩
  | 12 => ⟨S640000, .i32⟩
  | 13 => ⟨S640000, .i1⟩
  | 14 => ⟨S_, .i32⟩
  | 15 => ⟨S640000, .i32⟩
  | 16 => ⟨S640000, .i32⟩
  | 17 => ⟨S640000, .i32⟩
  | 18 => ⟨S640000x1, .i32⟩
  | 19 => ⟨S640000x128, .f32⟩
  | 20 => ⟨S_, .f32⟩
  | 21 => ⟨S40000x128, .f32⟩
  | 22 => ⟨S640000x1, .i32⟩
  | 23 => ⟨S40000x128, .f32⟩
  | 24 => ⟨S40000x128, .f32⟩
  | 25 => ⟨S40000x128, .f32⟩
  | 26 => ⟨S_, .f32⟩
  | 27 => ⟨S40000x128, .f32⟩
  | 28 => ⟨S40000x128, .f32⟩
  | 29 => ⟨S_, .f32⟩
  | 30 => ⟨S40000x128, .f32⟩
  | 31 => ⟨S40000x128, .f32⟩
  | 32 => ⟨S40000x128, .f32⟩
  | 33 => ⟨S_, .f32⟩
  | 34 => ⟨S40000x128, .f32⟩
  | 35 => ⟨S40000x128, .f32⟩
  | 36 => ⟨S1x128x128, .f32⟩
  | 37 => ⟨S128x128, .f32⟩
  | 38 => ⟨S40000x128, .f32⟩
  | 39 => ⟨S1x128x128, .f32⟩
  | 40 => ⟨S128x128, .f32⟩
  | 41 => ⟨S40000x128, .f32⟩
  | 42 => ⟨S40000x128, .f32⟩
  | 43 => ⟨S_, .f32⟩
  | 44 => ⟨S40000x128, .f32⟩
  | 45 => ⟨S40000x128, .f32⟩
  | 46 => ⟨S40000x128, .f32⟩
  | 47 => ⟨S1x128, .f32⟩
  | 48 => ⟨S128, .f32⟩
  | 49 => ⟨S1x128, .f32⟩
  | 50 => ⟨S40000x128, .f32⟩
  | 51 => ⟨S40000x128, .f32⟩
  | 52 => ⟨S40000x128, .f32⟩
  | 53 => ⟨S_, .f32⟩
  | 54 => ⟨S40000x128, .f32⟩
  | 55 => ⟨S40000x128, .f32⟩
  | 56 => ⟨S40000x128, .f32⟩
  | 57 => ⟨S40000x128, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000x128, .f32⟩
  | 67 => ⟨S_, .f32⟩
  | 68 => ⟨S40000x128, .f32⟩
  | 69 => ⟨S640000x1, .i32⟩
  | 70 => ⟨S40000x128, .f32⟩
  | 71 => ⟨S40000x128, .f32⟩
  | 72 => ⟨S40000x128, .f32⟩
  | 73 => ⟨S_, .f32⟩
  | 74 => ⟨S40000x128, .f32⟩
  | 75 => ⟨S40000x128, .f32⟩
  | 76 => ⟨S_, .f32⟩
  | 77 => ⟨S40000x128, .f32⟩
  | 78 => ⟨S40000x128, .f32⟩
  | 79 => ⟨S40000x128, .f32⟩
  | 80 => ⟨S_, .f32⟩
  | 81 => ⟨S40000x128, .f32⟩
  | 82 => ⟨S40000x128, .f32⟩
  | 83 => ⟨S1x128x128, .f32⟩
  | 84 => ⟨S128x128, .f32⟩
  | 85 => ⟨S40000x128, .f32⟩
  | 86 => ⟨S1x128x128, .f32⟩
  | 87 => ⟨S128x128, .f32⟩
  | 88 => ⟨S40000x128, .f32⟩
  | 89 => ⟨S40000x128, .f32⟩
  | 90 => ⟨S_, .f32⟩
  | 91 => ⟨S40000x128, .f32⟩
  | 92 => ⟨S40000x128, .f32⟩
  | 93 => ⟨S40000x128, .f32⟩
  | 94 => ⟨S1x128, .f32⟩
  | 95 => ⟨S128, .f32⟩
  | 96 => ⟨S1x128, .f32⟩
  | 97 => ⟨S40000x128, .f32⟩
  | 98 => ⟨S40000x128, .f32⟩
  | 99 => ⟨S40000x128, .f32⟩
  | 100 => ⟨S_, .f32⟩
  | 101 => ⟨S40000x128, .f32⟩
  | 102 => ⟨S40000x128, .f32⟩
  | 103 => ⟨S40000x64, .f32⟩
  | 104 => ⟨S1x64, .f32⟩
  | 105 => ⟨S40000x64, .f32⟩
  | 106 => ⟨S40000x64, .f32⟩
  | _ => ⟨S40000x256, .f32⟩

abbrev hbmTy (i : Nat) : BufTy := match i / 128 with
  | 0 => hbmTy0_0 i
  | 1 => hbmTy0_1 i
  | _ => ⟨S40000x256, .f32⟩

abbrev bufTy : (tb : Table) → Fin (tcTables nBuf tb) → BufTy
  | .hbm, ⟨i, _⟩ => hbmTy i
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call3_cst : Ref sig .tc := ⟨.hbm, 87, rfl⟩
abbrev main_call3_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_v60 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_17 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call4_cst : Ref sig .tc := ⟨.hbm, 134, rfl⟩
abbrev main_call4_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_19 : Ref sig .tc := ⟨.hbm, 139, rfl⟩
abbrev main_v98 : Ref sig .tc := ⟨.hbm, 140, rfl⟩
abbrev main_v99 : Ref sig .tc := ⟨.hbm, 141, rfl⟩
abbrev main_c_20 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_21 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_22 : Ref sig .tc := ⟨.hbm, 154, rfl⟩
abbrev main_v110 : Ref sig .tc := ⟨.hbm, 155, rfl⟩
abbrev main_v111 : Ref sig .tc := ⟨.hbm, 156, rfl⟩
abbrev main_cst_23 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_24 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_25 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_call5_cst : Ref sig .tc := ⟨.hbm, 181, rfl⟩
abbrev main_call5_v0 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_c_26 : Ref sig .tc := ⟨.hbm, 186, rfl⟩
abbrev main_v136 : Ref sig .tc := ⟨.hbm, 187, rfl⟩
abbrev main_v137 : Ref sig .tc := ⟨.hbm, 188, rfl⟩
abbrev main_c_27 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_28 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_29 : Ref sig .tc := ⟨.hbm, 201, rfl⟩
abbrev main_v148 : Ref sig .tc := ⟨.hbm, 202, rfl⟩
abbrev main_v149 : Ref sig .tc := ⟨.hbm, 203, rfl⟩
abbrev main_cst_30 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_31 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_32 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_call6_cst : Ref sig .tc := ⟨.hbm, 228, rfl⟩
abbrev main_call6_v0 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  scatter_S40000_S640000x1_S640000_n_0_0_1_wf : ScatterDims.WF S40000 S640000x1 S640000 [] [0] [0] 1
  dot_S40000x256_S256x128_S40000x128_1_0_0_1_n_n_wf : DotDims.WF S40000x256 S256x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf

class Facts : Prop extends Facts₀ where

variable [Facts]
-- ==== Proof.Spec.lean ====
/-
  The network both programs compute, layer by layer, entry by entry, on the extended reals.

  A dense layer with a rectifier (`fc1`), four graph-convolution layers (`comb`: the mixed features
  c1 * (a/2 + h0/2) + c2 * ((a/2) W1 + (h0/2) W2) + b, plus the layer's input, rectified), and a last dense
  layer (`fc2`).  Every entry of a layer's result depends on ONE row of the layer's matrix operands: row p of
  the result is a function of row p of each of them, which is why a block of rows of the result is the layer
  applied to the same block of rows of the operands.  No program is imported.
-/
import Idealize.ShloMosaic.PureOps.Ideal.Laws
import Idealize.ShloMosaic.Lib.ValueIdx

noncomputable section

namespace Cert.Gcn

open Idealize.ShloMosaic Idealize.ShloMosaic.ValueIdx

/-- An a x b matrix of extended reals, as a function of its index. -/
abbrev Mat (a b : ℕ) : Type := (⟨2, ![a, b]⟩ : Shape).Idx → EReal
/-- A vector of length a. -/
abbrev Vc (a : ℕ) : Type := (⟨1, ![a]⟩ : Shape).Idx → EReal

/-- The float zero and one half, as the extended reals their words denote. -/
abbrev zeroW : EReal := Ideal.ofBits .f32 0x00000000#32
abbrev halfW : EReal := Ideal.ofBits .f32 0x3F000000#32

/-- Entry (p, q) of max(x w + b, 0), for x of R rows. -/
def fc1 {R : ℕ} (x : Mat R 256) (w : Mat 256 128) (b : Vc 128) (p : Fin R) (q : Fin 128) : EReal :=
  max ((∑ k : Fin 256, x (ix2 p k) * w (ix2 k q)) + b (ix1 q)) zeroW

/-- Entry (p, q) of one graph-convolution layer: with f = a/2 and g = h0/2,
    max(((c1 (f + g) + c2 (f W1 + g W2)) + b) + h, 0). -/
def comb {R : ℕ} (c1 c2 : EReal) (a h0 h : Mat R 128) (w1 w2 : Mat 128 128) (b : Vc 128) (p : Fin R) (q : Fin 128) : EReal :=
  max ((((c1 * (halfW * a (ix2 p q) + halfW * h0 (ix2 p q))
        + c2 * ((∑ k : Fin 128, (halfW * a (ix2 p k)) * w1 (ix2 k q)) + ∑ k : Fin 128, (halfW * h0 (ix2 p k)) * w2 (ix2 k q)))
      + b (ix1 q)) + h (ix2 p q))) zeroW

/-- Entry (p, q) of h w + b. -/
def fc2 {R : ℕ} (h : Mat R 128) (w : Mat 128 64) (b : Vc 64) (p : Fin R) (q : Fin 64) : EReal :=
  (∑ k : Fin 128, h (ix2 p k) * w (ix2 k q)) + b (ix1 q)

/-- The words of the four layers' mixing weights, (1 - beta_l) and beta_l. -/
abbrev c1w : Fin 4 → EReal := ![Ideal.ofBits .f32 0x3E9D1BD0#32, Ideal.ofBits .f32 0x3F183370#32, Ideal.ofBits .f32 0x3F365A78#32, Ideal.ofBits .f32 0x3F46E010#32]
abbrev c2w : Fin 4 → EReal := ![Ideal.ofBits .f32 0x3F317218#32, Ideal.ofBits .f32 0x3ECF991F#32, Ideal.ofBits .f32 0x3E934B11#32, Ideal.ofBits .f32 0x3E647FBE#32]

/-- A function of the two coordinates as a matrix. -/
def ofEntries {a b : ℕ} (f : Fin a → Fin b → EReal) : Mat a b := fun i => f (i 0) (i 1)

theorem ofEntries_apply {a b : ℕ} (f : Fin a → Fin b → EReal) (p : Fin a) (q : Fin b) : ofEntries f (ix2 p q) = f p q := rfl

/-- The whole network over N = 40000 nodes, given the neighbour aggregation `A` (a function of the node features:
    it depends on the edges and the degree norms, and is the same host computation in both programs), the four
    layers' weight matrices `s1 l`, `s2 l` and biases `sb l` (slices of the stacked arguments), and the two dense
    layers' operands. -/
def net (A : Mat 40000 128 → Mat 40000 128) (s1 s2 : Fin 4 → Mat 128 128) (sb : Fin 4 → Vc 128)
    (x : Mat 40000 256) (w1 : Mat 256 128) (b1 : Vc 128) (w2 : Mat 128 64) (b2 : Vc 64) : Mat 40000 64 :=
  let h0 := ofEntries (fc1 x w1 b1)
  let h1 := ofEntries (comb (c1w 0) (c2w 0) (A h0) h0 h0 (s1 0) (s2 0) (sb 0))
  let h2 := ofEntries (comb (c1w 1) (c2w 1) (A h1) h0 h1 (s1 1) (s2 1) (sb 1))
  let h3 := ofEntries (comb (c1w 2) (c2w 2) (A h2) h0 h2 (s1 2) (s2 2) (sb 2))
  let h4 := ofEntries (comb (c1w 3) (c2w 3) (A h3) h0 h3 (s1 3) (s2 3) (sb 3))
  ofEntries (fc2 h4 w2 b2)

/-- A matrix is determined by its entries at the built indices. -/
theorem mat_ext {a b : ℕ} {u v : Mat a b} (h : ∀ p q, u (ix2 p q) = v (ix2 p q)) : u = v :=
  funext fun i => by rw [eq_ix2 i]; exact h _ _

end Cert.Gcn

end
-- ==== Proof.RefSideDefs.lean ====
/-
  The host-side pieces of the reference network, as functions of the argument arrays.

  One layer's neighbour aggregation h ↦ segment_sum((h * norm_s)[src], dst) * norm_d, with the two degree
  norms (the scatter-add of ones over the edge ends, clipped below at one, to the power -1/2) computed from
  the edge arrays inside it, and the four layers' weight matrices and biases as slices of the stacked
  arguments.  Each is the composition of the reference's own host operations, with its own dimension
  records, never opened here.
-/
import proofs.«153677_j23742579212601_1_alg».proof.ReferenceIdeal
import proofs.«153677_j23742579212601_1_alg».proof.Proof.Spec

noncomputable section

namespace Cert.RefSide

open Idealize.ShloMosaic Cert.ReferenceIdeal
open Cert.ReferenceIdeal.Facts₀

variable [Cert.ReferenceIdeal.Facts]

/-- The degree norm of the nodes from one end of the edges: the number of edges at each node (a scatter-add of
    ones into zeros), clipped below at one, to the power -1/2, as a column. -/
def norm (e : IVec S640000 32) : FVec Ideal S40000x1 .f32 :=
  broadcastInDim S40000x1 ![0] bcast_S40000_S40000x1_0
    (Host.powf (F := Ideal)
      (maximumf (F := Ideal)
        (broadcastInDim S40000 ![] bcast_S_S40000 (constant (F := Ideal) S_ .f32 0x3F800000#32))
        (Host.scatterAdd (F := Ideal) scatter_S40000_S640000x1_S640000_n_0_0_1
          (broadcastInDim S40000 ![] bcast_S_S40000 (constant (F := Ideal) S_ .f32 0x00000000#32))
          (broadcastInDim S640000x1 ![0] bcast_S640000_S640000x1_0 e)
          (broadcastInDim S640000 ![] bcast_S_S640000 (constant (F := Ideal) S_ .f32 0x3F800000#32))))
      (broadcastInDim S40000 ![] bcast_S_S40000 (constant (F := Ideal) S_ .f32 0xBF000000#32)))

/-- The gather's row indices: a negative index counted from the end (40000 added), as a column. -/
def fix (e : IVec S640000 32) : IVec S640000x1 32 :=
  broadcastInDim S640000x1 ![0] bcast_S640000_S640000x1_0
    (select (cmpi .slt e (broadcastInDim S640000 ![] bcast_S_S640000 (constantI S_ 32 0#32)))
      (addi e (broadcastInDim S640000 ![] bcast_S_S640000 (constantI S_ 32 40000#32)))
      e)

/-- One layer's neighbour aggregation: the rows of h * norm_s gathered at the edges' sources, scatter-added
    into zeros at the edges' destinations, times norm_d. -/
def A (src dst : IVec S640000 32) (h : Cert.Gcn.Mat 40000 128) : Cert.Gcn.Mat 40000 128 :=
  mulf (F := Ideal) (s := S40000x128) (φ := .f32)
    (Host.scatterAdd (F := Ideal) scatter_S40000x128_S640000x1_S640000x128_1_0_0_1
      (broadcastInDim S40000x128 ![] bcast_S_S40000x128 (constant (F := Ideal) S_ .f32 0x00000000#32))
      (broadcastInDim S640000x1 ![0] bcast_S640000_S640000x1_0 dst)
      (Host.gather gather_S40000x128_S640000x1_S640000x128_1_0_n_n_0_1_1128
        (mulf (F := Ideal) (s := S40000x128) (φ := .f32) h
          (broadcastInDim S40000x128 ![0, 1] bcast_S40000x1_S40000x128_0_1 (norm src)))
        (fix src)))
    (broadcastInDim S40000x128 ![0, 1] bcast_S40000x1_S40000x128_0_1 (norm dst))

/-- The four layers' first weight matrices: the slices of the stacked argument. -/
def s1 (W : FVec Ideal S4x128x128 .f32) : Fin 4 → Cert.Gcn.Mat 128 128 :=
  ![shapeCast S128x128 (extractStridedSlice S1x128x128 ![0, 0, 0] W slices_S4x128x128_S1x128x128_0_0_0) shapeCasts_S1x128x128_S128x128,
    shapeCast S128x128 (extractStridedSlice S1x128x128 ![1, 0, 0] W slices_S4x128x128_S1x128x128_1_0_0) shapeCasts_S1x128x128_S128x128,
    shapeCast S128x128 (extractStridedSlice S1x128x128 ![2, 0, 0] W slices_S4x128x128_S1x128x128_2_0_0) shapeCasts_S1x128x128_S128x128,
    shapeCast S128x128 (extractStridedSlice S1x128x128 ![3, 0, 0] W slices_S4x128x128_S1x128x128_3_0_0) shapeCasts_S1x128x128_S128x128]

/-- The four layers' second weight matrices: the same slices of the other stacked argument. -/
def s2 (W : FVec Ideal S4x128x128 .f32) : Fin 4 → Cert.Gcn.Mat 128 128 :=
  ![shapeCast S128x128 (extractStridedSlice S1x128x128 ![0, 0, 0] W slices_S4x128x128_S1x128x128_0_0_0) shapeCasts_S1x128x128_S128x128,
    shapeCast S128x128 (extractStridedSlice S1x128x128 ![1, 0, 0] W slices_S4x128x128_S1x128x128_1_0_0) shapeCasts_S1x128x128_S128x128,
    shapeCast S128x128 (extractStridedSlice S1x128x128 ![2, 0, 0] W slices_S4x128x128_S1x128x128_2_0_0) shapeCasts_S1x128x128_S128x128,
    shapeCast S128x128 (extractStridedSlice S1x128x128 ![3, 0, 0] W slices_S4x128x128_S1x128x128_3_0_0) shapeCasts_S1x128x128_S128x128]

/-- The four layers' biases: the rows of the stacked argument. -/
def sb (b : FVec Ideal S4x128 .f32) : Fin 4 → Cert.Gcn.Vc 128 :=
  ![shapeCast S128 (extractStridedSlice S1x128 ![0, 0] b slices_S4x128_S1x128_0_0) shapeCasts_S1x128_S128,
    shapeCast S128 (extractStridedSlice S1x128 ![1, 0] b slices_S4x128_S1x128_1_0) shapeCasts_S1x128_S128,
    shapeCast S128 (extractStridedSlice S1x128 ![2, 0] b slices_S4x128_S1x128_2_0) shapeCasts_S1x128_S128,
    shapeCast S128 (extractStridedSlice S1x128 ![3, 0] b slices_S4x128_S1x128_3_0) shapeCasts_S1x128_S128]

end Cert.RefSide

end
-- ==== Proof.LibDotPlain.lean ====
/-
  A host matrix product read at an entry, on the extended reals.

  For the plain dimension numbers (contract the left operand's axis 1 with the right operand's axis 0, no batch
  axes: an M x K matrix times a K x N matrix), the entry (p, q) of the product is the sum over k of
  left (p, k) times right (k, q), whatever precision and schedule the operation names.  No program is imported:
  the dimension record is a variable, constrained only by its six lists.
-/
import Idealize.ShloMosaic.PureOps.Ideal.Laws
import Idealize.ShloMosaic.Lib.ValueIdx

noncomputable section

namespace Cert.LibDotPlain

open Idealize.ShloMosaic Idealize.ShloMosaic.ValueIdx

/-- Entry (p, q) of an M x K by K x N host product is the sum over the contracted axis. -/
theorem dotGeneral_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (prec : Option ContractPrecision)
    (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) := by
  obtain ⟨lc, rc, ln, rn, lb, rb, wf⟩ := D
  dsimp only at h1 h2 h3 h4 h5 h6
  subst h1 h2 h3 h4 h5 h6
  refine (Ideal.dotGeneral_apply _ prec _ l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibDotPlain

end
-- ==== Proof.RefSideStages.lean ====
/-
  The dense stages of the reference network, read entry by entry on the extended reals.

  Each stage is a composition of pointwise sums, products and maxima, splat constants, a row bias and plain
  matrix products; at the entry (p, q) it is the corresponding function of the network's specification.
  The operands are variables: nothing here depends on where they come from.
-/
import proofs.«153677_j23742579212601_1_alg».proof.ReferenceIdeal
import proofs.«153677_j23742579212601_1_alg».proof.Proof.Spec
import proofs.«153677_j23742579212601_1_alg».proof.Proof.LibDotPlain
import Idealize.ShloMosaic.Lib.Pipeline.Value
import Idealize.ShloMosaic.Lib.ValueIdx

noncomputable section

namespace Cert.RefSide

open Idealize.ShloMosaic Idealize.ShloMosaic.ValueIdx Cert.ReferenceIdeal Cert.Gcn
open Cert.ReferenceIdeal.Facts₀

variable [Cert.ReferenceIdeal.Facts]

/-- A constant splat over the node features, read at an index. -/
theorem splat_apply (c : BitVec 32) (i : S40000x128.Idx) :
    broadcastInDim S40000x128 ![] bcast_S_S40000x128 (constant (F := Ideal) S_ .f32 c) i = Ideal.ofBits .f32 c :=
  broadcastInDim_apply _ bcast_S_S40000x128 (constant (F := Ideal) S_ .f32 c) i (fun a => a.elim0) (fun a => a.elim0)

/-- A bias vector broadcast over the rows (through a 1 x 128 row), read at (p, q). -/
theorem rowBias_apply (b : FVec Ideal S128 .f32) (p : Fin 40000) (q : Fin 128) :
    broadcastInDim S40000x128 ![0, 1] bcast_S1x128_S40000x128_0_1
      (broadcastInDim S1x128 ![1] bcast_S128_S1x128_1 b) (ix2 p q) = b (ix1 q) := by
  rw [broadcastInDim_apply _ bcast_S1x128_S40000x128_0_1 _ (ix2 p q) (ix2 (⟨0, Nat.one_pos⟩ : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])]
  exact broadcastInDim_apply _ bcast_S128_S1x128_1 b _ (ix1 q) (fun a => match a with
      | ⟨0, _⟩ => by show q.val = if (128 : Nat) = 1 then 0 else q.val; rw [if_neg (by decide)])

/-- The last layer's bias broadcast over the rows (through a 1 x 64 row), read at (p, q). -/
theorem rowBias64_apply (b : FVec Ideal S64 .f32) (p : Fin 40000) (q : Fin 64) :
    broadcastInDim S40000x64 ![0, 1] bcast_S1x64_S40000x64_0_1
      (broadcastInDim S1x64 ![1] bcast_S64_S1x64_1 b) (ix2 p q) = b (ix1 q) := by
  rw [broadcastInDim_apply _ bcast_S1x64_S40000x64_0_1 _ (ix2 p q) (ix2 (⟨0, Nat.one_pos⟩ : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]
  exact broadcastInDim_apply _ bcast_S64_S1x64_1 b _ (ix1 q) (fun a => match a with
      | ⟨0, _⟩ => by show q.val = if (64 : Nat) = 1 then 0 else q.val; rw [if_neg (by decide)])

/-- The first dense layer with its rectifier: max(x w + b, 0). -/
theorem stage_fc1 (x : FVec Ideal S40000x256 .f32) (w : FVec Ideal S256x128 .f32) (b : FVec Ideal S128 .f32) :
    maximumf (F := Ideal) (s := S40000x128) (φ := .f32)
      (addf (F := Ideal) (s := S40000x128) (φ := .f32)
        (Host.dotGeneral (F := Ideal) dot_S40000x256_S256x128_S40000x128_1_0_0_1_n_n none x w)
        (broadcastInDim S40000x128 ![0, 1] bcast_S1x128_S40000x128_0_1 (broadcastInDim S1x128 ![1] bcast_S128_S1x128_1 b)))
      (broadcastInDim S40000x128 ![] bcast_S_S40000x128 (constant (F := Ideal) S_ .f32 0x00000000#32))
    = ofEntries (fc1 x w b) := by
  refine mat_ext (a := 40000) (b := 128) fun p q => ?_
  rw [maximumf_apply, addf_apply, splat_apply, rowBias_apply,
    Cert.LibDotPlain.dotGeneral_apply dot_S40000x256_S256x128_S40000x128_1_0_0_1_n_n rfl rfl rfl rfl rfl rfl, ofEntries_apply]
  rfl

/-- One graph-convolution layer after its aggregation: with f = a/2 and g = h0/2,
    max(((c1 (f + g) + c2 (f W1 + g W2)) + b) + h, 0). -/
theorem stage_comb (c1 c2 : BitVec 32) (a h0 h : FVec Ideal S40000x128 .f32) (w1 w2 : FVec Ideal S128x128 .f32)
    (b : FVec Ideal S128 .f32) :
    maximumf (F := Ideal) (s := S40000x128) (φ := .f32)
      (addf (F := Ideal) (s := S40000x128) (φ := .f32)
        (addf (F := Ideal) (s := S40000x128) (φ := .f32)
          (addf (F := Ideal) (s := S40000x128) (φ := .f32)
            (mulf (F := Ideal) (s := S40000x128) (φ := .f32)
              (broadcastInDim S40000x128 ![] bcast_S_S40000x128 (constant (F := Ideal) S_ .f32 c1))
              (addf (F := Ideal) (s := S40000x128) (φ := .f32)
                (mulf (F := Ideal) (s := S40000x128) (φ := .f32)
                  (broadcastInDim S40000x128 ![] bcast_S_S40000x128 (constant (F := Ideal) S_ .f32 0x3F000000#32)) a)
                (mulf (F := Ideal) (s := S40000x128) (φ := .f32)
                  (broadcastInDim S40000x128 ![] bcast_S_S40000x128 (constant (F := Ideal) S_ .f32 0x3F000000#32)) h0)))
            (mulf (F := Ideal) (s := S40000x128) (φ := .f32)
              (broadcastInDim S40000x128 ![] bcast_S_S40000x128 (constant (F := Ideal) S_ .f32 c2))
              (addf (F := Ideal) (s := S40000x128) (φ := .f32)
                (Host.dotGeneral (F := Ideal) dot_S40000x128_S128x128_S40000x128_1_0_0_1_n_n none
                  (mulf (F := Ideal) (s := S40000x128) (φ := .f32)
                    (broadcastInDim S40000x128 ![] bcast_S_S40000x128 (constant (F := Ideal) S_ .f32 0x3F000000#32)) a) w1)
                (Host.dotGeneral (F := Ideal) dot_S40000x128_S128x128_S40000x128_1_0_0_1_n_n none
                  (mulf (F := Ideal) (s := S40000x128) (φ := .f32)
                    (broadcastInDim S40000x128 ![] bcast_S_S40000x128 (constant (F := Ideal) S_ .f32 0x3F000000#32)) h0) w2))))
          (broadcastInDim S40000x128 ![0, 1] bcast_S1x128_S40000x128_0_1 (broadcastInDim S1x128 ![1] bcast_S128_S1x128_1 b)))
        h)
      (broadcastInDim S40000x128 ![] bcast_S_S40000x128 (constant (F := Ideal) S_ .f32 0x00000000#32))
    = ofEntries (comb (Ideal.ofBits .f32 c1) (Ideal.ofBits .f32 c2) a h0 h w1 w2 b) := by
  refine mat_ext (a := 40000) (b := 128) fun p q => ?_
  rw [maximumf_apply, addf_apply, addf_apply, addf_apply, mulf_apply, mulf_apply, addf_apply, addf_apply, mulf_apply, mulf_apply,
    rowBias_apply,
    Cert.LibDotPlain.dotGeneral_apply dot_S40000x128_S128x128_S40000x128_1_0_0_1_n_n rfl rfl rfl rfl rfl rfl,
    Cert.LibDotPlain.dotGeneral_apply dot_S40000x128_S128x128_S40000x128_1_0_0_1_n_n rfl rfl rfl rfl rfl rfl,
    ofEntries_apply]
  simp only [mulf_apply, splat_apply]
  rfl

/-- The last dense layer: h w + b. -/
theorem stage_fc2 (h : FVec Ideal S40000x128 .f32) (w : FVec Ideal S128x64 .f32) (b : FVec Ideal S64 .f32) :
    addf (F := Ideal) (s := S40000x64) (φ := .f32)
      (Host.dotGeneral (F := Ideal) dot_S40000x128_S128x64_S40000x64_1_0_0_1_n_n none h w)
      (broadcastInDim S40000x64 ![0, 1] bcast_S1x64_S40000x64_0_1 (broadcastInDim S1x64 ![1] bcast_S64_S1x64_1 b))
    = ofEntries (fc2 h w b) := by
  refine mat_ext (a := 40000) (b := 64) fun p q => ?_
  rw [addf_apply, rowBias64_apply,
    Cert.LibDotPlain.dotGeneral_apply dot_S40000x128_S128x64_S40000x64_1_0_0_1_n_n rfl rfl rfl rfl rfl rfl, ofEntries_apply]
  rfl

end Cert.RefSide

end
-- ==== Proof.RefRun.lean ====
/-
  The reference's result as the network of the specification.

  The generated read-back of the reference names every operation's value as a function of the arguments
  (one definition per operation, each over the earlier ones).  Here those values are folded stage by stage:
  the first dense layer, then four times a neighbour aggregation followed by a graph-convolution layer, then
  the last dense layer; the composed term the reference's run ends with is therefore the network applied to
  the arguments.
-/
import proofs.«153677_j23742579212601_1_alg».proof.Proof.Gen.ReferenceIdeal.Read
import proofs.«153677_j23742579212601_1_alg».proof.Proof.RefSideDefs
import proofs.«153677_j23742579212601_1_alg».proof.Proof.RefSideStages

noncomputable section

namespace Cert.RefSide

open Idealize.ShloMosaic Idealize.ShloMosaic.TcCoe Idealize.SL.Sem Cert.ReferenceIdeal Cert.ReferenceIdeal.Read Cert.Gcn

section Stages

variable (x0 : FVec Ideal S40000x256 .f32) (x1 : FVec Ideal S256x128 .f32) (x2 : FVec Ideal S128 .f32)
  (x3 x4 : FVec Ideal S4x128x128 .f32) (x5 : FVec Ideal S4x128 .f32) (x6 : FVec Ideal S128x64 .f32)
  (x7 : FVec Ideal S64 .f32) (x8 x9 : IVec S640000 32)

/-- The first dense layer. -/
theorem h0_eq : val_main_v19 (F := Ideal) x0 x1 x2 = ofEntries (fc1 x0 x1 x2) := stage_fc1 x0 x1 x2

/-- Layer 0: the aggregated features are the neighbour aggregation of the layer's input. -/
theorem agg0_eq : val_main_v33 (F := Ideal) x0 x1 x2 x8 x9 = A x8 x9 (val_main_v19 (F := Ideal) x0 x1 x2) := rfl

/-- Layer 0: its result is the specification's layer of the aggregation, the first layer's result and its input. -/
theorem out0_eq : val_main_v57 (F := Ideal) x0 x1 x2 x3 x4 x5 x8 x9
    = ofEntries (comb (c1w 0) (c2w 0) (A x8 x9 (val_main_v19 (F := Ideal) x0 x1 x2)) (val_main_v19 (F := Ideal) x0 x1 x2) (val_main_v19 (F := Ideal) x0 x1 x2)
        (s1 x3 0) (s2 x4 0) (sb x5 0)) := by
  rw [← agg0_eq]
  exact stage_comb 0x3E9D1BD0#32 0x3F317218#32 (val_main_v33 (F := Ideal) x0 x1 x2 x8 x9) (val_main_v19 (F := Ideal) x0 x1 x2) (val_main_v19 (F := Ideal) x0 x1 x2) (s1 x3 0) (s2 x4 0) (sb x5 0)

/-- Layer 1: the aggregated features are the neighbour aggregation of the layer's input. -/
theorem agg1_eq : val_main_v71 (F := Ideal) x0 x1 x2 x3 x4 x5 x8 x9 = A x8 x9 (val_main_v57 (F := Ideal) x0 x1 x2 x3 x4 x5 x8 x9) := rfl

/-- Layer 1: its result is the specification's layer of the aggregation, the first layer's result and its input. -/
theorem out1_eq : val_main_v95 (F := Ideal) x0 x1 x2 x3 x4 x5 x8 x9
    = ofEntries (comb (c1w 1) (c2w 1) (A x8 x9 (val_main_v57 (F := Ideal) x0 x1 x2 x3 x4 x5 x8 x9)) (val_main_v19 (F := Ideal) x0 x1 x2) (val_main_v57 (F := Ideal) x0 x1 x2 x3 x4 x5 x8 x9)
        (s1 x3 1) (s2 x4 1) (sb x5 1)) := by
  rw [← agg1_eq]
  exact stage_comb 0x3F183370#32 0x3ECF991F#32 (val_main_v71 (F := Ideal) x0 x1 x2 x3 x4 x5 x8 x9) (val_main_v19 (F := Ideal) x0 x1 x2) (val_main_v57 (F := Ideal) x0 x1 x2 x3 x4 x5 x8 x9) (s1 x3 1) (s2 x4 1) (sb x5 1)

/-- Layer 2: the aggregated features are the neighbour aggregation of the layer's input. -/
theorem agg2_eq : val_main_v109 (F := Ideal) x0 x1 x2 x3 x4 x5 x8 x9 = A x8 x9 (val_main_v95 (F := Ideal) x0 x1 x2 x3 x4 x5 x8 x9) := rfl

/-- Layer 2: its result is the specification's layer of the aggregation, the first layer's result and its input. -/
theorem out2_eq : val_main_v133 (F := Ideal) x0 x1 x2 x3 x4 x5 x8 x9
    = ofEntries (comb (c1w 2) (c2w 2) (A x8 x9 (val_main_v95 (F := Ideal) x0 x1 x2 x3 x4 x5 x8 x9)) (val_main_v19 (F := Ideal) x0 x1 x2) (val_main_v95 (F := Ideal) x0 x1 x2 x3 x4 x5 x8 x9)
        (s1 x3 2) (s2 x4 2) (sb x5 2)) := by
  rw [← agg2_eq]
  exact stage_comb 0x3F365A78#32 0x3E934B11#32 (val_main_v109 (F := Ideal) x0 x1 x2 x3 x4 x5 x8 x9) (val_main_v19 (F := Ideal) x0 x1 x2) (val_main_v95 (F := Ideal) x0 x1 x2 x3 x4 x5 x8 x9) (s1 x3 2) (s2 x4 2) (sb x5 2)

/-- Layer 3: the aggregated features are the neighbour aggregation of the layer's input. -/
theorem agg3_eq : val_main_v147 (F := Ideal) x0 x1 x2 x3 x4 x5 x8 x9 = A x8 x9 (val_main_v133 (F := Ideal) x0 x1 x2 x3 x4 x5 x8 x9) := rfl

/-- Layer 3: its result is the specification's layer of the aggregation, the first layer's result and its input. -/
theorem out3_eq : val_main_v171 (F := Ideal) x0 x1 x2 x3 x4 x5 x8 x9
    = ofEntries (comb (c1w 3) (c2w 3) (A x8 x9 (val_main_v133 (F := Ideal) x0 x1 x2 x3 x4 x5 x8 x9)) (val_main_v19 (F := Ideal) x0 x1 x2) (val_main_v133 (F := Ideal) x0 x1 x2 x3 x4 x5 x8 x9)
        (s1 x3 3) (s2 x4 3) (sb x5 3)) := by
  rw [← agg3_eq]
  exact stage_comb 0x3F46E010#32 0x3E647FBE#32 (val_main_v147 (F := Ideal) x0 x1 x2 x3 x4 x5 x8 x9) (val_main_v19 (F := Ideal) x0 x1 x2) (val_main_v133 (F := Ideal) x0 x1 x2 x3 x4 x5 x8 x9) (s1 x3 3) (s2 x4 3) (sb x5 3)

/-- The last dense layer. -/
theorem last_eq : val_main_v175 (F := Ideal) x0 x1 x2 x3 x4 x5 x6 x7 x8 x9 = ofEntries (fc2 (val_main_v171 (F := Ideal) x0 x1 x2 x3 x4 x5 x8 x9) x6 x7) :=
  stage_fc2 (val_main_v171 (F := Ideal) x0 x1 x2 x3 x4 x5 x8 x9) x6 x7

/-- The reference's result is the network of the specification applied to the arguments. -/
theorem val_eq_net : val_main_v175 (F := Ideal) x0 x1 x2 x3 x4 x5 x6 x7 x8 x9
    = net (A x8 x9) (s1 x3) (s2 x4) (sb x5) x0 x1 x2 x6 x7 := by
  rw [last_eq, out3_eq, out2_eq, out1_eq, out0_eq, h0_eq]
  rfl

end Stages

/-- The term the reference's run ends with, as the network applied to the launch contents of the arguments. -/
theorem res_eq_net (m : (ℓ : Loc nD τ sig) → Buf (Elt Ideal) ℓ) (c : Dev nD) :
    Cert.ReferenceIdeal.Value.res_main_v175 m c
      = net (A (m ((c.tc : Thread nD τ).loc main_arg8)) (m ((c.tc : Thread nD τ).loc main_arg9)))
          (s1 (m ((c.tc : Thread nD τ).loc main_arg3))) (s2 (m ((c.tc : Thread nD τ).loc main_arg4)))
          (sb (m ((c.tc : Thread nD τ).loc main_arg5)))
          (m ((c.tc : Thread nD τ).loc main_arg0)) (m ((c.tc : Thread nD τ).loc main_arg1)) (m ((c.tc : Thread nD τ).loc main_arg2))
          (m ((c.tc : Thread nD τ).loc main_arg6)) (m ((c.tc : Thread nD τ).loc main_arg7)) :=
  (val_main_v175_eq (F := Ideal) m c).trans (val_eq_net _ _ _ _ _ _ _ _ _ _)

end Cert.RefSide

end
-- ==== Proof.RefSide.lean ====
/-
  The reference side of the certificate: its run ends with the network of the specification at the result
  buffer and with every argument unchanged, and, the result dropped, that is its frame.
-/
import proofs.«153677_j23742579212601_1_alg».proof.Defs
import proofs.«153677_j23742579212601_1_alg».proof.Proof.Gen.Pre_finite_inputs
import proofs.«153677_j23742579212601_1_alg».proof.Proof.RefRun

noncomputable section

namespace Cert.RefSide

open Idealize.ShloMosaic Idealize.ShloMosaic.TcCoe Idealize.SL.Sem Cert.ReferenceIdeal Cert.Gcn

/-- From any memory with zero counters, every weakly fair execution of the reference terminates with its result
    the network applied to the arguments' launch contents (the neighbour aggregation, the weight slices and the
    bias rows being the reference's own host terms of them) and with the ten arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v175)
        = net (A (m ((c.tc : Thread nD τ).loc main_arg8)) (m ((c.tc : Thread nD τ).loc main_arg9)))
            (s1 (m ((c.tc : Thread nD τ).loc main_arg3))) (s2 (m ((c.tc : Thread nD τ).loc main_arg4))) (sb (m ((c.tc : Thread nD τ).loc main_arg5)))
            (m ((c.tc : Thread nD τ).loc main_arg0)) (m ((c.tc : Thread nD τ).loc main_arg1)) (m ((c.tc : Thread nD τ).loc main_arg2))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.ReferenceIdeal.defs (F := Ideal)) _ _).mono (fun _ h c => ⟨((h c).1).trans (res_eq_net m c), (h c).2⟩)
    (Cert.ReferenceIdeal.Value.run (F := Ideal) m ρ)

/-- The reference runs to the end, faults nowhere and leaves its arguments unchanged. -/
theorem frame_ri : Cert.frame_ReferenceIdeal :=
  fun m ρ _ => (θ_run (Cert.ReferenceIdeal.defs (F := Ideal)) _ _).mono (fun _ h c => (h c).2)
    (Cert.ReferenceIdeal.Value.run (F := Ideal) m ρ)

end Cert.RefSide

end
-- ==== Proof.KIReg0.lean ====
/-
  Pallas call 0 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.KernelIdeal.Launch
import proofs.«153677_j23742579212601_1_alg».proof.Proof.Gen.KernelIdeal.Skeleton
import proofs.«153677_j23742579212601_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S4000x256 := Rect.unit (s := S4000x256) ![0, 0] S4000x256.size inb_S4000x256_S4000x256_0_0
abbrev r0_1 : Rect S256x128 := Rect.unit (s := S256x128) ![0, 0] S256x128.size inb_S256x128_S256x128_0_0
abbrev r0_2 : Rect S128 := Rect.unit (s := S128) ![0] S128.size inb_S128_S128_0
abbrev r0_3 : Rect S4000x128 := Rect.unit (s := S4000x128) ![0, 0] S4000x128.size inb_S4000x128_S4000x128_0_0

/-- The output window's staging buffer after the body: its one store, of the body's value of the loaded blocks. -/
def out0_3 (x0 : Vec F S4000x256 .f32) (x1 : Vec F S256x128 .f32) (x2 : Vec F S128 .f32) : Vec F S4000x128 .f32 :=
  View.canon [⟨r0_3, k0_pay1 (View.ld x0 r0_0) (View.ld x1 r0_1) (View.ld x2 r0_2)⟩]

/-- The store covers the buffer. -/
theorem cover0_3 (p0 : Vec F S4000x128 .f32) (y : S4000x128.Idx) :
    ∃ pc ∈ ([⟨r0_3, p0⟩] : List (View.Piece (Elt F) S4000x128 .f32)), y ∈ pc.1.set :=
  View.cover_of_tiled [⟨r0_3, p0⟩] S4000x128.size (by rfl) y

set_option maxHeartbeats 1000000 in
/-- The kernel body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S4000x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S4000x128 .f32) (harg4 : arg4.IsWhole)
    (x0 : Vec F S4000x256 .f32) (x1 : Vec F S256x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc1_kernel i arg1 harg1 arg2 harg2 arg3 harg3 arg4 harg4) K := by
  simp only [cc0__fc1_kernel_eq_skeleton]; unfold cc0__fc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at the body's value of the input blocks; the scoped rest and the
    generator register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIReg2.lean ====
/-
  Pallas call 2 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.KernelIdeal.Launch
import proofs.«153677_j23742579212601_1_alg».proof.Proof.Gen.KernelIdeal.Skeleton
import proofs.«153677_j23742579212601_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S4000x128 := Rect.unit (s := S4000x128) ![0, 0] S4000x128.size inb_S4000x128_S4000x128_0_0
abbrev r2_1 : Rect S4000x128 := Rect.unit (s := S4000x128) ![0, 0] S4000x128.size inb_S4000x128_S4000x128_0_0
abbrev r2_2 : Rect S4000x128 := Rect.unit (s := S4000x128) ![0, 0] S4000x128.size inb_S4000x128_S4000x128_0_0
abbrev r2_3 : Rect S128x128 := Rect.unit (s := S128x128) ![0, 0] S128x128.size inb_S128x128_S128x128_0_0
abbrev r2_4 : Rect S128x128 := Rect.unit (s := S128x128) ![0, 0] S128x128.size inb_S128x128_S128x128_0_0
abbrev r2_5 : Rect S128 := Rect.unit (s := S128) ![0] S128.size inb_S128_S128_0
abbrev r2_6 : Rect S4000x128 := Rect.unit (s := S4000x128) ![0, 0] S4000x128.size inb_S4000x128_S4000x128_0_0

/-- The output window's staging buffer after the body: its one store, of the body's value of the loaded blocks. -/
def out2_6 (x0 : Vec F S4000x128 .f32) (x1 : Vec F S4000x128 .f32) (x2 : Vec F S4000x128 .f32) (x3 : Vec F S128x128 .f32) (x4 : Vec F S128x128 .f32) (x5 : Vec F S128 .f32) : Vec F S4000x128 .f32 :=
  View.canon [⟨r2_6, k2_pay1 (View.ld x0 r2_0) (View.ld x1 r2_1) (View.ld x2 r2_2) (View.ld x3 r2_3) (View.ld x4 r2_4) (View.ld x5 r2_5)⟩]

/-- The store covers the buffer. -/
theorem cover2_6 (p0 : Vec F S4000x128 .f32) (y : S4000x128.Idx) :
    ∃ pc ∈ ([⟨r2_6, p0⟩] : List (View.Piece (Elt F) S4000x128 .f32)), y ∈ pc.1.set :=
  View.cover_of_tiled [⟨r2_6, p0⟩] S4000x128.size (by rfl) y

set_option maxHeartbeats 1000000 in
/-- The kernel body on whole staging memrefs, the inputs' at contents `xW` and the output's at anything, runs to the
    continuation holding the inputs' as they were and the output's at `out2_6` of the inputs'. -/
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core `c`: the arrays as the region finds them; after the body at point `t` each
    input's buffer at its block and the output's at the body's value of the input blocks; the scoped rest and the
    generator register pass through untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KIReg3.lean ====
/-
  Pallas call 3 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.KernelIdeal.Launch
import proofs.«153677_j23742579212601_1_alg».proof.Proof.Gen.KernelIdeal.Skeleton
import proofs.«153677_j23742579212601_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S4000x128 := Rect.unit (s := S4000x128) ![0, 0] S4000x128.size inb_S4000x128_S4000x128_0_0
abbrev r3_1 : Rect S4000x128 := Rect.unit (s := S4000x128) ![0, 0] S4000x128.size inb_S4000x128_S4000x128_0_0
abbrev r3_2 : Rect S4000x128 := Rect.unit (s := S4000x128) ![0, 0] S4000x128.size inb_S4000x128_S4000x128_0_0
abbrev r3_3 : Rect S128x128 := Rect.unit (s := S128x128) ![0, 0] S128x128.size inb_S128x128_S128x128_0_0
abbrev r3_4 : Rect S128x128 := Rect.unit (s := S128x128) ![0, 0] S128x128.size inb_S128x128_S128x128_0_0
abbrev r3_5 : Rect S128 := Rect.unit (s := S128) ![0] S128.size inb_S128_S128_0
abbrev r3_6 : Rect S4000x128 := Rect.unit (s := S4000x128) ![0, 0] S4000x128.size inb_S4000x128_S4000x128_0_0

/-- The output window's staging buffer after the body: its one store, of the body's value of the loaded blocks. -/
def out3_6 (x0 : Vec F S4000x128 .f32) (x1 : Vec F S4000x128 .f32) (x2 : Vec F S4000x128 .f32) (x3 : Vec F S128x128 .f32) (x4 : Vec F S128x128 .f32) (x5 : Vec F S128 .f32) : Vec F S4000x128 .f32 :=
  View.canon [⟨r3_6, k3_pay1 (View.ld x0 r3_0) (View.ld x1 r3_1) (View.ld x2 r3_2) (View.ld x3 r3_3) (View.ld x4 r3_4) (View.ld x5 r3_5)⟩]

/-- The store covers the buffer. -/
theorem cover3_6 (p0 : Vec F S4000x128 .f32) (y : S4000x128.Idx) :
    ∃ pc ∈ ([⟨r3_6, p0⟩] : List (View.Piece (Elt F) S4000x128 .f32)), y ∈ pc.1.set :=
  View.cover_of_tiled [⟨r3_6, p0⟩] S4000x128.size (by rfl) y

set_option maxHeartbeats 1000000 in
/-- The kernel body on whole staging memrefs, the inputs' at contents `xW` and the output's at anything, runs to the
    continuation holding the inputs' as they were and the output's at `out3_6` of the inputs'. -/
theorem sound_kernel3 (c : Dev nD) (E : Set ℕ) (i : grid3.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__combine_kernel i arg1 harg1 arg2 harg2 arg3 harg3 arg4 harg4 arg5 harg5 arg6 harg6 arg7 harg7) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3 on core `c`: the arrays as the region finds them; after the body at point `t` each
    input's buffer at its block and the output's at the body's value of the input blocks; the scoped rest and the
    generator register pass through untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KIReg4.lean ====
/-
  Pallas call 4 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.KernelIdeal.Launch
import proofs.«153677_j23742579212601_1_alg».proof.Proof.Gen.KernelIdeal.Skeleton
import proofs.«153677_j23742579212601_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_0 : Rect S4000x128 := Rect.unit (s := S4000x128) ![0, 0] S4000x128.size inb_S4000x128_S4000x128_0_0
abbrev r4_1 : Rect S4000x128 := Rect.unit (s := S4000x128) ![0, 0] S4000x128.size inb_S4000x128_S4000x128_0_0
abbrev r4_2 : Rect S4000x128 := Rect.unit (s := S4000x128) ![0, 0] S4000x128.size inb_S4000x128_S4000x128_0_0
abbrev r4_3 : Rect S128x128 := Rect.unit (s := S128x128) ![0, 0] S128x128.size inb_S128x128_S128x128_0_0
abbrev r4_4 : Rect S128x128 := Rect.unit (s := S128x128) ![0, 0] S128x128.size inb_S128x128_S128x128_0_0
abbrev r4_5 : Rect S128 := Rect.unit (s := S128) ![0] S128.size inb_S128_S128_0
abbrev r4_6 : Rect S4000x128 := Rect.unit (s := S4000x128) ![0, 0] S4000x128.size inb_S4000x128_S4000x128_0_0

/-- The output window's staging buffer after the body: its one store, of the body's value of the loaded blocks. -/
def out4_6 (x0 : Vec F S4000x128 .f32) (x1 : Vec F S4000x128 .f32) (x2 : Vec F S4000x128 .f32) (x3 : Vec F S128x128 .f32) (x4 : Vec F S128x128 .f32) (x5 : Vec F S128 .f32) : Vec F S4000x128 .f32 :=
  View.canon [⟨r4_6, k4_pay1 (View.ld x0 r4_0) (View.ld x1 r4_1) (View.ld x2 r4_2) (View.ld x3 r4_3) (View.ld x4 r4_4) (View.ld x5 r4_5)⟩]

/-- The store covers the buffer. -/
theorem cover4_6 (p0 : Vec F S4000x128 .f32) (y : S4000x128.Idx) :
    ∃ pc ∈ ([⟨r4_6, p0⟩] : List (View.Piece (Elt F) S4000x128 .f32)), y ∈ pc.1.set :=
  View.cover_of_tiled [⟨r4_6, p0⟩] S4000x128.size (by rfl) y

set_option maxHeartbeats 1000000 in
/-- The kernel body on whole staging memrefs, the inputs' at contents `xW` and the output's at anything, runs to the
    continuation holding the inputs' as they were and the output's at `out4_6` of the inputs'. -/
theorem sound_kernel4 (c : Dev nD) (E : Set ℕ) (i : grid4.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__combine_kernel i arg1 harg1 arg2 harg2 arg3 harg3 arg4 harg4 arg5 harg5 arg6 harg6 arg7 harg7) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of pipeline 4 on core `c`: the arrays as the region finds them; after the body at point `t` each
    input's buffer at its block and the output's at the body's value of the input blocks; the scoped rest and the
    generator register pass through untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation4 (c : Dev nD) : BodyObligation (dat4 (F := F) V c) (defs₀ (F := F)) Variants.none () Set.univ := fun t => by
  rw [bigSep_W4, bigSep_W4]
  exact sound_body4 V c t

end Region

end Cert.KernelIdeal.Hand

end
-- ==== Proof.KIReg5.lean ====
/-
  Pallas call 5 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.KernelIdeal.Launch
import proofs.«153677_j23742579212601_1_alg».proof.Proof.Gen.KernelIdeal.Skeleton
import proofs.«153677_j23742579212601_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_0 : Rect S4000x128 := Rect.unit (s := S4000x128) ![0, 0] S4000x128.size inb_S4000x128_S4000x128_0_0
abbrev r5_1 : Rect S128x64 := Rect.unit (s := S128x64) ![0, 0] S128x64.size inb_S128x64_S128x64_0_0
abbrev r5_2 : Rect S64 := Rect.unit (s := S64) ![0] S64.size inb_S64_S64_0
abbrev r5_3 : Rect S4000x64 := Rect.unit (s := S4000x64) ![0, 0] S4000x64.size inb_S4000x64_S4000x64_0_0

/-- The output window's staging buffer after the body: its one store, of the body's value of the loaded blocks. -/
def out5_3 (x0 : Vec F S4000x128 .f32) (x1 : Vec F S128x64 .f32) (x2 : Vec F S64 .f32) : Vec F S4000x64 .f32 :=
  View.canon [⟨r5_3, k5_pay1 (View.ld x0 r5_0) (View.ld x1 r5_1) (View.ld x2 r5_2)⟩]

/-- The store covers the buffer. -/
theorem cover5_3 (p0 : Vec F S4000x64 .f32) (y : S4000x64.Idx) :
    ∃ pc ∈ ([⟨r5_3, p0⟩] : List (View.Piece (Elt F) S4000x64 .f32)), y ∈ pc.1.set :=
  View.cover_of_tiled [⟨r5_3, p0⟩] S4000x64.size (by rfl) y

set_option maxHeartbeats 1000000 in
/-- The kernel body on whole staging memrefs, the inputs' at contents `xW` and the output's at anything, runs to the
    continuation holding the inputs' as they were and the output's at `out5_3` of the inputs'. -/
theorem sound_kernel5 (c : Dev nD) (E : Set ℕ) (i : grid5.Coords) (arg1 : Memref sig .tc .vmem S4000x128 .f32) (harg1 : arg1.IsWhole) (arg2 : Memref sig .tc .vmem S128x64 .f32) (harg2 : arg2.IsWhole) (arg3 : Memref sig .tc .vmem S64 .f32) (harg3 : arg3.IsWhole) (arg4 : Memref sig .tc .vmem S4000x64 .f32) (harg4 : arg4.IsWhole)
    (x0 : Vec F S4000x128 .f32) (x1 : Vec F S128x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__fc2_kernel i arg1 harg1 arg2 harg2 arg3 harg3 arg4 harg4) K := by
  simp only [cc5__fc2_kernel_eq_skeleton]; unfold cc5__fc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body at point `t` each
    input's buffer at its block and the output's at the body's value of the input blocks; the scoped rest and the
    generator register pass through untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Region

end Cert.KernelIdeal.Hand

end
-- ==== Proof.KIReg1.lean ====
/-
  Kernel call 1 of the program (the first combine layer) as one region of @main, at any contents `V` of the
  TensorCore's buffers when the region is entered: the block of each window at a grid point, what the kernel body
  leaves in the output window's staging buffer (its one whole-block store of the body's value of the six input
  blocks), the body's triple, the pipeline's proof data and the body obligation at every point.
  Windows 1 and 2 of this call stage the SAME array (the layer's input features, passed twice), so the proof data
  hold that array at two complementary half shares, one per window; every other input array is held whole.
-/
import proofs.«153677_j23742579212601_1_alg».proof.Proof.Gen.KernelIdeal.Launch
import proofs.«153677_j23742579212601_1_alg».proof.Proof.Gen.KernelIdeal.Skeleton
import proofs.«153677_j23742579212601_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S128 := Rect.unit (s := S128) ![0] S128.size inb_S128_S128_0

/-- The output window's staging buffer after the body: its one store, of the body's value of the loaded blocks. -/
def out1_6 (x0 : Vec F S4000x128 .f32) (x1 : Vec F S4000x128 .f32) (x2 : Vec F S4000x128 .f32) (x3 : Vec F S128x128 .f32)
    (x4 : Vec F S128x128 .f32) (x5 : Vec F S128 .f32) : Vec F S4000x128 .f32 :=
  View.canon [⟨r1_0, k1_pay1 (View.ld x0 r1_0) (View.ld x1 r1_0) (View.ld x2 r1_0) (View.ld x3 r1_1) (View.ld x4 r1_1) (View.ld x5 r1_2)⟩]

/-- The store covers the buffer. -/
theorem cover1_6 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

set_option maxHeartbeats 1000000 in
/-- The kernel body on whole staging memrefs, the inputs' at contents `xW` and the output's at anything, runs to the
    continuation holding the inputs' as they were and the output's at `out1_6` of the inputs'. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__combine_kernel i arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t` each
    input's buffer at its block and the output's at the body's value of the input blocks; the scoped rest and the
    generator register pass through untouched; nothing owed. Windows 1 and 2 read one array: each holds it at one of
    the two complementary halves of the full share; the other input arrays are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- The shares the proof data hold the arrays at: the array of windows 1 and 2 halved between them, every other
    array whole. -/
theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIReg1b.lean ====
/-
  Kernel call 1 (the first combine layer) as a region: its windows' arrays split out of the core's unscoped buffers
  when the region is entered and put back when it is left. Six distinct buffers stand behind the seven windows: the
  layer's input features are read through windows 1 and 2, so that buffer's points-to is halved along the share at
  entry, one half per window, and the two halves are rejoined at exit (an input array is never written, so both halves
  still hold the entry contents). The output window's array returns at what the write-backs leave.
-/
import proofs.«153677_j23742579212601_1_alg».proof.Proof.KIReg1
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The distinct buffers behind the seven windows' arrays. -/
theorem arrImage1 : (Finset.univ.image (Pipeline.arrRef spec1) : Finset (Ref sig .tc))
    = {main_v29, main_v15, main_v31, main_v33, main_v35, main_v36} := by decide

/-- A window's array, a whole buffer, held at the window's share. -/
theorem arr1_piece (c : Dev nD) (w : Fin cfg1.W) (q : PosShare TreeShare) (hq : (dat1 V c).share w = q)
    (G : Buf (Elt F) ((cfg1.win w).arr.view.loc (c : Thread nD τ))) :
    ((cfg1.win w).arr.view.loc (c : Thread nD τ) ↦[(cfg1.win w).arr.view.set]{(dat1 V c).share w} G : sProp 𝕄)
      = (((c : Thread nD τ).loc (Pipeline.arrRef spec1 w)) ↦{q} G) := by
  rw [(arr_whole1 w).set_eq_univ, hq]

/-- The pipeline's arrays at contents `G`, window by window: the shared buffer at its two halves. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_v29) ↦{fullShare} G 0) ∗
      (((c : Thread nD τ).loc main_v15) ↦{fullShare.left} G 1) ∗
      (((c : Thread nD τ).loc main_v15) ↦{fullShare.right} G 2) ∗
      (((c : Thread nD τ).loc main_v31) ↦{fullShare} G 3) ∗
      (((c : Thread nD τ).loc main_v33) ↦{fullShare} G 4) ∗
      (((c : Thread nD τ).loc main_v35) ↦{fullShare} G 5) ∗
      (((c : Thread nD τ).loc main_v36) ↦{fullShare} G 6)) := by
  unfold Dat.arrays
  rw [bigSep_W1]
  exact congrArg₂ BI.sep (arr1_piece V c 0 fullShare (share1_0 V c) (G 0))
    (congrArg₂ BI.sep (arr1_piece V c 1 fullShare.left (share1_1 V c) (G 1))
    (congrArg₂ BI.sep (arr1_piece V c 2 fullShare.right (share1_2 V c) (G 2))
    (congrArg₂ BI.sep (arr1_piece V c 3 fullShare (share1_3 V c) (G 3))
    (congrArg₂ BI.sep (arr1_piece V c 4 fullShare (share1_4 V c) (G 4))
    (congrArg₂ BI.sep (arr1_piece V c 5 fullShare (share1_5 V c) (G 5))
      (arr1_piece V c 6 fullShare (share1_6 V c) (G 6)))))))

/-- The core's unscoped buffers at contents `X`: the six buffers behind the windows, and the rest. -/
theorem unscopedBufs1_eq (c : Dev nD) (X : (b : Ref sig .tc) → Buf (Elt F) ((c : Thread nD τ).loc b)) :
    (unscopedBufs (Ix := Unit) (Name := ℕ) (U := UR sig nD τ) (Lvl := ℕ) c X : sProp 𝕄) = iprop(
      ((((c : Thread nD τ).loc main_v29) ↦{fullShare} X main_v29) ∗
      (((c : Thread nD τ).loc main_v15) ↦{fullShare} X main_v15) ∗
      (((c : Thread nD τ).loc main_v31) ↦{fullShare} X main_v31) ∗
      (((c : Thread nD τ).loc main_v33) ↦{fullShare} X main_v33) ∗
      (((c : Thread nD τ).loc main_v35) ↦{fullShare} X main_v35) ∗
      (((c : Thread nD τ).loc main_v36) ↦{fullShare} X main_v36))
      ∗ Pipeline.unscopedRest (Ix := Unit) (Name := ℕ) (U := UR sig nD τ) (Lvl := ℕ) spec1 c X) := by
  have h : (unscopedBufs (Ix := Unit) (Name := ℕ) (U := UR sig nD τ) (Lvl := ℕ) c X : sProp 𝕄)
      = iprop(Pipeline.arrBufs (Ix := Unit) (Name := ℕ) (U := UR sig nD τ) (Lvl := ℕ) spec1 c X ∗ Pipeline.unscopedRest (Ix := Unit) (Name := ℕ) (U := UR sig nD τ) (Lvl := ℕ) spec1 c X) :=
    Pipeline.unscopedBufs_split₀ cfgs (1 : Fin 6) winFacts₀1.arr_unscoped c X
  rw [h]
  unfold Pipeline.arrBufs
  rw [arrImage1, bigSep_insert (by decide), bigSep_insert (by decide), bigSep_insert (by decide), bigSep_insert (by decide),
    bigSep_insert (by decide), bigSep_singleton]
  rfl

/-- ENTRY: the core's unscoped buffers at the entry contents give the pipeline's arrays at their entry contents — the
    buffer read through windows 1 and 2 halved between them — beside the unscoped buffers no window stages. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [unscopedBufs1_eq, arrays1_eq]
  iintro ⟨⟨H29, H15, H31, H33, H35, H36⟩, Hrest⟩
  ihave H := (pointsTo_share (PosShare.mem_left_op_right fullShare)).1 $$ H15
  icases H with ⟨H15a, H15b⟩
  isplitr [Hrest]
  swap; · iexact Hrest
  isplitl [H29]; · iexact H29
  isplitl [H15a]; · iexact H15a
  isplitl [H15b]; · iexact H15b
  isplitl [H31]; · iexact H31
  isplitl [H33]; · iexact H33
  isplitl [H35]; · iexact H35
  iexact H36

/-- EXIT: the pipeline's arrays at what it leaves — each input array at its entry contents, the two halves of the
    shared buffer rejoined, the output array at its write-backs — and the unscoped buffers no window stages are the
    core's unscoped buffers at any contents `V'` that have the output array at what the write-backs leave and agree
    with the entry contents everywhere else. -/
theorem exit1 (c : Dev nD) (V' : (b : Ref sig .tc) → Buf (Elt F) ((c : Thread nD τ).loc b))
    (hout : (dat1 V c).arrAt 6 cfg1.N = V' main_v36) (hrest : ∀ b, b ≠ main_v36 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have e0 : (dat1 V c).arrAt 0 cfg1.N = V' main_v29 :=
    ((dat1 V c).arrAt_in 0 rfl _).trans ((A_eq1 V c 0).trans (hrest main_v29 (by decide)).symm)
  have e1 : (dat1 V c).arrAt 1 cfg1.N = V' main_v15 :=
    ((dat1 V c).arrAt_in 1 rfl _).trans ((A_eq1 V c 1).trans (hrest main_v15 (by decide)).symm)
  have e2 : (dat1 V c).arrAt 2 cfg1.N = V' main_v15 :=
    ((dat1 V c).arrAt_in 2 rfl _).trans ((A_eq1 V c 2).trans (hrest main_v15 (by decide)).symm)
  have e3 : (dat1 V c).arrAt 3 cfg1.N = V' main_v31 :=
    ((dat1 V c).arrAt_in 3 rfl _).trans ((A_eq1 V c 3).trans (hrest main_v31 (by decide)).symm)
  have e4 : (dat1 V c).arrAt 4 cfg1.N = V' main_v33 :=
    ((dat1 V c).arrAt_in 4 rfl _).trans ((A_eq1 V c 4).trans (hrest main_v33 (by decide)).symm)
  have e5 : (dat1 V c).arrAt 5 cfg1.N = V' main_v35 :=
    ((dat1 V c).arrAt_in 5 rfl _).trans ((A_eq1 V c 5).trans (hrest main_v35 (by decide)).symm)
  have hR : (Pipeline.unscopedRest (Ix := Unit) (Name := ℕ) (U := UR sig nD τ) (Lvl := ℕ) spec1 c (V c) : sProp 𝕄) = Pipeline.unscopedRest (Ix := Unit) (Name := ℕ) (U := UR sig nD τ) (Lvl := ℕ) spec1 c V' := by
    unfold Pipeline.unscopedRest
    exact bigSep_congr fun b hb => by
      rw [hrest b fun e => (Finset.mem_sdiff.mp hb).2 (e ▸ Finset.mem_image.mpr ⟨6, Finset.mem_univ _, rfl⟩)]
  rw [unscopedBufs1_eq, arrays1_eq, hR]
  iintro ⟨⟨H29, H15a, H15b, H31, H33, H35, H36⟩, Hrest⟩
  ihave H15 := ((pointsTo_share (f := V' main_v15) (PosShare.mem_left_op_right fullShare)).2) $$ [H15a H15b]
  · isplitl [H15a]
    · iapply (Entails.of_eq (congrArg (fun x => (((c : Thread nD τ).loc main_v15) ↦{fullShare.left} x : sProp 𝕄)) e1)); iexact H15a
    · iapply (Entails.of_eq (congrArg (fun x => (((c : Thread nD τ).loc main_v15) ↦{fullShare.right} x : sProp 𝕄)) e2)); iexact H15b
  isplitr [Hrest]
  swap; · iexact Hrest
  isplitl [H29]
  · iapply (Entails.of_eq (congrArg (fun x => (((c : Thread nD τ).loc main_v29) ↦{fullShare} x : sProp 𝕄)) e0)); iexact H29
  isplitl [H15]; · iexact H15
  isplitl [H31]
  · iapply (Entails.of_eq (congrArg (fun x => (((c : Thread nD τ).loc main_v31) ↦{fullShare} x : sProp 𝕄)) e3)); iexact H31
  isplitl [H33]
  · iapply (Entails.of_eq (congrArg (fun x => (((c : Thread nD τ).loc main_v33) ↦{fullShare} x : sProp 𝕄)) e4)); iexact H33
  isplitl [H35]
  · iapply (Entails.of_eq (congrArg (fun x => (((c : Thread nD τ).loc main_v35) ↦{fullShare} x : sProp 𝕄)) e5)); iexact H35
  iapply (Entails.of_eq (congrArg (fun x => (((c : Thread nD τ).loc main_v36) ↦{fullShare} x : sProp 𝕄)) hout)); iexact H36

end Region

end Cert.KernelIdeal.Hand

end
-- ==== Proof.KIRun.lean ====
/-
  The whole program as a run of its segments: the buffers' contents at each boundary of @main as a fold from the
  launch memory (a host stretch applies its operations; a Pallas call leaves its arrays at what its pipeline writes
  back and every other buffer as entered), each argument walked back through the fold to the launch memory, the six
  pipelines' proof data each at its region's entry contents, each Pallas call as a region entered from and left at
  those contents, and the run: every weakly fair execution terminates with every unscoped buffer at the last contents.
-/
import proofs.«153677_j23742579212601_1_alg».proof.Proof.Gen.KernelIdeal.Regions
import proofs.«153677_j23742579212601_1_alg».proof.Proof.KIReg0
import proofs.«153677_j23742579212601_1_alg».proof.Proof.KIReg2
import proofs.«153677_j23742579212601_1_alg».proof.Proof.KIReg3
import proofs.«153677_j23742579212601_1_alg».proof.Proof.KIReg4
import proofs.«153677_j23742579212601_1_alg».proof.Proof.KIReg5
import proofs.«153677_j23742579212601_1_alg».proof.Proof.KIReg1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After the host stretch `hostOps0_3`. -/
abbrev W4 : Dev nD → Valuation τ sig (Elt F) := fun c => StableHlo.after hostOps0_3 (W3 m c)
/-- After the host stretch `hostOps0_4`. -/
abbrev W5 : Dev nD → Valuation τ sig (Elt F) := fun c => StableHlo.after hostOps0_4 (W4 m c)
/-- The same read at the TensorCore's references. -/
abbrev U5 : (c : Dev nD) → (b : Ref sig .tc) → Buf (Elt F) ((c : Thread nD τ).loc b) := fun c b => W5 m c b
/-- At the exit of Pallas call 0: its arrays at what the pipeline leaves (the inputs as entered, the output's write-backs
    folded), every other buffer as entered. -/
def W6 (c : Dev nD) : Valuation τ sig (Elt F) :=
  Pipeline.withArrays spec0 c (W5 m c) fun w => (dat0 (U5 m) c).arrAt w cfg0.N
theorem W6_arr (c : Dev nD) (w : Fin cfg0.W) :
    W6 m c (Proc.devRef .tc (Pipeline.arrRef spec0 w)) = (dat0 (U5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
/-- The same read at the TensorCore's references. -/
abbrev U6 : (c : Dev nD) → (b : Ref sig .tc) → Buf (Elt F) ((c : Thread nD τ).loc b) := fun c b => W6 m c b
theorem hF0 (c : Dev nD) (w : Fin cfg0.W) : (dat0 (U5 m) c).arrAt w cfg0.N = U6 m c (Pipeline.arrRef spec0 w) :=
  (W6_arr m c w).symm
theorem hrest0 (c : Dev nD) : ∀ b, b ∉ Finset.univ.image (Pipeline.arrRef spec0) → U6 m c b = U5 m c b :=
  fun b hb => W6_of_ne m c b fun w e => hb (Finset.mem_image.mpr ⟨w, Finset.mem_univ _, e⟩)
/-- After the host stretch `hostOps1`. -/
abbrev W7 : Dev nD → Valuation τ sig (Elt F) := fun c => StableHlo.after hostOps1 (W6 m c)
/-- The same read at the TensorCore's references. -/
abbrev U7 : (c : Dev nD) → (b : Ref sig .tc) → Buf (Elt F) ((c : Thread nD τ).loc b) := fun c b => W7 m c b
/-- At the exit of Pallas call 1: the output array `main_v36` at what the pipeline leaves, every other buffer as entered
    (two of its input windows read one array, which it leaves as entered). -/
def W8 (c : Dev nD) : Valuation τ sig (Elt F) :=
  Function.update (W7 m c) (Proc.devRef .tc main_v36) ((dat1 (U7 m) c).arrAt 6 cfg1.N)
theorem W8_out (c : Dev nD) : W8 m c (Proc.devRef .tc main_v36) = (dat1 (U7 m) c).arrAt 6 cfg1.N := by
  unfold W8; exact Function.update_self _ _ _
theorem W8_of_ne (c : Dev nD) (b : Ref sig .tc) (hb : b ≠ main_v36) :
    W8 m c (Proc.devRef .tc b) = W7 m c (Proc.devRef .tc b) := by
  unfold W8; exact Function.update_of_ne (StableHlo.devRef_ne_of_ne hb) _ _
/-- The same read at the TensorCore's references. -/
abbrev U8 : (c : Dev nD) → (b : Ref sig .tc) → Buf (Elt F) ((c : Thread nD τ).loc b) := fun c b => W8 m c b
/-- After the host stretch `hostOps2`. -/
abbrev W9 : Dev nD → Valuation τ sig (Elt F) := fun c => StableHlo.after hostOps2 (W8 m c)
/-- The same read at the TensorCore's references. -/
abbrev U9 : (c : Dev nD) → (b : Ref sig .tc) → Buf (Elt F) ((c : Thread nD τ).loc b) := fun c b => W9 m c b
/-- At the exit of Pallas call 2: its arrays at what the pipeline leaves (the inputs as entered, the output's write-backs
    folded), every other buffer as entered. -/
def W10 (c : Dev nD) : Valuation τ sig (Elt F) :=
  Pipeline.withArrays spec2 c (W9 m c) fun w => (dat2 (U9 m) c).arrAt w cfg2.N
theorem W10_arr (c : Dev nD) (w : Fin cfg2.W) :
    W10 m c (Proc.devRef .tc (Pipeline.arrRef spec2 w)) = (dat2 (U9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- The same read at the TensorCore's references. -/
abbrev U10 : (c : Dev nD) → (b : Ref sig .tc) → Buf (Elt F) ((c : Thread nD τ).loc b) := fun c b => W10 m c b
theorem hF2 (c : Dev nD) (w : Fin cfg2.W) : (dat2 (U9 m) c).arrAt w cfg2.N = U10 m c (Pipeline.arrRef spec2 w) :=
  (W10_arr m c w).symm
theorem hrest2 (c : Dev nD) : ∀ b, b ∉ Finset.univ.image (Pipeline.arrRef spec2) → U10 m c b = U9 m c b :=
  fun b hb => W10_of_ne m c b fun w e => hb (Finset.mem_image.mpr ⟨w, Finset.mem_univ _, e⟩)
/-- After the host stretch `hostOps3`. -/
abbrev W11 : Dev nD → Valuation τ sig (Elt F) := fun c => StableHlo.after hostOps3 (W10 m c)
/-- The same read at the TensorCore's references. -/
abbrev U11 : (c : Dev nD) → (b : Ref sig .tc) → Buf (Elt F) ((c : Thread nD τ).loc b) := fun c b => W11 m c b
/-- At the exit of Pallas call 3: its arrays at what the pipeline leaves (the inputs as entered, the output's write-backs
    folded), every other buffer as entered. -/
def W12 (c : Dev nD) : Valuation τ sig (Elt F) :=
  Pipeline.withArrays spec3 c (W11 m c) fun w => (dat3 (U11 m) c).arrAt w cfg3.N
theorem W12_arr (c : Dev nD) (w : Fin cfg3.W) :
    W12 m c (Proc.devRef .tc (Pipeline.arrRef spec3 w)) = (dat3 (U11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
/-- The same read at the TensorCore's references. -/
abbrev U12 : (c : Dev nD) → (b : Ref sig .tc) → Buf (Elt F) ((c : Thread nD τ).loc b) := fun c b => W12 m c b
theorem hF3 (c : Dev nD) (w : Fin cfg3.W) : (dat3 (U11 m) c).arrAt w cfg3.N = U12 m c (Pipeline.arrRef spec3 w) :=
  (W12_arr m c w).symm
theorem hrest3 (c : Dev nD) : ∀ b, b ∉ Finset.univ.image (Pipeline.arrRef spec3) → U12 m c b = U11 m c b :=
  fun b hb => W12_of_ne m c b fun w e => hb (Finset.mem_image.mpr ⟨w, Finset.mem_univ _, e⟩)
/-- After the host stretch `hostOps4`. -/
abbrev W13 : Dev nD → Valuation τ sig (Elt F) := fun c => StableHlo.after hostOps4 (W12 m c)
/-- The same read at the TensorCore's references. -/
abbrev U13 : (c : Dev nD) → (b : Ref sig .tc) → Buf (Elt F) ((c : Thread nD τ).loc b) := fun c b => W13 m c b
/-- At the exit of Pallas call 4: its arrays at what the pipeline leaves (the inputs as entered, the output's write-backs
    folded), every other buffer as entered. -/
def W14 (c : Dev nD) : Valuation τ sig (Elt F) :=
  Pipeline.withArrays spec4 c (W13 m c) fun w => (dat4 (U13 m) c).arrAt w cfg4.N
theorem W14_arr (c : Dev nD) (w : Fin cfg4.W) :
    W14 m c (Proc.devRef .tc (Pipeline.arrRef spec4 w)) = (dat4 (U13 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
/-- The same read at the TensorCore's references. -/
abbrev U14 : (c : Dev nD) → (b : Ref sig .tc) → Buf (Elt F) ((c : Thread nD τ).loc b) := fun c b => W14 m c b
theorem hF4 (c : Dev nD) (w : Fin cfg4.W) : (dat4 (U13 m) c).arrAt w cfg4.N = U14 m c (Pipeline.arrRef spec4 w) :=
  (W14_arr m c w).symm
theorem hrest4 (c : Dev nD) : ∀ b, b ∉ Finset.univ.image (Pipeline.arrRef spec4) → U14 m c b = U13 m c b :=
  fun b hb => W14_of_ne m c b fun w e => hb (Finset.mem_image.mpr ⟨w, Finset.mem_univ _, e⟩)
/-- At the exit of Pallas call 5: its arrays at what the pipeline leaves (the inputs as entered, the output's write-backs
    folded), every other buffer as entered. -/
def W15 (c : Dev nD) : Valuation τ sig (Elt F) :=
  Pipeline.withArrays spec5 c (W14 m c) fun w => (dat5 (U14 m) c).arrAt w cfg5.N
theorem W15_arr (c : Dev nD) (w : Fin cfg5.W) :
    W15 m c (Proc.devRef .tc (Pipeline.arrRef spec5 w)) = (dat5 (U14 m) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m c (Proc.devRef .tc b) = W14 m c (Proc.devRef .tc b) := by
  unfold W15; exact Pipeline.withArrays_of_ne spec5 c _ _ b hb
/-- The same read at the TensorCore's references. -/
abbrev U15 : (c : Dev nD) → (b : Ref sig .tc) → Buf (Elt F) ((c : Thread nD τ).loc b) := fun c b => W15 m c b
theorem hF5 (c : Dev nD) (w : Fin cfg5.W) : (dat5 (U14 m) c).arrAt w cfg5.N = U15 m c (Pipeline.arrRef spec5 w) :=
  (W15_arr m c w).symm
theorem hrest5 (c : Dev nD) : ∀ b, b ∉ Finset.univ.image (Pipeline.arrRef spec5) → U15 m c b = U14 m c b :=
  fun b hb => W15_of_ne m c b fun w e => hb (Finset.mem_image.mpr ⟨w, Finset.mem_univ _, e⟩)

/-! ### The arguments end as launched: no host operation and no region writes one -/

theorem W15_main_arg0 (c : Dev nD) : W15 m c (Proc.devRef .tc main_arg0) = m ((c : Thread nD τ).loc main_arg0) :=
  calc W15 m c (Proc.devRef .tc main_arg0)
    _ = W14 m c (Proc.devRef .tc main_arg0) := W15_of_ne m c main_arg0 (by decide)
    _ = W13 m c (Proc.devRef .tc main_arg0) := W14_of_ne m c main_arg0 (by decide)
    _ = W12 m c (Proc.devRef .tc main_arg0) := StableHlo.after_of_writes_sub hostOps4 _ hostOps4_writes (by decide)
    _ = W11 m c (Proc.devRef .tc main_arg0) := W12_of_ne m c main_arg0 (by decide)
    _ = W10 m c (Proc.devRef .tc main_arg0) := StableHlo.after_of_writes_sub hostOps3 _ hostOps3_writes (by decide)
    _ = W9 m c (Proc.devRef .tc main_arg0) := W10_of_ne m c main_arg0 (by decide)
    _ = W8 m c (Proc.devRef .tc main_arg0) := StableHlo.after_of_writes_sub hostOps2 _ hostOps2_writes (by decide)
    _ = W7 m c (Proc.devRef .tc main_arg0) := W8_of_ne m c main_arg0 (by decide)
    _ = W6 m c (Proc.devRef .tc main_arg0) := StableHlo.after_of_writes_sub hostOps1 _ hostOps1_writes (by decide)
    _ = W5 m c (Proc.devRef .tc main_arg0) := (W6_arr m c 0).trans (((dat0 (U5 m) c).arrAt_in 0 rfl _).trans (A_eq0 (U5 m) c 0))
    _ = W4 m c (Proc.devRef .tc main_arg0) := StableHlo.after_of_writes_sub hostOps0_4 _ hostOps0_4_writes (by decide)
    _ = W3 m c (Proc.devRef .tc main_arg0) := StableHlo.after_of_writes_sub hostOps0_3 _ hostOps0_3_writes (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W15_main_arg1 (c : Dev nD) : W15 m c (Proc.devRef .tc main_arg1) = m ((c : Thread nD τ).loc main_arg1) :=
  calc W15 m c (Proc.devRef .tc main_arg1)
    _ = W14 m c (Proc.devRef .tc main_arg1) := W15_of_ne m c main_arg1 (by decide)
    _ = W13 m c (Proc.devRef .tc main_arg1) := W14_of_ne m c main_arg1 (by decide)
    _ = W12 m c (Proc.devRef .tc main_arg1) := StableHlo.after_of_writes_sub hostOps4 _ hostOps4_writes (by decide)
    _ = W11 m c (Proc.devRef .tc main_arg1) := W12_of_ne m c main_arg1 (by decide)
    _ = W10 m c (Proc.devRef .tc main_arg1) := StableHlo.after_of_writes_sub hostOps3 _ hostOps3_writes (by decide)
    _ = W9 m c (Proc.devRef .tc main_arg1) := W10_of_ne m c main_arg1 (by decide)
    _ = W8 m c (Proc.devRef .tc main_arg1) := StableHlo.after_of_writes_sub hostOps2 _ hostOps2_writes (by decide)
    _ = W7 m c (Proc.devRef .tc main_arg1) := W8_of_ne m c main_arg1 (by decide)
    _ = W6 m c (Proc.devRef .tc main_arg1) := StableHlo.after_of_writes_sub hostOps1 _ hostOps1_writes (by decide)
    _ = W5 m c (Proc.devRef .tc main_arg1) := (W6_arr m c 1).trans (((dat0 (U5 m) c).arrAt_in 1 rfl _).trans (A_eq0 (U5 m) c 1))
    _ = W4 m c (Proc.devRef .tc main_arg1) := StableHlo.after_of_writes_sub hostOps0_4 _ hostOps0_4_writes (by decide)
    _ = W3 m c (Proc.devRef .tc main_arg1) := StableHlo.after_of_writes_sub hostOps0_3 _ hostOps0_3_writes (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W15_main_arg2 (c : Dev nD) : W15 m c (Proc.devRef .tc main_arg2) = m ((c : Thread nD τ).loc main_arg2) :=
  calc W15 m c (Proc.devRef .tc main_arg2)
    _ = W14 m c (Proc.devRef .tc main_arg2) := W15_of_ne m c main_arg2 (by decide)
    _ = W13 m c (Proc.devRef .tc main_arg2) := W14_of_ne m c main_arg2 (by decide)
    _ = W12 m c (Proc.devRef .tc main_arg2) := StableHlo.after_of_writes_sub hostOps4 _ hostOps4_writes (by decide)
    _ = W11 m c (Proc.devRef .tc main_arg2) := W12_of_ne m c main_arg2 (by decide)
    _ = W10 m c (Proc.devRef .tc main_arg2) := StableHlo.after_of_writes_sub hostOps3 _ hostOps3_writes (by decide)
    _ = W9 m c (Proc.devRef .tc main_arg2) := W10_of_ne m c main_arg2 (by decide)
    _ = W8 m c (Proc.devRef .tc main_arg2) := StableHlo.after_of_writes_sub hostOps2 _ hostOps2_writes (by decide)
    _ = W7 m c (Proc.devRef .tc main_arg2) := W8_of_ne m c main_arg2 (by decide)
    _ = W6 m c (Proc.devRef .tc main_arg2) := StableHlo.after_of_writes_sub hostOps1 _ hostOps1_writes (by decide)
    _ = W5 m c (Proc.devRef .tc main_arg2) := (W6_arr m c 2).trans (((dat0 (U5 m) c).arrAt_in 2 rfl _).trans (A_eq0 (U5 m) c 2))
    _ = W4 m c (Proc.devRef .tc main_arg2) := StableHlo.after_of_writes_sub hostOps0_4 _ hostOps0_4_writes (by decide)
    _ = W3 m c (Proc.devRef .tc main_arg2) := StableHlo.after_of_writes_sub hostOps0_3 _ hostOps0_3_writes (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W15_main_arg3 (c : Dev nD) : W15 m c (Proc.devRef .tc main_arg3) = m ((c : Thread nD τ).loc main_arg3) :=
  calc W15 m c (Proc.devRef .tc main_arg3)
    _ = W14 m c (Proc.devRef .tc main_arg3) := W15_of_ne m c main_arg3 (by decide)
    _ = W13 m c (Proc.devRef .tc main_arg3) := W14_of_ne m c main_arg3 (by decide)
    _ = W12 m c (Proc.devRef .tc main_arg3) := StableHlo.after_of_writes_sub hostOps4 _ hostOps4_writes (by decide)
    _ = W11 m c (Proc.devRef .tc main_arg3) := W12_of_ne m c main_arg3 (by decide)
    _ = W10 m c (Proc.devRef .tc main_arg3) := StableHlo.after_of_writes_sub hostOps3 _ hostOps3_writes (by decide)
    _ = W9 m c (Proc.devRef .tc main_arg3) := W10_of_ne m c main_arg3 (by decide)
    _ = W8 m c (Proc.devRef .tc main_arg3) := StableHlo.after_of_writes_sub hostOps2 _ hostOps2_writes (by decide)
    _ = W7 m c (Proc.devRef .tc main_arg3) := W8_of_ne m c main_arg3 (by decide)
    _ = W6 m c (Proc.devRef .tc main_arg3) := StableHlo.after_of_writes_sub hostOps1 _ hostOps1_writes (by decide)
    _ = W5 m c (Proc.devRef .tc main_arg3) := W6_of_ne m c main_arg3 (by decide)
    _ = W4 m c (Proc.devRef .tc main_arg3) := StableHlo.after_of_writes_sub hostOps0_4 _ hostOps0_4_writes (by decide)
    _ = W3 m c (Proc.devRef .tc main_arg3) := StableHlo.after_of_writes_sub hostOps0_3 _ hostOps0_3_writes (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W15_main_arg4 (c : Dev nD) : W15 m c (Proc.devRef .tc main_arg4) = m ((c : Thread nD τ).loc main_arg4) :=
  calc W15 m c (Proc.devRef .tc main_arg4)
    _ = W14 m c (Proc.devRef .tc main_arg4) := W15_of_ne m c main_arg4 (by decide)
    _ = W13 m c (Proc.devRef .tc main_arg4) := W14_of_ne m c main_arg4 (by decide)
    _ = W12 m c (Proc.devRef .tc main_arg4) := StableHlo.after_of_writes_sub hostOps4 _ hostOps4_writes (by decide)
    _ = W11 m c (Proc.devRef .tc main_arg4) := W12_of_ne m c main_arg4 (by decide)
    _ = W10 m c (Proc.devRef .tc main_arg4) := StableHlo.after_of_writes_sub hostOps3 _ hostOps3_writes (by decide)
    _ = W9 m c (Proc.devRef .tc main_arg4) := W10_of_ne m c main_arg4 (by decide)
    _ = W8 m c (Proc.devRef .tc main_arg4) := StableHlo.after_of_writes_sub hostOps2 _ hostOps2_writes (by decide)
    _ = W7 m c (Proc.devRef .tc main_arg4) := W8_of_ne m c main_arg4 (by decide)
    _ = W6 m c (Proc.devRef .tc main_arg4) := StableHlo.after_of_writes_sub hostOps1 _ hostOps1_writes (by decide)
    _ = W5 m c (Proc.devRef .tc main_arg4) := W6_of_ne m c main_arg4 (by decide)
    _ = W4 m c (Proc.devRef .tc main_arg4) := StableHlo.after_of_writes_sub hostOps0_4 _ hostOps0_4_writes (by decide)
    _ = W3 m c (Proc.devRef .tc main_arg4) := StableHlo.after_of_writes_sub hostOps0_3 _ hostOps0_3_writes (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W15_main_arg5 (c : Dev nD) : W15 m c (Proc.devRef .tc main_arg5) = m ((c : Thread nD τ).loc main_arg5) :=
  calc W15 m c (Proc.devRef .tc main_arg5)
    _ = W14 m c (Proc.devRef .tc main_arg5) := W15_of_ne m c main_arg5 (by decide)
    _ = W13 m c (Proc.devRef .tc main_arg5) := W14_of_ne m c main_arg5 (by decide)
    _ = W12 m c (Proc.devRef .tc main_arg5) := StableHlo.after_of_writes_sub hostOps4 _ hostOps4_writes (by decide)
    _ = W11 m c (Proc.devRef .tc main_arg5) := W12_of_ne m c main_arg5 (by decide)
    _ = W10 m c (Proc.devRef .tc main_arg5) := StableHlo.after_of_writes_sub hostOps3 _ hostOps3_writes (by decide)
    _ = W9 m c (Proc.devRef .tc main_arg5) := W10_of_ne m c main_arg5 (by decide)
    _ = W8 m c (Proc.devRef .tc main_arg5) := StableHlo.after_of_writes_sub hostOps2 _ hostOps2_writes (by decide)
    _ = W7 m c (Proc.devRef .tc main_arg5) := W8_of_ne m c main_arg5 (by decide)
    _ = W6 m c (Proc.devRef .tc main_arg5) := StableHlo.after_of_writes_sub hostOps1 _ hostOps1_writes (by decide)
    _ = W5 m c (Proc.devRef .tc main_arg5) := W6_of_ne m c main_arg5 (by decide)
    _ = W4 m c (Proc.devRef .tc main_arg5) := StableHlo.after_of_writes_sub hostOps0_4 _ hostOps0_4_writes (by decide)
    _ = W3 m c (Proc.devRef .tc main_arg5) := StableHlo.after_of_writes_sub hostOps0_3 _ hostOps0_3_writes (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl
theorem W15_main_arg6 (c : Dev nD) : W15 m c (Proc.devRef .tc main_arg6) = m ((c : Thread nD τ).loc main_arg6) :=
  calc W15 m c (Proc.devRef .tc main_arg6)
    _ = W14 m c (Proc.devRef .tc main_arg6) := (W15_arr m c 1).trans (((dat5 (U14 m) c).arrAt_in 1 rfl _).trans (A_eq5 (U14 m) c 1))
    _ = W13 m c (Proc.devRef .tc main_arg6) := W14_of_ne m c main_arg6 (by decide)
    _ = W12 m c (Proc.devRef .tc main_arg6) := StableHlo.after_of_writes_sub hostOps4 _ hostOps4_writes (by decide)
    _ = W11 m c (Proc.devRef .tc main_arg6) := W12_of_ne m c main_arg6 (by decide)
    _ = W10 m c (Proc.devRef .tc main_arg6) := StableHlo.after_of_writes_sub hostOps3 _ hostOps3_writes (by decide)
    _ = W9 m c (Proc.devRef .tc main_arg6) := W10_of_ne m c main_arg6 (by decide)
    _ = W8 m c (Proc.devRef .tc main_arg6) := StableHlo.after_of_writes_sub hostOps2 _ hostOps2_writes (by decide)
    _ = W7 m c (Proc.devRef .tc main_arg6) := W8_of_ne m c main_arg6 (by decide)
    _ = W6 m c (Proc.devRef .tc main_arg6) := StableHlo.after_of_writes_sub hostOps1 _ hostOps1_writes (by decide)
    _ = W5 m c (Proc.devRef .tc main_arg6) := W6_of_ne m c main_arg6 (by decide)
    _ = W4 m c (Proc.devRef .tc main_arg6) := StableHlo.after_of_writes_sub hostOps0_4 _ hostOps0_4_writes (by decide)
    _ = W3 m c (Proc.devRef .tc main_arg6) := StableHlo.after_of_writes_sub hostOps0_3 _ hostOps0_3_writes (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl
theorem W15_main_arg7 (c : Dev nD) : W15 m c (Proc.devRef .tc main_arg7) = m ((c : Thread nD τ).loc main_arg7) :=
  calc W15 m c (Proc.devRef .tc main_arg7)
    _ = W14 m c (Proc.devRef .tc main_arg7) := (W15_arr m c 2).trans (((dat5 (U14 m) c).arrAt_in 2 rfl _).trans (A_eq5 (U14 m) c 2))
    _ = W13 m c (Proc.devRef .tc main_arg7) := W14_of_ne m c main_arg7 (by decide)
    _ = W12 m c (Proc.devRef .tc main_arg7) := StableHlo.after_of_writes_sub hostOps4 _ hostOps4_writes (by decide)
    _ = W11 m c (Proc.devRef .tc main_arg7) := W12_of_ne m c main_arg7 (by decide)
    _ = W10 m c (Proc.devRef .tc main_arg7) := StableHlo.after_of_writes_sub hostOps3 _ hostOps3_writes (by decide)
    _ = W9 m c (Proc.devRef .tc main_arg7) := W10_of_ne m c main_arg7 (by decide)
    _ = W8 m c (Proc.devRef .tc main_arg7) := StableHlo.after_of_writes_sub hostOps2 _ hostOps2_writes (by decide)
    _ = W7 m c (Proc.devRef .tc main_arg7) := W8_of_ne m c main_arg7 (by decide)
    _ = W6 m c (Proc.devRef .tc main_arg7) := StableHlo.after_of_writes_sub hostOps1 _ hostOps1_writes (by decide)
    _ = W5 m c (Proc.devRef .tc main_arg7) := W6_of_ne m c main_arg7 (by decide)
    _ = W4 m c (Proc.devRef .tc main_arg7) := StableHlo.after_of_writes_sub hostOps0_4 _ hostOps0_4_writes (by decide)
    _ = W3 m c (Proc.devRef .tc main_arg7) := StableHlo.after_of_writes_sub hostOps0_3 _ hostOps0_3_writes (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl
theorem W15_main_arg8 (c : Dev nD) : W15 m c (Proc.devRef .tc main_arg8) = m ((c : Thread nD τ).loc main_arg8) :=
  calc W15 m c (Proc.devRef .tc main_arg8)
    _ = W14 m c (Proc.devRef .tc main_arg8) := W15_of_ne m c main_arg8 (by decide)
    _ = W13 m c (Proc.devRef .tc main_arg8) := W14_of_ne m c main_arg8 (by decide)
    _ = W12 m c (Proc.devRef .tc main_arg8) := StableHlo.after_of_writes_sub hostOps4 _ hostOps4_writes (by decide)
    _ = W11 m c (Proc.devRef .tc main_arg8) := W12_of_ne m c main_arg8 (by decide)
    _ = W10 m c (Proc.devRef .tc main_arg8) := StableHlo.after_of_writes_sub hostOps3 _ hostOps3_writes (by decide)
    _ = W9 m c (Proc.devRef .tc main_arg8) := W10_of_ne m c main_arg8 (by decide)
    _ = W8 m c (Proc.devRef .tc main_arg8) := StableHlo.after_of_writes_sub hostOps2 _ hostOps2_writes (by decide)
    _ = W7 m c (Proc.devRef .tc main_arg8) := W8_of_ne m c main_arg8 (by decide)
    _ = W6 m c (Proc.devRef .tc main_arg8) := StableHlo.after_of_writes_sub hostOps1 _ hostOps1_writes (by decide)
    _ = W5 m c (Proc.devRef .tc main_arg8) := W6_of_ne m c main_arg8 (by decide)
    _ = W4 m c (Proc.devRef .tc main_arg8) := StableHlo.after_of_writes_sub hostOps0_4 _ hostOps0_4_writes (by decide)
    _ = W3 m c (Proc.devRef .tc main_arg8) := StableHlo.after_of_writes_sub hostOps0_3 _ hostOps0_3_writes (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl
theorem W15_main_arg9 (c : Dev nD) : W15 m c (Proc.devRef .tc main_arg9) = m ((c : Thread nD τ).loc main_arg9) :=
  calc W15 m c (Proc.devRef .tc main_arg9)
    _ = W14 m c (Proc.devRef .tc main_arg9) := W15_of_ne m c main_arg9 (by decide)
    _ = W13 m c (Proc.devRef .tc main_arg9) := W14_of_ne m c main_arg9 (by decide)
    _ = W12 m c (Proc.devRef .tc main_arg9) := StableHlo.after_of_writes_sub hostOps4 _ hostOps4_writes (by decide)
    _ = W11 m c (Proc.devRef .tc main_arg9) := W12_of_ne m c main_arg9 (by decide)
    _ = W10 m c (Proc.devRef .tc main_arg9) := StableHlo.after_of_writes_sub hostOps3 _ hostOps3_writes (by decide)
    _ = W9 m c (Proc.devRef .tc main_arg9) := W10_of_ne m c main_arg9 (by decide)
    _ = W8 m c (Proc.devRef .tc main_arg9) := StableHlo.after_of_writes_sub hostOps2 _ hostOps2_writes (by decide)
    _ = W7 m c (Proc.devRef .tc main_arg9) := W8_of_ne m c main_arg9 (by decide)
    _ = W6 m c (Proc.devRef .tc main_arg9) := StableHlo.after_of_writes_sub hostOps1 _ hostOps1_writes (by decide)
    _ = W5 m c (Proc.devRef .tc main_arg9) := W6_of_ne m c main_arg9 (by decide)
    _ = W4 m c (Proc.devRef .tc main_arg9) := StableHlo.after_of_writes_sub hostOps0_4 _ hostOps0_4_writes (by decide)
    _ = W3 m c (Proc.devRef .tc main_arg9) := StableHlo.after_of_writes_sub hostOps0_3 _ hostOps0_3_writes (by decide)
    _ = W2 m c (Proc.devRef .tc main_arg9) := StableHlo.after_of_writes_sub hostOps0_2 _ hostOps0_2_writes (by decide)
    _ = W1 m c (Proc.devRef .tc main_arg9) := StableHlo.after_of_writes_sub hostOps0_1 _ hostOps0_1_writes (by decide)
    _ = W0 m c (Proc.devRef .tc main_arg9) := StableHlo.after_of_writes_sub hostOps0 _ hostOps0_writes (by decide)
    _ = m ((c : Thread nD τ).loc main_arg9) := rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (U5 m) c
  | ⟨1, _⟩ => fun c => dat1 (U7 m) c
  | ⟨2, _⟩ => fun c => dat2 (U9 m) c
  | ⟨3, _⟩ => fun c => dat3 (U11 m) c
  | ⟨4, _⟩ => fun c => dat4 (U13 m) c
  | ⟨5, _⟩ => fun c => dat5 (U14 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W15 m c) ∗ ∃ r, prngReg c r)

/-! ## The regions as segments -/

set_option backward.isDefEq.respectTransparency.types false in
/-- Pallas call 0 over the thread state: entered from every unscoped buffer at `W5`, left at `W6`. Its arrays split
    out of the unscoped buffers and put back at the exit contents; the generator register into the invariant and out;
    nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (U5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U5 m c) (U6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W7`, left at `W8`. Its arrays split
    out of the unscoped buffers and put back at the exit contents; the generator register into the invariant and out;
    nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := entry1 (U7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (U7 m c)) ⊢ (unscopedBufs c (U8 m c) : sProp 𝕄) :=
      exit1 (U7 m) c (U8 m c) (W8_out m c).symm (fun b hb => W8_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at `W9`, left at `W10`. Its arrays split
    out of the unscoped buffers and put back at the exit contents; the generator register into the invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (U9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U9 m c) (U10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 over the thread state: entered from every unscoped buffer at `W11`, left at `W12`. Its arrays split
    out of the unscoped buffers and put back at the exit contents; the generator register into the invariant and out;
    nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U11 m) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (U11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U11 m c) (U12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 4 over the thread state: entered from every unscoped buffer at `W13`, left at `W14`. Its arrays split
    out of the unscoped buffers and put back at the exit contents; the generator register into the invariant and out;
    nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U13 m) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (U13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U13 m c) (U14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 5 over the thread state: entered from every unscoped buffer at `W14`, left at `W15`. Its arrays split
    out of the unscoped buffers and put back at the exit contents; the generator register into the invariant and out;
    nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U14 m) c).loose
  hwaits := Pipeline.hwaits_of_owed_zero _ _ _ _ L lv 5 fun _ _ => rfl
  pre c := iprop(StableHlo.held (c : Thread nD τ) (Pipeline.ucRefs τ sig) (W14 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U14 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (U14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (U14 m c) (U15 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's segments in order: a host segment per stretch from its boundary's contents, a region per Pallas call. -/
abbrev msegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m),
    .host (hseg hostOps4 hostOps4_sub hostOps4_fresh (W12 m)),
    .region (reg4 m),
    .region (reg5 m) ]
/-- @main is the run of the segments. -/
theorem main_run (c : Dev nD) : main (F := F) c = Pipeline.Seg.run (msegs m) := (main_chain c).trans (by chain_rfl)

set_option backward.isDefEq.respectTransparency.types false in
/-- THE RUN: from any memory with zero counters, every weakly fair execution of @main on the TensorCores terminates,
    nothing faulting, and every final state holds each unscoped TensorCore buffer at the last contents `W15`. -/
theorem run (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W15 m c b) :=
  Pipeline.θ_run_regions_kit (pcfgs (F := F)) adm (pdats m) () cellOf_inj emb₁ defs₀ 𝒱₀ L lv m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h => h)

end Cert.KernelIdeal.Hand

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.KIVal0.lean ====
/-
  The first dense layer's body value at an entry: the kernel body's value of its loaded blocks (a 4000-row block of x,
  the whole weight matrix, the bias), read at entry (r, q), is max(sum_k x(r,k) w(k,q) + b(q), 0): the matrix product
  into a zero accumulator is the plain sum over the contracted axis, the roundings to the narrower float format are
  the identity on the extended reals, the bias is one row broadcast over the block's rows.
-/
import proofs.«153677_j23742579212601_1_alg».proof.Proof.Gen.KernelIdeal.Skeleton
import proofs.«153677_j23742579212601_1_alg».proof.Proof.Spec
import proofs.«153677_j23742579212601_1_alg».proof.Proof.LibMatmulPlain
import Idealize.ShloMosaic.Lib.ValueIdx
import Idealize.ShloMosaic.Lib.ValueLayout
import Idealize.ShloMosaic.Lib.Pipeline.Value

noncomputable section

namespace Cert.KernelIdeal.HandV

open Cert.KernelIdeal Cert.KernelIdeal.Gen
open Idealize.ShloMosaic Idealize.ShloMosaic.ValueIdx

/-- Entry (r, q) of the body's value of pallas call 0. -/
theorem pay0_apply (x0 : FVec Ideal S4000x256 .f32) (x1 : FVec Ideal S256x128 .f32) (x2 : FVec Ideal S128 .f32) (r : Fin 4000) (q : Fin 128) :
    k0_pay1 (F := Ideal) x0 x1 x2 (ix2 r q) = Cert.Gcn.fc1 x0 x1 x2 r q := by
  unfold k0_pay1 Cert.Gcn.fc1
  refine congrArg₂ max (congrArg₂ (· + ·) ?_ ?_) rfl
  · refine (Cert.LibMatmulPlain.matmul_zero_apply dot_S4000x256_S256x128_S4000x128_1_0_0_1_n_n rfl rfl rfl rfl rfl rfl _ _ r q).trans ?_
    rfl
  · exact (broadcastTo_1b_ab_apply _ _ r q).trans (shapeCast_a_1a_apply x2 _ 0 q)

end Cert.KernelIdeal.HandV

end
-- ==== Proof.KIFin0.lean ====
/-
  The first dense layer's output array after its Pallas call: grid point t writes back rows 4000 t … 4000 t + 3999 of
  max(x w + b, 0) of the whole operand arrays as the region finds them (row 4000 t + r of the result depends on row
  4000 t + r of x only, which is row r of the block of x staged at point t); the ten blocks tile the 40000 rows, so
  the array ends holding that function everywhere.
-/
import proofs.«153677_j23742579212601_1_alg».proof.Proof.KIReg0
import proofs.«153677_j23742579212601_1_alg».proof.Proof.KIVal0

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-- What the output array ends holding. -/
abbrev G0 (c : Dev nD) : S40000x128.Idx → EReal :=
  Cert.Gcn.ofEntries (Cert.Gcn.fc1 (V c main_arg0) (V c main_arg1) (V c main_arg2))

/-- The printed index maps, decided over the grid: the x window and the output window move down one block of rows per
    point, the weight and bias windows stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row r of the block of x staged at point t is row 4000 t + r of x. -/
theorem blk0_0 (c : Dev nD) (t : Fin cfg0.N) (r : Fin 4000) (k : Fin 256) (p : Fin 40000) (hp : p.val = t.val * 4000 + r.val) :
    iblk0 V c 0 t (ix2 r k) = V c main_arg0 (ix2 p k) := by
  obtain ⟨e0, e1, -⟩ := idx_facts0 t
  show V c main_arg0 (((cfg0.win 0).blk t).view.emb (ix2 r k)) = V c main_arg0 (ix2 p k)
  refine congrArg _ (funext fun a => Fin.ext ?_)
  match a with
  | ⟨0, _⟩ => show win0_0.index t (0 : Fin 2) * 4000 + 1 * r.val = p.val; omega
  | ⟨1, _⟩ => show win0_0.index t (1 : Fin 2) * 256 + 1 * k.val = k.val; omega

/-- The weight window's block is the whole weight matrix. -/
theorem blk0_1 (c : Dev nD) (t : Fin cfg0.N) (k : Fin 256) (q : Fin 128) :
    iblk0 V c 1 t (ix2 k q) = V c main_arg1 (ix2 k q) := by
  obtain ⟨-, -, e2, e3, -⟩ := idx_facts0 t
  show V c main_arg1 (((cfg0.win 1).blk t).view.emb (ix2 k q)) = V c main_arg1 (ix2 k q)
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- The bias window's block is the whole bias. -/
theorem blk0_2 (c : Dev nD) (t : Fin cfg0.N) (q : Fin 128) :
    iblk0 V c 2 t (ix1 q) = V c main_arg2 (ix1 q) := by
  obtain ⟨-, -, -, -, e4, -⟩ := idx_facts0 t
  show V c main_arg2 (((cfg0.win 2).blk t).view.emb (ix1 q)) = V c main_arg2 (ix1 q)
  refine congrArg _ (funext fun a => Fin.ext ?_)
  match a with
  | ⟨0, _⟩ => show win0_2.index t (0 : Fin 1) * 128 + 1 * q.val = q.val; omega

/-- What point t writes back is block t of the whole-array function. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S4000x256) hz2, View.ld_unit_zero (S := S256x128) hz2, View.ld_unit_zero (S := S128) hz1]
  funext j
  obtain ⟨r, q, rfl⟩ : ∃ (r : Fin 4000) (q : Fin 128), j = ix2 r q := ⟨j 0, j 1, eq_ix2 j⟩
  obtain ⟨-, -, -, -, -, e5, e6⟩ := idx_facts0 t
  have hN : t.val < 10 := lt_of_lt_of_eq t.isLt (N_0 : cfg0.N = 10)
  have hemb : ((cfg0.win 3).blk t).view.emb (ix2 r q) = ix2 (⟨t.val * 4000 + r.val, by have := r.isLt; omega⟩ : Fin 40000) q := by
    funext a; apply Fin.ext
    match a with
    | ⟨0, _⟩ => show win0_3.index t (0 : Fin 2) * 4000 + 1 * r.val = t.val * 4000 + r.val; omega
    | ⟨1, _⟩ => show win0_3.index t (1 : Fin 2) * 128 + 1 * q.val = q.val; omega
  show k0_pay1 (iblk0 V c 0 t) (iblk0 V c 1 t) (iblk0 V c 2 t) (ix2 r q) = G0 V c (((cfg0.win 3).blk t).view.emb (ix2 r q))
  rw [hemb]
  refine (pay0_apply _ _ _ r q).trans ?_
  show Cert.Gcn.fc1 _ _ _ r q = Cert.Gcn.fc1 _ _ _ _ q
  unfold Cert.Gcn.fc1
  refine congrArg₂ max (congrArg₂ (· + ·) (Finset.sum_congr rfl fun k _ => congrArg₂ (· * ·) (blk0_0 V c t r k _ rfl) (blk0_1 V c t k q)) (blk0_2 V c t q)) rfl

/-- An index of the array is in point t's block iff its row is in the block's range. -/
theorem mem_blk0 (t : Fin cfg0.N) (i : S40000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v15).slice (win0_3.rect t)).set ↔ _
  rw [View.set_slice_whole, Rect.mem_set_unit]
  exact Iff.rfl

/-- Every index is in some point's block: the point that covers row p is p / 4000. -/
theorem cover0 (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  have hN : cfg0.N = 10 := N_0
  let t : Fin cfg0.N := ⟨(i 0).val / 4000, by omega⟩
  obtain ⟨-, -, -, -, -, e5, e6⟩ := idx_facts0 t
  have ht : t.val = (i 0).val / 4000 := rfl
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The output array after the Pallas call. -/
theorem final0 (c : Dev nD) : (dat0 V c).arrAt 3 cfg0.N = G0 V c :=
  (dat0 V c).arrAt_eq_of_cover 3 (G0 V c) (fun t _ => flushed0_eq V c t) cover0

end Cert.KernelIdeal.HandV

end
-- ==== Proof.KIValC.lean ====
/-
  The graph-convolution layers' body values at an entry: each of the four kernel bodies' value of its loaded blocks (a
  4000-row block of the aggregated features a, of the first layer's features h0 and of the layer's input h, the two
  weight matrices, the bias), read at entry (r, q), is the layer's formula with f = a/2, g = h0/2:
  max(((c1 (f + g) + c2 (f W1 + g W2)) + b) + h, 0) — the two matrix products into zero accumulators are plain sums over
  the contracted axis, the roundings to the narrower float format and the same-shape casts are the identity, the bias
  is one row broadcast over the block's rows.
-/
import proofs.«153677_j23742579212601_1_alg».proof.Proof.Gen.KernelIdeal.Skeleton
import proofs.«153677_j23742579212601_1_alg».proof.Proof.Spec
import proofs.«153677_j23742579212601_1_alg».proof.Proof.LibMatmulPlain
import Idealize.ShloMosaic.Lib.ValueIdx
import Idealize.ShloMosaic.Lib.ValueLayout
import Idealize.ShloMosaic.Lib.Pipeline.Value

noncomputable section

namespace Cert.KernelIdeal.HandV

open Cert.KernelIdeal Cert.KernelIdeal.Gen
open Idealize.ShloMosaic Idealize.ShloMosaic.ValueIdx

/-- Entry (r, q) of the body's value of pallas call 1 (graph-convolution layer 0). -/
theorem pay1_apply (x0 x1 x2 : FVec Ideal S4000x128 .f32) (x3 x4 : FVec Ideal S128x128 .f32) (x5 : FVec Ideal S128 .f32) (r : Fin 4000) (q : Fin 128) :
    k1_pay1 (F := Ideal) x0 x1 x2 x3 x4 x5 (ix2 r q) = Cert.Gcn.comb (Cert.Gcn.c1w 0) (Cert.Gcn.c2w 0) x0 x1 x2 x3 x4 x5 r q := by
  unfold k1_pay1 Cert.Gcn.comb
  simp only [shapeCast_self]
  refine congrArg₂ max (congrArg₂ (· + ·) (congrArg₂ (· + ·) (congrArg₂ (· + ·) rfl (congrArg₂ (· * ·) rfl (congrArg₂ (· + ·) ?_ ?_))) ?_) rfl) rfl
  · exact (Cert.LibMatmulPlain.matmul_zero_apply dot_S4000x128_S128x128_S4000x128_1_0_0_1_n_n rfl rfl rfl rfl rfl rfl _ _ r q).trans rfl
  · exact (Cert.LibMatmulPlain.matmul_zero_apply dot_S4000x128_S128x128_S4000x128_1_0_0_1_n_n rfl rfl rfl rfl rfl rfl _ _ r q).trans rfl
  · exact (broadcastTo_1b_ab_apply _ _ r q).trans (shapeCast_a_1a_apply x5 _ 0 q)

/-- Entry (r, q) of the body's value of pallas call 2 (graph-convolution layer 1). -/
theorem pay2_apply (x0 x1 x2 : FVec Ideal S4000x128 .f32) (x3 x4 : FVec Ideal S128x128 .f32) (x5 : FVec Ideal S128 .f32) (r : Fin 4000) (q : Fin 128) :
    k2_pay1 (F := Ideal) x0 x1 x2 x3 x4 x5 (ix2 r q) = Cert.Gcn.comb (Cert.Gcn.c1w 1) (Cert.Gcn.c2w 1) x0 x1 x2 x3 x4 x5 r q := by
  unfold k2_pay1 Cert.Gcn.comb
  simp only [shapeCast_self]
  refine congrArg₂ max (congrArg₂ (· + ·) (congrArg₂ (· + ·) (congrArg₂ (· + ·) rfl (congrArg₂ (· * ·) rfl (congrArg₂ (· + ·) ?_ ?_))) ?_) rfl) rfl
  · exact (Cert.LibMatmulPlain.matmul_zero_apply dot_S4000x128_S128x128_S4000x128_1_0_0_1_n_n rfl rfl rfl rfl rfl rfl _ _ r q).trans rfl
  · exact (Cert.LibMatmulPlain.matmul_zero_apply dot_S4000x128_S128x128_S4000x128_1_0_0_1_n_n rfl rfl rfl rfl rfl rfl _ _ r q).trans rfl
  · exact (broadcastTo_1b_ab_apply _ _ r q).trans (shapeCast_a_1a_apply x5 _ 0 q)

/-- Entry (r, q) of the body's value of pallas call 3 (graph-convolution layer 2). -/
theorem pay3_apply (x0 x1 x2 : FVec Ideal S4000x128 .f32) (x3 x4 : FVec Ideal S128x128 .f32) (x5 : FVec Ideal S128 .f32) (r : Fin 4000) (q : Fin 128) :
    k3_pay1 (F := Ideal) x0 x1 x2 x3 x4 x5 (ix2 r q) = Cert.Gcn.comb (Cert.Gcn.c1w 2) (Cert.Gcn.c2w 2) x0 x1 x2 x3 x4 x5 r q := by
  unfold k3_pay1 Cert.Gcn.comb
  simp only [shapeCast_self]
  refine congrArg₂ max (congrArg₂ (· + ·) (congrArg₂ (· + ·) (congrArg₂ (· + ·) rfl (congrArg₂ (· * ·) rfl (congrArg₂ (· + ·) ?_ ?_))) ?_) rfl) rfl
  · exact (Cert.LibMatmulPlain.matmul_zero_apply dot_S4000x128_S128x128_S4000x128_1_0_0_1_n_n rfl rfl rfl rfl rfl rfl _ _ r q).trans rfl
  · exact (Cert.LibMatmulPlain.matmul_zero_apply dot_S4000x128_S128x128_S4000x128_1_0_0_1_n_n rfl rfl rfl rfl rfl rfl _ _ r q).trans rfl
  · exact (broadcastTo_1b_ab_apply _ _ r q).trans (shapeCast_a_1a_apply x5 _ 0 q)

/-- Entry (r, q) of the body's value of pallas call 4 (graph-convolution layer 3). -/
theorem pay4_apply (x0 x1 x2 : FVec Ideal S4000x128 .f32) (x3 x4 : FVec Ideal S128x128 .f32) (x5 : FVec Ideal S128 .f32) (r : Fin 4000) (q : Fin 128) :
    k4_pay1 (F := Ideal) x0 x1 x2 x3 x4 x5 (ix2 r q) = Cert.Gcn.comb (Cert.Gcn.c1w 3) (Cert.Gcn.c2w 3) x0 x1 x2 x3 x4 x5 r q := by
  unfold k4_pay1 Cert.Gcn.comb
  simp only [shapeCast_self]
  refine congrArg₂ max (congrArg₂ (· + ·) (congrArg₂ (· + ·) (congrArg₂ (· + ·) rfl (congrArg₂ (· * ·) rfl (congrArg₂ (· + ·) ?_ ?_))) ?_) rfl) rfl
  · exact (Cert.LibMatmulPlain.matmul_zero_apply dot_S4000x128_S128x128_S4000x128_1_0_0_1_n_n rfl rfl rfl rfl rfl rfl _ _ r q).trans rfl
  · exact (Cert.LibMatmulPlain.matmul_zero_apply dot_S4000x128_S128x128_S4000x128_1_0_0_1_n_n rfl rfl rfl rfl rfl rfl _ _ r q).trans rfl
  · exact (broadcastTo_1b_ab_apply _ _ r q).trans (shapeCast_a_1a_apply x5 _ 0 q)

/-- Entry (r, q) of the body's value of pallas call 5 (the last dense layer): sum_k h(r,k) w(k,q) + b(q). -/
theorem pay5_apply (x0 : FVec Ideal S4000x128 .f32) (x1 : FVec Ideal S128x64 .f32) (x2 : FVec Ideal S64 .f32) (r : Fin 4000) (q : Fin 64) :
    k5_pay1 (F := Ideal) x0 x1 x2 (ix2 r q) = Cert.Gcn.fc2 x0 x1 x2 r q := by
  unfold k5_pay1 Cert.Gcn.fc2
  simp only [shapeCast_self]
  refine congrArg₂ (· + ·) ?_ ?_
  · exact (Cert.LibMatmulPlain.matmul_zero_apply dot_S4000x128_S128x64_S4000x64_1_0_0_1_n_n rfl rfl rfl rfl rfl rfl _ _ r q).trans rfl
  · exact (broadcastTo_1b_ab_apply _ _ r q).trans (shapeCast_a_1a_apply x2 _ 0 q)

end Cert.KernelIdeal.HandV

end
-- ==== Proof.KIFin1.lean ====
/-
  Graph-convolution layer 0's output array after its Pallas call: grid point t writes back rows 4000 t … 4000 t + 3999
  of the layer's formula of the whole operand arrays as the region finds them (row 4000 t + r of the result depends on
  row 4000 t + r of the three feature matrices only, which is row r of their blocks staged at point t); the ten blocks
  tile the 40000 rows, so the array ends holding that function everywhere.
-/
import proofs.«153677_j23742579212601_1_alg».proof.Proof.KIReg1
import proofs.«153677_j23742579212601_1_alg».proof.Proof.KIValC

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem hz2_1 : (![0, 0] : Fin 2 → Nat) = fun _ => 0 := funext fun a => by fin_cases a <;> rfl
theorem hz1_1 : (![0] : Fin 1 → Nat) = fun _ => 0 := funext fun a => by fin_cases a; rfl

variable (V : (c : Dev nD) → (b : Ref sig .tc) → Buf (Elt Ideal) ((c : Thread nD τ).loc b))

/-- What the output array ends holding. -/
abbrev G1 (c : Dev nD) : S40000x128.Idx → EReal :=
  Cert.Gcn.ofEntries (Cert.Gcn.comb (Cert.Gcn.c1w 0) (Cert.Gcn.c2w 0) (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)))

/-- The printed index maps, decided over the grid: the three feature windows and the output window move down one block
    of rows per point, the weight and bias windows stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row r of the block of feature window 0 staged at point t is row 4000 t + r of its array. -/
theorem blk1_0 (c : Dev nD) (t : Fin cfg1.N) (r : Fin 4000) (k : Fin 128) (p : Fin 40000) (hp : p.val = t.val * 4000 + r.val) :
    iblk1 V c 0 t (ix2 r k) = V c (Pipeline.arrRef spec1 0) (ix2 p k) := by
  have e := idx_facts1 t
  show V c (Pipeline.arrRef spec1 0) (((cfg1.win 0).blk t).view.emb (ix2 r k)) = V c (Pipeline.arrRef spec1 0) (ix2 p k)
  refine congrArg _ (funext fun a => Fin.ext ?_)
  match a with
  | ⟨0, _⟩ => show win1_0.index t (0 : Fin 2) * 4000 + 1 * r.val = p.val; omega
  | ⟨1, _⟩ => show win1_0.index t (1 : Fin 2) * 128 + 1 * k.val = k.val; omega

/-- Row r of the block of feature window 1 staged at point t is row 4000 t + r of its array. -/
theorem blk1_1 (c : Dev nD) (t : Fin cfg1.N) (r : Fin 4000) (k : Fin 128) (p : Fin 40000) (hp : p.val = t.val * 4000 + r.val) :
    iblk1 V c 1 t (ix2 r k) = V c (Pipeline.arrRef spec1 1) (ix2 p k) := by
  have e := idx_facts1 t
  show V c (Pipeline.arrRef spec1 1) (((cfg1.win 1).blk t).view.emb (ix2 r k)) = V c (Pipeline.arrRef spec1 1) (ix2 p k)
  refine congrArg _ (funext fun a => Fin.ext ?_)
  match a with
  | ⟨0, _⟩ => show win1_1.index t (0 : Fin 2) * 4000 + 1 * r.val = p.val; omega
  | ⟨1, _⟩ => show win1_1.index t (1 : Fin 2) * 128 + 1 * k.val = k.val; omega

/-- Row r of the block of feature window 2 staged at point t is row 4000 t + r of its array. -/
theorem blk1_2 (c : Dev nD) (t : Fin cfg1.N) (r : Fin 4000) (k : Fin 128) (p : Fin 40000) (hp : p.val = t.val * 4000 + r.val) :
    iblk1 V c 2 t (ix2 r k) = V c (Pipeline.arrRef spec1 2) (ix2 p k) := by
  have e := idx_facts1 t
  show V c (Pipeline.arrRef spec1 2) (((cfg1.win 2).blk t).view.emb (ix2 r k)) = V c (Pipeline.arrRef spec1 2) (ix2 p k)
  refine congrArg _ (funext fun a => Fin.ext ?_)
  match a with
  | ⟨0, _⟩ => show win1_2.index t (0 : Fin 2) * 4000 + 1 * r.val = p.val; omega
  | ⟨1, _⟩ => show win1_2.index t (1 : Fin 2) * 128 + 1 * k.val = k.val; omega

/-- Weight window 3's block is the whole matrix. -/
theorem blk1_3 (c : Dev nD) (t : Fin cfg1.N) (k : Fin 128) (q : Fin 128) :
    iblk1 V c 3 t (ix2 k q) = V c (Pipeline.arrRef spec1 3) (ix2 k q) := by
  have e := idx_facts1 t
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Weight window 4's block is the whole matrix. -/
theorem blk1_4 (c : Dev nD) (t : Fin cfg1.N) (k : Fin 128) (q : Fin 128) :
    iblk1 V c 4 t (ix2 k q) = V c (Pipeline.arrRef spec1 4) (ix2 k q) := by
  have e := idx_facts1 t
  show V c (Pipeline.arrRef spec1 4) (((cfg1.win 4).blk t).view.emb (ix2 k q)) = V c (Pipeline.arrRef spec1 4) (ix2 k q)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- The bias window's block is the whole bias. -/
theorem blk1_5 (c : Dev nD) (t : Fin cfg1.N) (q : Fin 128) :
    iblk1 V c 5 t (ix1 q) = V c (Pipeline.arrRef spec1 5) (ix1 q) := by
  have e := idx_facts1 t
  show V c (Pipeline.arrRef spec1 5) (((cfg1.win 5).blk t).view.emb (ix1 q)) = V c (Pipeline.arrRef spec1 5) (ix1 q)
  refine congrArg _ (funext fun a => Fin.ext ?_)
  match a with
  | ⟨0, _⟩ => show win1_5.index t (0 : Fin 1) * 128 + 1 * q.val = q.val; omega

/-- What point t writes back is block t of the whole-array function. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz2_1]
  simp only [View.ld_unit_zero (S := S4000x128) hz2_1, View.ld_unit_zero (S := S128x128) hz2_1, View.ld_unit_zero (S := S128) hz1_1]
  funext j
  obtain ⟨r, q, rfl⟩ : ∃ (r : Fin 4000) (q : Fin 128), j = ix2 r q := ⟨j 0, j 1, eq_ix2 j⟩
  have e := idx_facts1 t
  have hN : t.val < 10 := lt_of_lt_of_eq t.isLt (N_1 : cfg1.N = 10)
  have hr : r.val < 4000 := r.isLt
  let p : Fin 40000 := ⟨t.val * 4000 + r.val, by omega⟩
  have hemb : ((cfg1.win 6).blk t).view.emb (ix2 r q) = ix2 p q := by
    funext a; apply Fin.ext
    match a with
    | ⟨0, _⟩ => show win1_6.index t (0 : Fin 2) * 4000 + 1 * r.val = t.val * 4000 + r.val; omega
    | ⟨1, _⟩ => show win1_6.index t (1 : Fin 2) * 128 + 1 * q.val = q.val; omega
  show k1_pay1 (iblk1 V c 0 t) (iblk1 V c 1 t) (iblk1 V c 2 t) (iblk1 V c 3 t) (iblk1 V c 4 t) (iblk1 V c 5 t) (ix2 r q) = G1 V c (((cfg1.win 6).blk t).view.emb (ix2 r q))
  rw [hemb]
  refine (pay1_apply _ _ _ _ _ _ r q).trans ?_
  show Cert.Gcn.comb _ _ _ _ _ _ _ _ r q = Cert.Gcn.comb _ _ _ _ _ _ _ _ p q
  unfold Cert.Gcn.comb
  refine congrArg₂ max (congrArg₂ (· + ·) (congrArg₂ (· + ·) (congrArg₂ (· + ·)
    (congrArg₂ (· * ·) rfl (congrArg₂ (· + ·) (congrArg (Cert.Gcn.halfW * ·) (blk1_0 V c t r q p rfl)) (congrArg (Cert.Gcn.halfW * ·) (blk1_1 V c t r q p rfl))))
    (congrArg₂ (· * ·) rfl (congrArg₂ (· + ·) ?_ ?_))) (blk1_5 V c t q)) (blk1_2 V c t r q p rfl)) rfl
  · exact Finset.sum_congr rfl fun k _ => congrArg₂ (· * ·) (congrArg (Cert.Gcn.halfW * ·) (blk1_0 V c t r k p rfl)) (blk1_3 V c t k q)
  · exact Finset.sum_congr rfl fun k _ => congrArg₂ (· * ·) (congrArg (Cert.Gcn.halfW * ·) (blk1_1 V c t r k p rfl)) (blk1_4 V c t k q)

/-- An index of the array is in point t's block iff its row is in the block's range. -/
theorem mem_blk1 (t : Fin cfg1.N) (i : S40000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v36).slice (win1_6.rect t)).set ↔ _
  rw [View.set_slice_whole, Rect.mem_set_unit]
  exact Iff.rfl

/-- Every index is in some point's block: the point that covers row p is p / 4000. -/
theorem cover1 (i : S40000x128.Idx) : ∃ t : Fin cfg1.N, (cfg1.win 6).flush t = true ∧ i ∈ ((cfg1.win 6).blk t).view.set := by
  have hi0 : (i 0).val < 40000 := (i 0).isLt
  have hi1 : (i 1).val < 128 := (i 1).isLt
  have hN : cfg1.N = 10 := N_1
  let t : Fin cfg1.N := ⟨(i 0).val / 4000, by omega⟩
  have e := idx_facts1 t
  have ht : t.val = (i 0).val / 4000 := rfl
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The output array after the Pallas call. -/
theorem final1 (c : Dev nD) : (dat1 V c).arrAt 6 cfg1.N = G1 V c :=
  (dat1 V c).arrAt_eq_of_cover 6 (G1 V c) (fun t _ => flushed1_eq V c t) cover1

end Cert.KernelIdeal.HandV

end
-- ==== Proof.KIFin2.lean ====
/-
  Graph-convolution layer 1's output array after its Pallas call: grid point t writes back rows 4000 t … 4000 t + 3999
  of the layer's formula of the whole operand arrays as the region finds them (row 4000 t + r of the result depends on
  row 4000 t + r of the three feature matrices only, which is row r of their blocks staged at point t); the ten blocks
  tile the 40000 rows, so the array ends holding that function everywhere.
-/
import proofs.«153677_j23742579212601_1_alg».proof.Proof.KIReg2
import proofs.«153677_j23742579212601_1_alg».proof.Proof.KIValC

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem hz2_2 : (![0, 0] : Fin 2 → Nat) = fun _ => 0 := funext fun a => by fin_cases a <;> rfl
theorem hz1_2 : (![0] : Fin 1 → Nat) = fun _ => 0 := funext fun a => by fin_cases a; rfl

variable (V : (c : Dev nD) → (b : Ref sig .tc) → Buf (Elt Ideal) ((c : Thread nD τ).loc b))

/-- What the output array ends holding. -/
abbrev G2 (c : Dev nD) : S40000x128.Idx → EReal :=
  Cert.Gcn.ofEntries (Cert.Gcn.comb (Cert.Gcn.c1w 1) (Cert.Gcn.c2w 1) (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)))

/-- The printed index maps, decided over the grid: the three feature windows and the output window move down one block
    of rows per point, the weight and bias windows stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row r of the block of feature window 0 staged at point t is row 4000 t + r of its array. -/
theorem blk2_0 (c : Dev nD) (t : Fin cfg2.N) (r : Fin 4000) (k : Fin 128) (p : Fin 40000) (hp : p.val = t.val * 4000 + r.val) :
    iblk2 V c 0 t (ix2 r k) = V c (Pipeline.arrRef spec2 0) (ix2 p k) := by
  have e := idx_facts2 t
  show V c (Pipeline.arrRef spec2 0) (((cfg2.win 0).blk t).view.emb (ix2 r k)) = V c (Pipeline.arrRef spec2 0) (ix2 p k)
  refine congrArg _ (funext fun a => Fin.ext ?_)
  match a with
  | ⟨0, _⟩ => show win2_0.index t (0 : Fin 2) * 4000 + 1 * r.val = p.val; omega
  | ⟨1, _⟩ => show win2_0.index t (1 : Fin 2) * 128 + 1 * k.val = k.val; omega

/-- Row r of the block of feature window 1 staged at point t is row 4000 t + r of its array. -/
theorem blk2_1 (c : Dev nD) (t : Fin cfg2.N) (r : Fin 4000) (k : Fin 128) (p : Fin 40000) (hp : p.val = t.val * 4000 + r.val) :
    iblk2 V c 1 t (ix2 r k) = V c (Pipeline.arrRef spec2 1) (ix2 p k) := by
  have e := idx_facts2 t
  show V c (Pipeline.arrRef spec2 1) (((cfg2.win 1).blk t).view.emb (ix2 r k)) = V c (Pipeline.arrRef spec2 1) (ix2 p k)
  refine congrArg _ (funext fun a => Fin.ext ?_)
  match a with
  | ⟨0, _⟩ => show win2_1.index t (0 : Fin 2) * 4000 + 1 * r.val = p.val; omega
  | ⟨1, _⟩ => show win2_1.index t (1 : Fin 2) * 128 + 1 * k.val = k.val; omega

/-- Row r of the block of feature window 2 staged at point t is row 4000 t + r of its array. -/
theorem blk2_2 (c : Dev nD) (t : Fin cfg2.N) (r : Fin 4000) (k : Fin 128) (p : Fin 40000) (hp : p.val = t.val * 4000 + r.val) :
    iblk2 V c 2 t (ix2 r k) = V c (Pipeline.arrRef spec2 2) (ix2 p k) := by
  have e := idx_facts2 t
  show V c (Pipeline.arrRef spec2 2) (((cfg2.win 2).blk t).view.emb (ix2 r k)) = V c (Pipeline.arrRef spec2 2) (ix2 p k)
  refine congrArg _ (funext fun a => Fin.ext ?_)
  match a with
  | ⟨0, _⟩ => show win2_2.index t (0 : Fin 2) * 4000 + 1 * r.val = p.val; omega
  | ⟨1, _⟩ => show win2_2.index t (1 : Fin 2) * 128 + 1 * k.val = k.val; omega

/-- Weight window 3's block is the whole matrix. -/
theorem blk2_3 (c : Dev nD) (t : Fin cfg2.N) (k : Fin 128) (q : Fin 128) :
    iblk2 V c 3 t (ix2 k q) = V c (Pipeline.arrRef spec2 3) (ix2 k q) := by
  have e := idx_facts2 t
  show V c (Pipeline.arrRef spec2 3) (((cfg2.win 3).blk t).view.emb (ix2 k q)) = V c (Pipeline.arrRef spec2 3) (ix2 k q)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- Weight window 4's block is the whole matrix. -/
theorem blk2_4 (c : Dev nD) (t : Fin cfg2.N) (k : Fin 128) (q : Fin 128) :
    iblk2 V c 4 t (ix2 k q) = V c (Pipeline.arrRef spec2 4) (ix2 k q) := by
  have e := idx_facts2 t
  show V c (Pipeline.arrRef spec2 4) (((cfg2.win 4).blk t).view.emb (ix2 k q)) = V c (Pipeline.arrRef spec2 4) (ix2 k q)
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- The bias window's block is the whole bias. -/
theorem blk2_5 (c : Dev nD) (t : Fin cfg2.N) (q : Fin 128) :
    iblk2 V c 5 t (ix1 q) = V c (Pipeline.arrRef spec2 5) (ix1 q) := by
  have e := idx_facts2 t
  show V c (Pipeline.arrRef spec2 5) (((cfg2.win 5).blk t).view.emb (ix1 q)) = V c (Pipeline.arrRef spec2 5) (ix1 q)
  refine congrArg _ (funext fun a => Fin.ext ?_)
  match a with
  | ⟨0, _⟩ => show win2_5.index t (0 : Fin 1) * 128 + 1 * q.val = q.val; omega

/-- What point t writes back is block t of the whole-array function. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz2_2]
  simp only [View.ld_unit_zero (S := S4000x128) hz2_2, View.ld_unit_zero (S := S128x128) hz2_2, View.ld_unit_zero (S := S128) hz1_2]
  funext j
  obtain ⟨r, q, rfl⟩ : ∃ (r : Fin 4000) (q : Fin 128), j = ix2 r q := ⟨j 0, j 1, eq_ix2 j⟩
  have e := idx_facts2 t
  have hN : t.val < 10 := lt_of_lt_of_eq t.isLt (N_2 : cfg2.N = 10)
  have hr : r.val < 4000 := r.isLt
  let p : Fin 40000 := ⟨t.val * 4000 + r.val, by omega⟩
  have hemb : ((cfg2.win 6).blk t).view.emb (ix2 r q) = ix2 p q := by
    funext a; apply Fin.ext
    match a with
    | ⟨0, _⟩ => show win2_6.index t (0 : Fin 2) * 4000 + 1 * r.val = t.val * 4000 + r.val; omega
    | ⟨1, _⟩ => show win2_6.index t (1 : Fin 2) * 128 + 1 * q.val = q.val; omega
  show k2_pay1 (iblk2 V c 0 t) (iblk2 V c 1 t) (iblk2 V c 2 t) (iblk2 V c 3 t) (iblk2 V c 4 t) (iblk2 V c 5 t) (ix2 r q) = G2 V c (((cfg2.win 6).blk t).view.emb (ix2 r q))
  rw [hemb]
  refine (pay2_apply _ _ _ _ _ _ r q).trans ?_
  show Cert.Gcn.comb _ _ _ _ _ _ _ _ r q = Cert.Gcn.comb _ _ _ _ _ _ _ _ p q
  unfold Cert.Gcn.comb
  refine congrArg₂ max (congrArg₂ (· + ·) (congrArg₂ (· + ·) (congrArg₂ (· + ·)
    (congrArg₂ (· * ·) rfl (congrArg₂ (· + ·) (congrArg (Cert.Gcn.halfW * ·) (blk2_0 V c t r q p rfl)) (congrArg (Cert.Gcn.halfW * ·) (blk2_1 V c t r q p rfl))))
    (congrArg₂ (· * ·) rfl (congrArg₂ (· + ·) ?_ ?_))) (blk2_5 V c t q)) (blk2_2 V c t r q p rfl)) rfl
  · exact Finset.sum_congr rfl fun k _ => congrArg₂ (· * ·) (congrArg (Cert.Gcn.halfW * ·) (blk2_0 V c t r k p rfl)) (blk2_3 V c t k q)
  · exact Finset.sum_congr rfl fun k _ => congrArg₂ (· * ·) (congrArg (Cert.Gcn.halfW * ·) (blk2_1 V c t r k p rfl)) (blk2_4 V c t k q)

/-- An index of the array is in point t's block iff its row is in the block's range. -/
theorem mem_blk2 (t : Fin cfg2.N) (i : S40000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v57).slice (win2_6.rect t)).set ↔ _
  rw [View.set_slice_whole, Rect.mem_set_unit]
  exact Iff.rfl

/-- Every index is in some point's block: the point that covers row p is p / 4000. -/
theorem cover2 (i : S40000x128.Idx) : ∃ t : Fin cfg2.N, (cfg2.win 6).flush t = true ∧ i ∈ ((cfg2.win 6).blk t).view.set := by
  have hi0 : (i 0).val < 40000 := (i 0).isLt
  have hi1 : (i 1).val < 128 := (i 1).isLt
  have hN : cfg2.N = 10 := N_2
  let t : Fin cfg2.N := ⟨(i 0).val / 4000, by omega⟩
  have e := idx_facts2 t
  have ht : t.val = (i 0).val / 4000 := rfl
  refine ⟨t, flush2_6 t, ?_⟩
  rw [mem_blk2]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 128 ≤ (i 1).val ∧ (i 1).val < win2_6.index t (1 : Fin 2) * 128 + 128; omega

/-- The output array after the Pallas call. -/
theorem final2 (c : Dev nD) : (dat2 V c).arrAt 6 cfg2.N = G2 V c :=
  (dat2 V c).arrAt_eq_of_cover 6 (G2 V c) (fun t _ => flushed2_eq V c t) cover2

end Cert.KernelIdeal.HandV

end
-- ==== Proof.KIFin3.lean ====
/-
  Graph-convolution layer 2's output array after its Pallas call: grid point t writes back rows 4000 t … 4000 t + 3999
  of the layer's formula of the whole operand arrays as the region finds them (row 4000 t + r of the result depends on
  row 4000 t + r of the three feature matrices only, which is row r of their blocks staged at point t); the ten blocks
  tile the 40000 rows, so the array ends holding that function everywhere.
-/
import proofs.«153677_j23742579212601_1_alg».proof.Proof.KIReg3
import proofs.«153677_j23742579212601_1_alg».proof.Proof.KIValC

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem hz2_3 : (![0, 0] : Fin 2 → Nat) = fun _ => 0 := funext fun a => by fin_cases a <;> rfl
theorem hz1_3 : (![0] : Fin 1 → Nat) = fun _ => 0 := funext fun a => by fin_cases a; rfl

variable (V : (c : Dev nD) → (b : Ref sig .tc) → Buf (Elt Ideal) ((c : Thread nD τ).loc b))

/-- What the output array ends holding. -/
abbrev G3 (c : Dev nD) : S40000x128.Idx → EReal :=
  Cert.Gcn.ofEntries (Cert.Gcn.comb (Cert.Gcn.c1w 2) (Cert.Gcn.c2w 2) (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5)))

/-- The printed index maps, decided over the grid: the three feature windows and the output window move down one block
    of rows per point, the weight and bias windows stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Row r of the block of feature window 0 staged at point t is row 4000 t + r of its array. -/
theorem blk3_0 (c : Dev nD) (t : Fin cfg3.N) (r : Fin 4000) (k : Fin 128) (p : Fin 40000) (hp : p.val = t.val * 4000 + r.val) :
    iblk3 V c 0 t (ix2 r k) = V c (Pipeline.arrRef spec3 0) (ix2 p k) := by
  have e := idx_facts3 t
  show V c (Pipeline.arrRef spec3 0) (((cfg3.win 0).blk t).view.emb (ix2 r k)) = V c (Pipeline.arrRef spec3 0) (ix2 p k)
  refine congrArg _ (funext fun a => Fin.ext ?_)
  match a with
  | ⟨0, _⟩ => show win3_0.index t (0 : Fin 2) * 4000 + 1 * r.val = p.val; omega
  | ⟨1, _⟩ => show win3_0.index t (1 : Fin 2) * 128 + 1 * k.val = k.val; omega

/-- Row r of the block of feature window 1 staged at point t is row 4000 t + r of its array. -/
theorem blk3_1 (c : Dev nD) (t : Fin cfg3.N) (r : Fin 4000) (k : Fin 128) (p : Fin 40000) (hp : p.val = t.val * 4000 + r.val) :
    iblk3 V c 1 t (ix2 r k) = V c (Pipeline.arrRef spec3 1) (ix2 p k) := by
  have e := idx_facts3 t
  show V c (Pipeline.arrRef spec3 1) (((cfg3.win 1).blk t).view.emb (ix2 r k)) = V c (Pipeline.arrRef spec3 1) (ix2 p k)
  refine congrArg _ (funext fun a => Fin.ext ?_)
  match a with
  | ⟨0, _⟩ => show win3_1.index t (0 : Fin 2) * 4000 + 1 * r.val = p.val; omega
  | ⟨1, _⟩ => show win3_1.index t (1 : Fin 2) * 128 + 1 * k.val = k.val; omega

/-- Row r of the block of feature window 2 staged at point t is row 4000 t + r of its array. -/
theorem blk3_2 (c : Dev nD) (t : Fin cfg3.N) (r : Fin 4000) (k : Fin 128) (p : Fin 40000) (hp : p.val = t.val * 4000 + r.val) :
    iblk3 V c 2 t (ix2 r k) = V c (Pipeline.arrRef spec3 2) (ix2 p k) := by
  have e := idx_facts3 t
  show V c (Pipeline.arrRef spec3 2) (((cfg3.win 2).blk t).view.emb (ix2 r k)) = V c (Pipeline.arrRef spec3 2) (ix2 p k)
  refine congrArg _ (funext fun a => Fin.ext ?_)
  match a with
  | ⟨0, _⟩ => show win3_2.index t (0 : Fin 2) * 4000 + 1 * r.val = p.val; omega
  | ⟨1, _⟩ => show win3_2.index t (1 : Fin 2) * 128 + 1 * k.val = k.val; omega

/-- Weight window 3's block is the whole matrix. -/
theorem blk3_3 (c : Dev nD) (t : Fin cfg3.N) (k : Fin 128) (q : Fin 128) :
    iblk3 V c 3 t (ix2 k q) = V c (Pipeline.arrRef spec3 3) (ix2 k q) := by
  have e := idx_facts3 t
  show V c (Pipeline.arrRef spec3 3) (((cfg3.win 3).blk t).view.emb (ix2 k q)) = V c (Pipeline.arrRef spec3 3) (ix2 k q)
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- Weight window 4's block is the whole matrix. -/
theorem blk3_4 (c : Dev nD) (t : Fin cfg3.N) (k : Fin 128) (q : Fin 128) :
    iblk3 V c 4 t (ix2 k q) = V c (Pipeline.arrRef spec3 4) (ix2 k q) := by
  have e := idx_facts3 t
  show V c (Pipeline.arrRef spec3 4) (((cfg3.win 4).blk t).view.emb (ix2 k q)) = V c (Pipeline.arrRef spec3 4) (ix2 k q)
  refine congrArg _ (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- The bias window's block is the whole bias. -/
theorem blk3_5 (c : Dev nD) (t : Fin cfg3.N) (q : Fin 128) :
    iblk3 V c 5 t (ix1 q) = V c (Pipeline.arrRef spec3 5) (ix1 q) := by
  have e := idx_facts3 t
  show V c (Pipeline.arrRef spec3 5) (((cfg3.win 5).blk t).view.emb (ix1 q)) = V c (Pipeline.arrRef spec3 5) (ix1 q)
  refine congrArg _ (funext fun a => Fin.ext ?_)
  match a with
  | ⟨0, _⟩ => show win3_5.index t (0 : Fin 1) * 128 + 1 * q.val = q.val; omega

/-- What point t writes back is block t of the whole-array function. -/
theorem flushed3_eq (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero hz2_3]
  simp only [View.ld_unit_zero (S := S4000x128) hz2_3, View.ld_unit_zero (S := S128x128) hz2_3, View.ld_unit_zero (S := S128) hz1_3]
  funext j
  obtain ⟨r, q, rfl⟩ : ∃ (r : Fin 4000) (q : Fin 128), j = ix2 r q := ⟨j 0, j 1, eq_ix2 j⟩
  have e := idx_facts3 t
  have hN : t.val < 10 := lt_of_lt_of_eq t.isLt (N_3 : cfg3.N = 10)
  have hr : r.val < 4000 := r.isLt
  let p : Fin 40000 := ⟨t.val * 4000 + r.val, by omega⟩
  have hemb : ((cfg3.win 6).blk t).view.emb (ix2 r q) = ix2 p q := by
    funext a; apply Fin.ext
    match a with
    | ⟨0, _⟩ => show win3_6.index t (0 : Fin 2) * 4000 + 1 * r.val = t.val * 4000 + r.val; omega
    | ⟨1, _⟩ => show win3_6.index t (1 : Fin 2) * 128 + 1 * q.val = q.val; omega
  show k3_pay1 (iblk3 V c 0 t) (iblk3 V c 1 t) (iblk3 V c 2 t) (iblk3 V c 3 t) (iblk3 V c 4 t) (iblk3 V c 5 t) (ix2 r q) = G3 V c (((cfg3.win 6).blk t).view.emb (ix2 r q))
  rw [hemb]
  refine (pay3_apply _ _ _ _ _ _ r q).trans ?_
  show Cert.Gcn.comb _ _ _ _ _ _ _ _ r q = Cert.Gcn.comb _ _ _ _ _ _ _ _ p q
  unfold Cert.Gcn.comb
  refine congrArg₂ max (congrArg₂ (· + ·) (congrArg₂ (· + ·) (congrArg₂ (· + ·)
    (congrArg₂ (· * ·) rfl (congrArg₂ (· + ·) (congrArg (Cert.Gcn.halfW * ·) (blk3_0 V c t r q p rfl)) (congrArg (Cert.Gcn.halfW * ·) (blk3_1 V c t r q p rfl))))
    (congrArg₂ (· * ·) rfl (congrArg₂ (· + ·) ?_ ?_))) (blk3_5 V c t q)) (blk3_2 V c t r q p rfl)) rfl
  · exact Finset.sum_congr rfl fun k _ => congrArg₂ (· * ·) (congrArg (Cert.Gcn.halfW * ·) (blk3_0 V c t r k p rfl)) (blk3_3 V c t k q)
  · exact Finset.sum_congr rfl fun k _ => congrArg₂ (· * ·) (congrArg (Cert.Gcn.halfW * ·) (blk3_1 V c t r k p rfl)) (blk3_4 V c t k q)

/-- An index of the array is in point t's block iff its row is in the block's range. -/
theorem mem_blk3 (t : Fin cfg3.N) (i : S40000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v78).slice (win3_6.rect t)).set ↔ _
  rw [View.set_slice_whole, Rect.mem_set_unit]
  exact Iff.rfl

/-- Every index is in some point's block: the point that covers row p is p / 4000. -/
theorem cover3 (i : S40000x128.Idx) : ∃ t : Fin cfg3.N, (cfg3.win 6).flush t = true ∧ i ∈ ((cfg3.win 6).blk t).view.set := by
  have hi0 : (i 0).val < 40000 := (i 0).isLt
  have hi1 : (i 1).val < 128 := (i 1).isLt
  have hN : cfg3.N = 10 := N_3
  let t : Fin cfg3.N := ⟨(i 0).val / 4000, by omega⟩
  have e := idx_facts3 t
  have ht : t.val = (i 0).val / 4000 := rfl
  refine ⟨t, flush3_6 t, ?_⟩
  rw [mem_blk3]
  intro a
  match a with
  | ⟨0, _⟩ => show win3_6.index t (0 : Fin 2) * 4000 ≤ (i 0).val ∧ (i 0).val < win3_6.index t (0 : Fin 2) * 4000 + 4000; omega
  | ⟨1, _⟩ => show win3_6.index t (1 : Fin 2) * 128 ≤ (i 1).val ∧ (i 1).val < win3_6.index t (1 : Fin 2) * 128 + 128; omega

/-- The output array after the Pallas call. -/
theorem final3 (c : Dev nD) : (dat3 V c).arrAt 6 cfg3.N = G3 V c :=
  (dat3 V c).arrAt_eq_of_cover 6 (G3 V c) (fun t _ => flushed3_eq V c t) cover3

end Cert.KernelIdeal.HandV

end
-- ==== Proof.KIFin4.lean ====
/-
  Graph-convolution layer 3's output array after its Pallas call: grid point t writes back rows 4000 t … 4000 t + 3999
  of the layer's formula of the whole operand arrays as the region finds them (row 4000 t + r of the result depends on
  row 4000 t + r of the three feature matrices only, which is row r of their blocks staged at point t); the ten blocks
  tile the 40000 rows, so the array ends holding that function everywhere.
-/
import proofs.«153677_j23742579212601_1_alg».proof.Proof.KIReg4
import proofs.«153677_j23742579212601_1_alg».proof.Proof.KIValC

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem hz2_4 : (![0, 0] : Fin 2 → Nat) = fun _ => 0 := funext fun a => by fin_cases a <;> rfl
theorem hz1_4 : (![0] : Fin 1 → Nat) = fun _ => 0 := funext fun a => by fin_cases a; rfl

variable (V : (c : Dev nD) → (b : Ref sig .tc) → Buf (Elt Ideal) ((c : Thread nD τ).loc b))

/-- What the output array ends holding. -/
abbrev G4 (c : Dev nD) : S40000x128.Idx → EReal :=
  Cert.Gcn.ofEntries (Cert.Gcn.comb (Cert.Gcn.c1w 3) (Cert.Gcn.c2w 3) (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)))

/-- The printed index maps, decided over the grid: the three feature windows and the output window move down one block
    of rows per point, the weight and bias windows stay. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- Row r of the block of feature window 0 staged at point t is row 4000 t + r of its array. -/
theorem blk4_0 (c : Dev nD) (t : Fin cfg4.N) (r : Fin 4000) (k : Fin 128) (p : Fin 40000) (hp : p.val = t.val * 4000 + r.val) :
    iblk4 V c 0 t (ix2 r k) = V c (Pipeline.arrRef spec4 0) (ix2 p k) := by
  have e := idx_facts4 t
  show V c (Pipeline.arrRef spec4 0) (((cfg4.win 0).blk t).view.emb (ix2 r k)) = V c (Pipeline.arrRef spec4 0) (ix2 p k)
  refine congrArg _ (funext fun a => Fin.ext ?_)
  match a with
  | ⟨0, _⟩ => show win4_0.index t (0 : Fin 2) * 4000 + 1 * r.val = p.val; omega
  | ⟨1, _⟩ => show win4_0.index t (1 : Fin 2) * 128 + 1 * k.val = k.val; omega

/-- Row r of the block of feature window 1 staged at point t is row 4000 t + r of its array. -/
theorem blk4_1 (c : Dev nD) (t : Fin cfg4.N) (r : Fin 4000) (k : Fin 128) (p : Fin 40000) (hp : p.val = t.val * 4000 + r.val) :
    iblk4 V c 1 t (ix2 r k) = V c (Pipeline.arrRef spec4 1) (ix2 p k) := by
  have e := idx_facts4 t
  show V c (Pipeline.arrRef spec4 1) (((cfg4.win 1).blk t).view.emb (ix2 r k)) = V c (Pipeline.arrRef spec4 1) (ix2 p k)
  refine congrArg _ (funext fun a => Fin.ext ?_)
  match a with
  | ⟨0, _⟩ => show win4_1.index t (0 : Fin 2) * 4000 + 1 * r.val = p.val; omega
  | ⟨1, _⟩ => show win4_1.index t (1 : Fin 2) * 128 + 1 * k.val = k.val; omega

/-- Row r of the block of feature window 2 staged at point t is row 4000 t + r of its array. -/
theorem blk4_2 (c : Dev nD) (t : Fin cfg4.N) (r : Fin 4000) (k : Fin 128) (p : Fin 40000) (hp : p.val = t.val * 4000 + r.val) :
    iblk4 V c 2 t (ix2 r k) = V c (Pipeline.arrRef spec4 2) (ix2 p k) := by
  have e := idx_facts4 t
  show V c (Pipeline.arrRef spec4 2) (((cfg4.win 2).blk t).view.emb (ix2 r k)) = V c (Pipeline.arrRef spec4 2) (ix2 p k)
  refine congrArg _ (funext fun a => Fin.ext ?_)
  match a with
  | ⟨0, _⟩ => show win4_2.index t (0 : Fin 2) * 4000 + 1 * r.val = p.val; omega
  | ⟨1, _⟩ => show win4_2.index t (1 : Fin 2) * 128 + 1 * k.val = k.val; omega

/-- Weight window 3's block is the whole matrix. -/
theorem blk4_3 (c : Dev nD) (t : Fin cfg4.N) (k : Fin 128) (q : Fin 128) :
    iblk4 V c 3 t (ix2 k q) = V c (Pipeline.arrRef spec4 3) (ix2 k q) := by
  have e := idx_facts4 t
  show V c (Pipeline.arrRef spec4 3) (((cfg4.win 3).blk t).view.emb (ix2 k q)) = V c (Pipeline.arrRef spec4 3) (ix2 k q)
  refine congrArg _ (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

/-- Weight window 4's block is the whole matrix. -/
theorem blk4_4 (c : Dev nD) (t : Fin cfg4.N) (k : Fin 128) (q : Fin 128) :
    iblk4 V c 4 t (ix2 k q) = V c (Pipeline.arrRef spec4 4) (ix2 k q) := by
  have e := idx_facts4 t
  show V c (Pipeline.arrRef spec4 4) (((cfg4.win 4).blk t).view.emb (ix2 k q)) = V c (Pipeline.arrRef spec4 4) (ix2 k q)
  refine congrArg _ (funext fun a => Fin.ext ?_)
  match a with
  | ⟨0, _⟩ => show win4_4.index t (0 : Fin 2) * 128 + 1 * k.val = k.val; omega
  | ⟨1, _⟩ => show win4_4.index t (1 : Fin 2) * 128 + 1 * q.val = q.val; omega

/-- The bias window's block is the whole bias. -/
theorem blk4_5 (c : Dev nD) (t : Fin cfg4.N) (q : Fin 128) :
    iblk4 V c 5 t (ix1 q) = V c (Pipeline.arrRef spec4 5) (ix1 q) := by
  have e := idx_facts4 t
  show V c (Pipeline.arrRef spec4 5) (((cfg4.win 5).blk t).view.emb (ix1 q)) = V c (Pipeline.arrRef spec4 5) (ix1 q)
  refine congrArg _ (funext fun a => Fin.ext ?_)
  match a with
  | ⟨0, _⟩ => show win4_5.index t (0 : Fin 1) * 128 + 1 * q.val = q.val; omega

/-- What point t writes back is block t of the whole-array function. -/
theorem flushed4_eq (c : Dev nD) (t : Fin cfg4.N) :
    (dat4 V c).flushed 6 t = ((cfg4.win 6).blk t).view.read (Elt Ideal) (G4 V c) := by
  show (cfg4.win 6).cut (grid4.coords t) ((dat4 V c).after 6 t) = _
  rw [after4_6]
  unfold out4_6
  rw [View.canon_unit_zero hz2_4]
  simp only [View.ld_unit_zero (S := S4000x128) hz2_4, View.ld_unit_zero (S := S128x128) hz2_4, View.ld_unit_zero (S := S128) hz1_4]
  funext j
  obtain ⟨r, q, rfl⟩ : ∃ (r : Fin 4000) (q : Fin 128), j = ix2 r q := ⟨j 0, j 1, eq_ix2 j⟩
  have e := idx_facts4 t
  have hN : t.val < 10 := lt_of_lt_of_eq t.isLt (N_4 : cfg4.N = 10)
  have hr : r.val < 4000 := r.isLt
  let p : Fin 40000 := ⟨t.val * 4000 + r.val, by omega⟩
  have hemb : ((cfg4.win 6).blk t).view.emb (ix2 r q) = ix2 p q := by
    funext a; apply Fin.ext
    match a with
    | ⟨0, _⟩ => show win4_6.index t (0 : Fin 2) * 4000 + 1 * r.val = t.val * 4000 + r.val; omega
    | ⟨1, _⟩ => show win4_6.index t (1 : Fin 2) * 128 + 1 * q.val = q.val; omega
  show k4_pay1 (iblk4 V c 0 t) (iblk4 V c 1 t) (iblk4 V c 2 t) (iblk4 V c 3 t) (iblk4 V c 4 t) (iblk4 V c 5 t) (ix2 r q) = G4 V c (((cfg4.win 6).blk t).view.emb (ix2 r q))
  rw [hemb]
  refine (pay4_apply _ _ _ _ _ _ r q).trans ?_
  show Cert.Gcn.comb _ _ _ _ _ _ _ _ r q = Cert.Gcn.comb _ _ _ _ _ _ _ _ p q
  unfold Cert.Gcn.comb
  refine congrArg₂ max (congrArg₂ (· + ·) (congrArg₂ (· + ·) (congrArg₂ (· + ·)
    (congrArg₂ (· * ·) rfl (congrArg₂ (· + ·) (congrArg (Cert.Gcn.halfW * ·) (blk4_0 V c t r q p rfl)) (congrArg (Cert.Gcn.halfW * ·) (blk4_1 V c t r q p rfl))))
    (congrArg₂ (· * ·) rfl (congrArg₂ (· + ·) ?_ ?_))) (blk4_5 V c t q)) (blk4_2 V c t r q p rfl)) rfl
  · exact Finset.sum_congr rfl fun k _ => congrArg₂ (· * ·) (congrArg (Cert.Gcn.halfW * ·) (blk4_0 V c t r k p rfl)) (blk4_3 V c t k q)
  · exact Finset.sum_congr rfl fun k _ => congrArg₂ (· * ·) (congrArg (Cert.Gcn.halfW * ·) (blk4_1 V c t r k p rfl)) (blk4_4 V c t k q)

/-- An index of the array is in point t's block iff its row is in the block's range. -/
theorem mem_blk4 (t : Fin cfg4.N) (i : S40000x128.Idx) :
    i ∈ ((cfg4.win 6).blk t).view.set ↔ ∀ a : Fin 2, win4_6.index t a * S4000x128.size a ≤ (i a).val ∧ (i a).val < win4_6.index t a * S4000x128.size a + S4000x128.size a := by
  show i ∈ ((View.whole main_v99).slice (win4_6.rect t)).set ↔ _
  rw [View.set_slice_whole, Rect.mem_set_unit]
  exact Iff.rfl

/-- Every index is in some point's block: the point that covers row p is p / 4000. -/
theorem cover4 (i : S40000x128.Idx) : ∃ t : Fin cfg4.N, (cfg4.win 6).flush t = true ∧ i ∈ ((cfg4.win 6).blk t).view.set := by
  have hi0 : (i 0).val < 40000 := (i 0).isLt
  have hi1 : (i 1).val < 128 := (i 1).isLt
  have hN : cfg4.N = 10 := N_4
  let t : Fin cfg4.N := ⟨(i 0).val / 4000, by omega⟩
  have e := idx_facts4 t
  have ht : t.val = (i 0).val / 4000 := rfl
  refine ⟨t, flush4_6 t, ?_⟩
  rw [mem_blk4]
  intro a
  match a with
  | ⟨0, _⟩ => show win4_6.index t (0 : Fin 2) * 4000 ≤ (i 0).val ∧ (i 0).val < win4_6.index t (0 : Fin 2) * 4000 + 4000; omega
  | ⟨1, _⟩ => show win4_6.index t (1 : Fin 2) * 128 ≤ (i 1).val ∧ (i 1).val < win4_6.index t (1 : Fin 2) * 128 + 128; omega

/-- The output array after the Pallas call. -/
theorem final4 (c : Dev nD) : (dat4 V c).arrAt 6 cfg4.N = G4 V c :=
  (dat4 V c).arrAt_eq_of_cover 6 (G4 V c) (fun t _ => flushed4_eq V c t) cover4

end Cert.KernelIdeal.HandV

end
-- ==== Proof.KIFin5.lean ====
/-
  The last dense layer's output array after its Pallas call: grid point t writes back rows 4000 t … 4000 t + 3999 of
  h w + b of the whole operand arrays as the region finds them (row 4000 t + r of the result depends on row 4000 t + r of
  h only, which is row r of the block of h staged at point t); the ten blocks tile the 40000 rows, so the array ends
  holding that function everywhere.
-/
import proofs.«153677_j23742579212601_1_alg».proof.Proof.KIReg5
import proofs.«153677_j23742579212601_1_alg».proof.Proof.KIValC

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem hz2_5 : (![0, 0] : Fin 2 → Nat) = fun _ => 0 := funext fun a => by fin_cases a <;> rfl
theorem hz1_5 : (![0] : Fin 1 → Nat) = fun _ => 0 := funext fun a => by fin_cases a; rfl

variable (V : (c : Dev nD) → (b : Ref sig .tc) → Buf (Elt Ideal) ((c : Thread nD τ).loc b))

/-- What the output array ends holding. -/
abbrev G5 (c : Dev nD) : S40000x64.Idx → EReal :=
  Cert.Gcn.ofEntries (Cert.Gcn.fc2 (V c (Pipeline.arrRef spec5 0)) (V c (Pipeline.arrRef spec5 1)) (V c (Pipeline.arrRef spec5 2)))

/-- The printed index maps, decided over the grid. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

theorem blk5_0 (c : Dev nD) (t : Fin cfg5.N) (r : Fin 4000) (k : Fin 128) (p : Fin 40000) (hp : p.val = t.val * 4000 + r.val) :
    iblk5 V c 0 t (ix2 r k) = V c (Pipeline.arrRef spec5 0) (ix2 p k) := by
  have e := idx_facts5 t
  show V c (Pipeline.arrRef spec5 0) (((cfg5.win 0).blk t).view.emb (ix2 r k)) = V c (Pipeline.arrRef spec5 0) (ix2 p k)
  refine congrArg _ (funext fun a => Fin.ext ?_)
  match a with
  | ⟨0, _⟩ => show win5_0.index t (0 : Fin 2) * 4000 + 1 * r.val = p.val; omega
  | ⟨1, _⟩ => show win5_0.index t (1 : Fin 2) * 128 + 1 * k.val = k.val; omega

theorem blk5_1 (c : Dev nD) (t : Fin cfg5.N) (k : Fin 128) (q : Fin 64) :
    iblk5 V c 1 t (ix2 k q) = V c (Pipeline.arrRef spec5 1) (ix2 k q) := by
  have e := idx_facts5 t
  show V c (Pipeline.arrRef spec5 1) (((cfg5.win 1).blk t).view.emb (ix2 k q)) = V c (Pipeline.arrRef spec5 1) (ix2 k q)
  refine congrArg _ (funext fun a => Fin.ext ?_)
  match a with
  | ⟨0, _⟩ => show win5_1.index t (0 : Fin 2) * 128 + 1 * k.val = k.val; omega
  | ⟨1, _⟩ => show win5_1.index t (1 : Fin 2) * 64 + 1 * q.val = q.val; omega

theorem blk5_2 (c : Dev nD) (t : Fin cfg5.N) (q : Fin 64) :
    iblk5 V c 2 t (ix1 q) = V c (Pipeline.arrRef spec5 2) (ix1 q) := by
  have e := idx_facts5 t
  show V c (Pipeline.arrRef spec5 2) (((cfg5.win 2).blk t).view.emb (ix1 q)) = V c (Pipeline.arrRef spec5 2) (ix1 q)
  refine congrArg _ (funext fun a => Fin.ext ?_)
  match a with
  | ⟨0, _⟩ => show win5_2.index t (0 : Fin 1) * 64 + 1 * q.val = q.val; omega

/-- What point t writes back is block t of the whole-array function. -/
theorem flushed5_eq (c : Dev nD) (t : Fin cfg5.N) :
    (dat5 V c).flushed 3 t = ((cfg5.win 3).blk t).view.read (Elt Ideal) (G5 V c) := by
  show (cfg5.win 3).cut (grid5.coords t) ((dat5 V c).after 3 t) = _
  rw [after5_3]
  unfold out5_3
  rw [View.canon_unit_zero hz2_5]
  simp only [View.ld_unit_zero (S := S4000x128) hz2_5, View.ld_unit_zero (S := S128x64) hz2_5, View.ld_unit_zero (S := S64) hz1_5]
  funext j
  obtain ⟨r, q, rfl⟩ : ∃ (r : Fin 4000) (q : Fin 64), j = ix2 r q := ⟨j 0, j 1, eq_ix2 j⟩
  have e := idx_facts5 t
  have hN : t.val < 10 := lt_of_lt_of_eq t.isLt (N_5 : cfg5.N = 10)
  have hemb : ((cfg5.win 3).blk t).view.emb (ix2 r q) = ix2 (⟨t.val * 4000 + r.val, by have := r.isLt; omega⟩ : Fin 40000) q := by
    funext a; apply Fin.ext
    match a with
    | ⟨0, _⟩ => show win5_3.index t (0 : Fin 2) * 4000 + 1 * r.val = t.val * 4000 + r.val; omega
    | ⟨1, _⟩ => show win5_3.index t (1 : Fin 2) * 64 + 1 * q.val = q.val; omega
  show k5_pay1 (iblk5 V c 0 t) (iblk5 V c 1 t) (iblk5 V c 2 t) (ix2 r q) = G5 V c (((cfg5.win 3).blk t).view.emb (ix2 r q))
  rw [hemb]
  refine (pay5_apply _ _ _ r q).trans ?_
  show Cert.Gcn.fc2 _ _ _ r q = Cert.Gcn.fc2 _ _ _ _ q
  unfold Cert.Gcn.fc2
  refine congrArg₂ (· + ·) (Finset.sum_congr rfl fun k _ => congrArg₂ (· * ·) (blk5_0 V c t r k _ rfl) (blk5_1 V c t k q)) (blk5_2 V c t q)

theorem mem_blk5 (t : Fin cfg5.N) (i : S40000x64.Idx) :
    i ∈ ((cfg5.win 3).blk t).view.set ↔ ∀ a : Fin 2, win5_3.index t a * S4000x64.size a ≤ (i a).val ∧ (i a).val < win5_3.index t a * S4000x64.size a + S4000x64.size a := by
  show i ∈ ((View.whole main_v100).slice (win5_3.rect t)).set ↔ _
  rw [View.set_slice_whole, Rect.mem_set_unit]
  exact Iff.rfl

theorem cover5 (i : S40000x64.Idx) : ∃ t : Fin cfg5.N, (cfg5.win 3).flush t = true ∧ i ∈ ((cfg5.win 3).blk t).view.set := by
  have hi0 : (i 0).val < 40000 := (i 0).isLt
  have hi1 : (i 1).val < 64 := (i 1).isLt
  have hN : cfg5.N = 10 := N_5
  let t : Fin cfg5.N := ⟨(i 0).val / 4000, by omega⟩
  have e := idx_facts5 t
  have ht : t.val = (i 0).val / 4000 := rfl
  refine ⟨t, flush5_3 t, ?_⟩
  rw [mem_blk5]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 64 ≤ (i 1).val ∧ (i 1).val < win5_3.index t (1 : Fin 2) * 64 + 64; omega

/-- The output array after the Pallas call. -/
theorem final5 (c : Dev nD) : (dat5 V c).arrAt 3 cfg5.N = G5 V c :=
  (dat5 V c).arrAt_eq_of_cover 3 (G5 V c) (fun t _ => flushed5_eq V c t) cover5

end Cert.KernelIdeal.HandV

end
-- ==== Proof.KISide.lean ====
/-
  The host-side pieces of the kernel's program, as functions of the argument arrays: one layer's neighbour
  aggregation h ↦ segment_sum((h * norm_s)[src], dst) * norm_d, the two degree norms (the scatter-add of ones over
  the edge ends, clipped below at one, to the power -1/2) computed from the edge arrays inside it, and the four
  layers' weight matrices and biases as slices of the stacked arguments — each the composition of the program's own
  host operations, with its own dimension records, never opened here.
-/
import proofs.«153677_j23742579212601_1_alg».proof.KernelIdeal
import proofs.«153677_j23742579212601_1_alg».proof.Proof.Spec

noncomputable section

namespace Cert.KSide

open Idealize.ShloMosaic Cert.KernelIdeal
open Cert.KernelIdeal.Facts₀

variable [Cert.KernelIdeal.Facts]

/-- The degree norm of the nodes from one end of the edges: the number of edges at each node (a scatter-add of
    ones into zeros), clipped below at one, to the power -1/2, as a column. -/
def norm (e : IVec S640000 32) : FVec Ideal S40000x1 .f32 :=
  broadcastInDim S40000x1 ![0] bcast_S40000_S40000x1_0
    (Host.powf (F := Ideal)
      (maximumf (F := Ideal)
        (broadcastInDim S40000 ![] bcast_S_S40000 (constant (F := Ideal) S_ .f32 0x3F800000#32))
        (Host.scatterAdd (F := Ideal) scatter_S40000_S640000x1_S640000_n_0_0_1
          (broadcastInDim S40000 ![] bcast_S_S40000 (constant (F := Ideal) S_ .f32 0x00000000#32))
          (broadcastInDim S640000x1 ![0] bcast_S640000_S640000x1_0 e)
          (broadcastInDim S640000 ![] bcast_S_S640000 (constant (F := Ideal) S_ .f32 0x3F800000#32))))
      (broadcastInDim S40000 ![] bcast_S_S40000 (constant (F := Ideal) S_ .f32 0xBF000000#32)))

/-- The gather's row indices: a negative index counted from the end (40000 added), as a column. -/
def fix (e : IVec S640000 32) : IVec S640000x1 32 :=
  broadcastInDim S640000x1 ![0] bcast_S640000_S640000x1_0
    (select (cmpi .slt e (broadcastInDim S640000 ![] bcast_S_S640000 (constantI S_ 32 0#32)))
      (addi e (broadcastInDim S640000 ![] bcast_S_S640000 (constantI S_ 32 40000#32)))
      e)

/-- One layer's neighbour aggregation with the two degree norms given: the rows of h * norm_s gathered at the edges'
    sources, scatter-added into zeros at the edges' destinations, times norm_d. -/
def Aof (ns nd : FVec Ideal S40000x1 .f32) (src dst : IVec S640000 32) (h : Cert.Gcn.Mat 40000 128) : Cert.Gcn.Mat 40000 128 :=
  mulf (F := Ideal) (s := S40000x128) (φ := .f32)
    (Host.scatterAdd (F := Ideal) scatter_S40000x128_S640000x1_S640000x128_1_0_0_1
      (broadcastInDim S40000x128 ![] bcast_S_S40000x128 (constant (F := Ideal) S_ .f32 0x00000000#32))
      (broadcastInDim S640000x1 ![0] bcast_S640000_S640000x1_0 dst)
      (Host.gather gather_S40000x128_S640000x1_S640000x128_1_0_n_n_0_1_1128
        (mulf (F := Ideal) (s := S40000x128) (φ := .f32) h
          (broadcastInDim S40000x128 ![0, 1] bcast_S40000x1_S40000x128_0_1 ns))
        (fix src)))
    (broadcastInDim S40000x128 ![0, 1] bcast_S40000x1_S40000x128_0_1 nd)

/-- One layer's neighbour aggregation, the degree norms computed from the edge arrays. -/
def A (src dst : IVec S640000 32) (h : Cert.Gcn.Mat 40000 128) : Cert.Gcn.Mat 40000 128 :=
  Aof (norm src) (norm dst) src dst h

/-- The four layers' first weight matrices: the slices of the stacked argument. -/
def s1 (W : FVec Ideal S4x128x128 .f32) : Fin 4 → Cert.Gcn.Mat 128 128 :=
  ![shapeCast S128x128 (extractStridedSlice S1x128x128 ![0, 0, 0] W slices_S4x128x128_S1x128x128_0_0_0) shapeCasts_S1x128x128_S128x128,
    shapeCast S128x128 (extractStridedSlice S1x128x128 ![1, 0, 0] W slices_S4x128x128_S1x128x128_1_0_0) shapeCasts_S1x128x128_S128x128,
    shapeCast S128x128 (extractStridedSlice S1x128x128 ![2, 0, 0] W slices_S4x128x128_S1x128x128_2_0_0) shapeCasts_S1x128x128_S128x128,
    shapeCast S128x128 (extractStridedSlice S1x128x128 ![3, 0, 0] W slices_S4x128x128_S1x128x128_3_0_0) shapeCasts_S1x128x128_S128x128]

/-- The four layers' second weight matrices: the same slices of the other stacked argument. -/
def s2 (W : FVec Ideal S4x128x128 .f32) : Fin 4 → Cert.Gcn.Mat 128 128 :=
  ![shapeCast S128x128 (extractStridedSlice S1x128x128 ![0, 0, 0] W slices_S4x128x128_S1x128x128_0_0_0) shapeCasts_S1x128x128_S128x128,
    shapeCast S128x128 (extractStridedSlice S1x128x128 ![1, 0, 0] W slices_S4x128x128_S1x128x128_1_0_0) shapeCasts_S1x128x128_S128x128,
    shapeCast S128x128 (extractStridedSlice S1x128x128 ![2, 0, 0] W slices_S4x128x128_S1x128x128_2_0_0) shapeCasts_S1x128x128_S128x128,
    shapeCast S128x128 (extractStridedSlice S1x128x128 ![3, 0, 0] W slices_S4x128x128_S1x128x128_3_0_0) shapeCasts_S1x128x128_S128x128]

/-- The four layers' biases: the rows of the stacked argument. -/
def sb (b : FVec Ideal S4x128 .f32) : Fin 4 → Cert.Gcn.Vc 128 :=
  ![shapeCast S128 (extractStridedSlice S1x128 ![0, 0] b slices_S4x128_S1x128_0_0) shapeCasts_S1x128_S128,
    shapeCast S128 (extractStridedSlice S1x128 ![1, 0] b slices_S4x128_S1x128_1_0) shapeCasts_S1x128_S128,
    shapeCast S128 (extractStridedSlice S1x128 ![2, 0] b slices_S4x128_S1x128_2_0) shapeCasts_S1x128_S128,
    shapeCast S128 (extractStridedSlice S1x128 ![3, 0] b slices_S4x128_S1x128_3_0) shapeCasts_S1x128_S128]

end Cert.KSide

end
-- ==== Proof.KIHost1.lean ====
/-
  The host stretch before Pallas call 1, read back over any contents of the buffers: the aggregated features (the rows of
  h * norm_s gathered at the edges' sources, scatter-added at their destinations, times norm_d) and the layer's weight
  matrices and bias (slices of the stacked arguments), each as the composition of the stretch's operations.
-/
import proofs.«153677_j23742579212601_1_alg».proof.Proof.Gen.KernelIdeal.Launch
import proofs.«153677_j23742579212601_1_alg».proof.Proof.KISide
import Idealize.ShloMosaic.Lib.StableHlo.Run

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.SL Idealize.SL.Sem

/-- The host stretch before Pallas call 1, read back over any contents: the aggregated features and the layer's
    weight matrices and bias. -/
theorem ho1_agg (W : Valuation τ sig (Elt Ideal)) : StableHlo.after hostOps1 W (Proc.devRef .tc main_v29)
    = Cert.KSide.Aof (W (Proc.devRef .tc main_v11)) (W (Proc.devRef .tc main_v14)) (W (Proc.devRef .tc main_arg8)) (W (Proc.devRef .tc main_arg9)) (W (Proc.devRef .tc main_v15)) := by
  after_results_simp; rfl
theorem ho1_s1 (W : Valuation τ sig (Elt Ideal)) : StableHlo.after hostOps1 W (Proc.devRef .tc main_v31) = Cert.KSide.s1 (W (Proc.devRef .tc main_arg3)) 0 := by
  after_results; rfl
theorem ho1_s2 (W : Valuation τ sig (Elt Ideal)) : StableHlo.after hostOps1 W (Proc.devRef .tc main_v33) = Cert.KSide.s2 (W (Proc.devRef .tc main_arg4)) 0 := by
  after_results; rfl
theorem ho1_sb (W : Valuation τ sig (Elt Ideal)) : StableHlo.after hostOps1 W (Proc.devRef .tc main_v35) = Cert.KSide.sb (W (Proc.devRef .tc main_arg5)) 0 := by
  after_results; rfl

end Cert.KernelIdeal.HandV

end
-- ==== Proof.KIHost2.lean ====
/-
  The host stretch before Pallas call 2, read back over any contents of the buffers: the aggregated features (the rows of
  h * norm_s gathered at the edges' sources, scatter-added at their destinations, times norm_d) and the layer's weight
  matrices and bias (slices of the stacked arguments), each as the composition of the stretch's operations.
-/
import proofs.«153677_j23742579212601_1_alg».proof.Proof.Gen.KernelIdeal.Launch
import proofs.«153677_j23742579212601_1_alg».proof.Proof.KISide
import Idealize.ShloMosaic.Lib.StableHlo.Run

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.SL Idealize.SL.Sem

/-- The host stretch before Pallas call 2, read back over any contents: the aggregated features and the layer's
    weight matrices and bias. -/
theorem ho2_agg (W : Valuation τ sig (Elt Ideal)) : StableHlo.after hostOps2 W (Proc.devRef .tc main_v50)
    = Cert.KSide.Aof (W (Proc.devRef .tc main_v11)) (W (Proc.devRef .tc main_v14)) (W (Proc.devRef .tc main_arg8)) (W (Proc.devRef .tc main_arg9)) (W (Proc.devRef .tc main_v36)) := by
  after_results_simp; rfl
theorem ho2_s1 (W : Valuation τ sig (Elt Ideal)) : StableHlo.after hostOps2 W (Proc.devRef .tc main_v52) = Cert.KSide.s1 (W (Proc.devRef .tc main_arg3)) 1 := by
  after_results; rfl
theorem ho2_s2 (W : Valuation τ sig (Elt Ideal)) : StableHlo.after hostOps2 W (Proc.devRef .tc main_v54) = Cert.KSide.s2 (W (Proc.devRef .tc main_arg4)) 1 := by
  after_results; rfl
theorem ho2_sb (W : Valuation τ sig (Elt Ideal)) : StableHlo.after hostOps2 W (Proc.devRef .tc main_v56) = Cert.KSide.sb (W (Proc.devRef .tc main_arg5)) 1 := by
  after_results; rfl

end Cert.KernelIdeal.HandV

end
-- ==== Proof.KIHost3.lean ====
/-
  The host stretch before Pallas call 3, read back over any contents of the buffers: the aggregated features (the rows of
  h * norm_s gathered at the edges' sources, scatter-added at their destinations, times norm_d) and the layer's weight
  matrices and bias (slices of the stacked arguments), each as the composition of the stretch's operations.
-/
import proofs.«153677_j23742579212601_1_alg».proof.Proof.Gen.KernelIdeal.Launch
import proofs.«153677_j23742579212601_1_alg».proof.Proof.KISide
import Idealize.ShloMosaic.Lib.StableHlo.Run

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.SL Idealize.SL.Sem

/-- The host stretch before Pallas call 3, read back over any contents: the aggregated features and the layer's
    weight matrices and bias. -/
theorem ho3_agg (W : Valuation τ sig (Elt Ideal)) : StableHlo.after hostOps3 W (Proc.devRef .tc main_v71)
    = Cert.KSide.Aof (W (Proc.devRef .tc main_v11)) (W (Proc.devRef .tc main_v14)) (W (Proc.devRef .tc main_arg8)) (W (Proc.devRef .tc main_arg9)) (W (Proc.devRef .tc main_v57)) := by
  after_results_simp; rfl
theorem ho3_s1 (W : Valuation τ sig (Elt Ideal)) : StableHlo.after hostOps3 W (Proc.devRef .tc main_v73) = Cert.KSide.s1 (W (Proc.devRef .tc main_arg3)) 2 := by
  after_results; rfl
theorem ho3_s2 (W : Valuation τ sig (Elt Ideal)) : StableHlo.after hostOps3 W (Proc.devRef .tc main_v75) = Cert.KSide.s2 (W (Proc.devRef .tc main_arg4)) 2 := by
  after_results; rfl
theorem ho3_sb (W : Valuation τ sig (Elt Ideal)) : StableHlo.after hostOps3 W (Proc.devRef .tc main_v77) = Cert.KSide.sb (W (Proc.devRef .tc main_arg5)) 2 := by
  after_results; rfl

end Cert.KernelIdeal.HandV

end
-- ==== Proof.KIHost4.lean ====
/-
  The host stretch before Pallas call 4, read back over any contents of the buffers: the aggregated features (the rows of
  h * norm_s gathered at the edges' sources, scatter-added at their destinations, times norm_d) and the layer's weight
  matrices and bias (slices of the stacked arguments), each as the composition of the stretch's operations.
-/
import proofs.«153677_j23742579212601_1_alg».proof.Proof.Gen.KernelIdeal.Launch
import proofs.«153677_j23742579212601_1_alg».proof.Proof.KISide
import Idealize.ShloMosaic.Lib.StableHlo.Run

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.SL Idealize.SL.Sem

/-- The host stretch before Pallas call 4, read back over any contents: the aggregated features and the layer's
    weight matrices and bias. -/
theorem ho4_agg (W : Valuation τ sig (Elt Ideal)) : StableHlo.after hostOps4 W (Proc.devRef .tc main_v92)
    = Cert.KSide.Aof (W (Proc.devRef .tc main_v11)) (W (Proc.devRef .tc main_v14)) (W (Proc.devRef .tc main_arg8)) (W (Proc.devRef .tc main_arg9)) (W (Proc.devRef .tc main_v78)) := by
  after_results_simp; rfl
theorem ho4_s1 (W : Valuation τ sig (Elt Ideal)) : StableHlo.after hostOps4 W (Proc.devRef .tc main_v94) = Cert.KSide.s1 (W (Proc.devRef .tc main_arg3)) 3 := by
  after_results; rfl
theorem ho4_s2 (W : Valuation τ sig (Elt Ideal)) : StableHlo.after hostOps4 W (Proc.devRef .tc main_v96) = Cert.KSide.s2 (W (Proc.devRef .tc main_arg4)) 3 := by
  after_results; rfl
theorem ho4_sb (W : Valuation τ sig (Elt Ideal)) : StableHlo.after hostOps4 W (Proc.devRef .tc main_v98) = Cert.KSide.sb (W (Proc.devRef .tc main_arg5)) 3 := by
  after_results; rfl

end Cert.KernelIdeal.HandV

end
-- ==== Proof.LibTypedRef.lean ====
/-
  A host operation inside a module-local function is stated at the tensor value's own type and
  carried to and from its buffer's type along the equation between the two.  When one operation's
  result is the next one's operand the two carriers meet, and they cancel: going to the buffer's type
  and back is the identity.  Rewriting with this fact clears a composed host term of every
  intermediate carrier, leaving only those at the program's arguments and at the final result,
  which are identities by computation.
-/
import Idealize.ShloMosaic.Lib.StableHlo

namespace Cert.LibTypedRef

open Idealize.ShloMosaic Idealize.ShloMosaic.StableHlo

/-- Contents carried to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTypedRef
-- ==== Proof.KINorm.lean ====
/-
  The two degree norms, read back off the first host stretches over any launch contents: the scatter-add of ones over
  the edges' ends, clipped below at one, to the power -1/2, as a column.
-/
import proofs.«153677_j23742579212601_1_alg».proof.Proof.Gen.KernelIdeal.Launch
import proofs.«153677_j23742579212601_1_alg».proof.Proof.KISide
import proofs.«153677_j23742579212601_1_alg».proof.Proof.LibTypedRef
import Idealize.ShloMosaic.Lib.StableHlo.Run

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.SL Idealize.SL.Sem

/-- The degree norms, read back over any launch contents. -/
theorem nrm11 (W : Valuation τ sig (Elt Ideal)) :
    StableHlo.after hostOps0_4 (StableHlo.after hostOps0_3 (StableHlo.after hostOps0_2 (StableHlo.after hostOps0_1 (StableHlo.after hostOps0 W)))) (Proc.devRef .tc main_v11)
      = Cert.KSide.norm (W (Proc.devRef .tc main_arg8)) := by
  after_results_simp; simp only [Cert.LibTypedRef.ofBuf_toBuf]; rfl
theorem nrm14 (W : Valuation τ sig (Elt Ideal)) :
    StableHlo.after hostOps0_4 (StableHlo.after hostOps0_3 (StableHlo.after hostOps0_2 (StableHlo.after hostOps0_1 (StableHlo.after hostOps0 W)))) (Proc.devRef .tc main_v14)
      = Cert.KSide.norm (W (Proc.devRef .tc main_arg9)) := by
  after_results_simp; simp only [Cert.LibTypedRef.ofBuf_toBuf]; rfl

end Cert.KernelIdeal.HandV

end
-- ==== Proof.KIChain.lean ====
/-
  The kernel program's result as the network of its arguments: the buffers' contents at each boundary of @main followed
  from the launch memory — the degree norms read back off the first host stretches, the first dense layer's output
  array, then for each graph-convolution layer the host stretch's aggregated features and weight slices read back over
  the contents the previous Pallas call left, the layer's output array, and last the final dense layer's.
-/
import proofs.«153677_j23742579212601_1_alg».proof.Proof.KIRun
import proofs.«153677_j23742579212601_1_alg».proof.Proof.KIFin0
import proofs.«153677_j23742579212601_1_alg».proof.Proof.KIFin1
import proofs.«153677_j23742579212601_1_alg».proof.Proof.KIFin2
import proofs.«153677_j23742579212601_1_alg».proof.Proof.KIFin3
import proofs.«153677_j23742579212601_1_alg».proof.Proof.KIFin4
import proofs.«153677_j23742579212601_1_alg».proof.Proof.KIFin5
import proofs.«153677_j23742579212601_1_alg».proof.Proof.KISide
import proofs.«153677_j23742579212601_1_alg».proof.Proof.KIHost1
import proofs.«153677_j23742579212601_1_alg».proof.Proof.KIHost2
import proofs.«153677_j23742579212601_1_alg».proof.Proof.KIHost3
import proofs.«153677_j23742579212601_1_alg».proof.Proof.KIHost4
import proofs.«153677_j23742579212601_1_alg».proof.Proof.KINorm

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-- The features after the first dense layer, and after each graph-convolution layer. -/
abbrev HV0 : Cert.Gcn.Mat 40000 128 := Cert.Gcn.ofEntries (Cert.Gcn.fc1 (m ((c : Thread nD τ).loc main_arg0)) (m ((c : Thread nD τ).loc main_arg1)) (m ((c : Thread nD τ).loc main_arg2)))
abbrev HV1 : Cert.Gcn.Mat 40000 128 := Cert.Gcn.ofEntries (Cert.Gcn.comb (Cert.Gcn.c1w 0) (Cert.Gcn.c2w 0)
    (Cert.KSide.A (m ((c : Thread nD τ).loc main_arg8)) (m ((c : Thread nD τ).loc main_arg9)) (HV0 m c)) (HV0 m c) (HV0 m c)
    (Cert.KSide.s1 (m ((c : Thread nD τ).loc main_arg3)) 0) (Cert.KSide.s2 (m ((c : Thread nD τ).loc main_arg4)) 0) (Cert.KSide.sb (m ((c : Thread nD τ).loc main_arg5)) 0))
abbrev HV2 : Cert.Gcn.Mat 40000 128 := Cert.Gcn.ofEntries (Cert.Gcn.comb (Cert.Gcn.c1w 1) (Cert.Gcn.c2w 1)
    (Cert.KSide.A (m ((c : Thread nD τ).loc main_arg8)) (m ((c : Thread nD τ).loc main_arg9)) (HV1 m c)) (HV0 m c) (HV1 m c)
    (Cert.KSide.s1 (m ((c : Thread nD τ).loc main_arg3)) 1) (Cert.KSide.s2 (m ((c : Thread nD τ).loc main_arg4)) 1) (Cert.KSide.sb (m ((c : Thread nD τ).loc main_arg5)) 1))
abbrev HV3 : Cert.Gcn.Mat 40000 128 := Cert.Gcn.ofEntries (Cert.Gcn.comb (Cert.Gcn.c1w 2) (Cert.Gcn.c2w 2)
    (Cert.KSide.A (m ((c : Thread nD τ).loc main_arg8)) (m ((c : Thread nD τ).loc main_arg9)) (HV2 m c)) (HV0 m c) (HV2 m c)
    (Cert.KSide.s1 (m ((c : Thread nD τ).loc main_arg3)) 2) (Cert.KSide.s2 (m ((c : Thread nD τ).loc main_arg4)) 2) (Cert.KSide.sb (m ((c : Thread nD τ).loc main_arg5)) 2))
abbrev HV4 : Cert.Gcn.Mat 40000 128 := Cert.Gcn.ofEntries (Cert.Gcn.comb (Cert.Gcn.c1w 3) (Cert.Gcn.c2w 3)
    (Cert.KSide.A (m ((c : Thread nD τ).loc main_arg8)) (m ((c : Thread nD τ).loc main_arg9)) (HV3 m c)) (HV0 m c) (HV3 m c)
    (Cert.KSide.s1 (m ((c : Thread nD τ).loc main_arg3)) 3) (Cert.KSide.s2 (m ((c : Thread nD τ).loc main_arg4)) 3) (Cert.KSide.sb (m ((c : Thread nD τ).loc main_arg5)) 3))

/-! ### What the tracked buffers hold at each region exit -/
theorem at5_main_arg0 : W5 m c (Proc.devRef .tc main_arg0) = (m ((c : Thread nD τ).loc main_arg0)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem at5_main_arg1 : W5 m c (Proc.devRef .tc main_arg1) = (m ((c : Thread nD τ).loc main_arg1)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem at5_main_arg2 : W5 m c (Proc.devRef .tc main_arg2) = (m ((c : Thread nD τ).loc main_arg2)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem at5_main_arg3 : W5 m c (Proc.devRef .tc main_arg3) = (m ((c : Thread nD τ).loc main_arg3)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem at5_main_arg4 : W5 m c (Proc.devRef .tc main_arg4) = (m ((c : Thread nD τ).loc main_arg4)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem at5_main_arg5 : W5 m c (Proc.devRef .tc main_arg5) = (m ((c : Thread nD τ).loc main_arg5)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem at5_main_arg6 : W5 m c (Proc.devRef .tc main_arg6) = (m ((c : Thread nD τ).loc main_arg6)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem at5_main_arg7 : W5 m c (Proc.devRef .tc main_arg7) = (m ((c : Thread nD τ).loc main_arg7)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem at5_main_arg8 : W5 m c (Proc.devRef .tc main_arg8) = (m ((c : Thread nD τ).loc main_arg8)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem at5_main_arg9 : W5 m c (Proc.devRef .tc main_arg9) = (m ((c : Thread nD τ).loc main_arg9)) :=
  (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans <| rfl
theorem keep6_main_arg3 : W6 m c (Proc.devRef .tc main_arg3) = (m ((c : Thread nD τ).loc main_arg3)) := (W6_of_ne m c main_arg3 (by decide)).trans (at5_main_arg3 m c)
theorem keep6_main_arg4 : W6 m c (Proc.devRef .tc main_arg4) = (m ((c : Thread nD τ).loc main_arg4)) := (W6_of_ne m c main_arg4 (by decide)).trans (at5_main_arg4 m c)
theorem keep6_main_arg5 : W6 m c (Proc.devRef .tc main_arg5) = (m ((c : Thread nD τ).loc main_arg5)) := (W6_of_ne m c main_arg5 (by decide)).trans (at5_main_arg5 m c)
theorem keep6_main_arg6 : W6 m c (Proc.devRef .tc main_arg6) = (m ((c : Thread nD τ).loc main_arg6)) := (W6_of_ne m c main_arg6 (by decide)).trans (at5_main_arg6 m c)
theorem keep6_main_arg7 : W6 m c (Proc.devRef .tc main_arg7) = (m ((c : Thread nD τ).loc main_arg7)) := (W6_of_ne m c main_arg7 (by decide)).trans (at5_main_arg7 m c)
theorem keep6_main_arg8 : W6 m c (Proc.devRef .tc main_arg8) = (m ((c : Thread nD τ).loc main_arg8)) := (W6_of_ne m c main_arg8 (by decide)).trans (at5_main_arg8 m c)
theorem keep6_main_arg9 : W6 m c (Proc.devRef .tc main_arg9) = (m ((c : Thread nD τ).loc main_arg9)) := (W6_of_ne m c main_arg9 (by decide)).trans (at5_main_arg9 m c)
theorem keep6_main_v11 : W6 m c (Proc.devRef .tc main_v11) = Cert.KSide.norm (m ((c : Thread nD τ).loc main_arg8)) := (W6_of_ne m c main_v11 (by decide)).trans (nrm11 (W0 m c))
theorem keep6_main_v14 : W6 m c (Proc.devRef .tc main_v14) = Cert.KSide.norm (m ((c : Thread nD τ).loc main_arg9)) := (W6_of_ne m c main_v14 (by decide)).trans (nrm14 (W0 m c))
theorem keep6_main_v15 : W6 m c (Proc.devRef .tc main_v15) = HV0 m c := by
  refine (W6_arr m c 3).trans ((final0 (U5 m) c).trans ?_)
  show Cert.Gcn.ofEntries (Cert.Gcn.fc1 (W5 m c (Proc.devRef .tc main_arg0)) (W5 m c (Proc.devRef .tc main_arg1)) (W5 m c (Proc.devRef .tc main_arg2))) = _
  rw [at5_main_arg0, at5_main_arg1, at5_main_arg2]
theorem keep8_main_arg3 : W8 m c (Proc.devRef .tc main_arg3) = (m ((c : Thread nD τ).loc main_arg3)) :=
  (W8_of_ne m c main_arg3 (by decide)).trans ((StableHlo.after_of_writes_sub hostOps1 _ hostOps1_writes (by decide)).trans (keep6_main_arg3 m c))
theorem keep8_main_arg4 : W8 m c (Proc.devRef .tc main_arg4) = (m ((c : Thread nD τ).loc main_arg4)) :=
  (W8_of_ne m c main_arg4 (by decide)).trans ((StableHlo.after_of_writes_sub hostOps1 _ hostOps1_writes (by decide)).trans (keep6_main_arg4 m c))
theorem keep8_main_arg5 : W8 m c (Proc.devRef .tc main_arg5) = (m ((c : Thread nD τ).loc main_arg5)) :=
  (W8_of_ne m c main_arg5 (by decide)).trans ((StableHlo.after_of_writes_sub hostOps1 _ hostOps1_writes (by decide)).trans (keep6_main_arg5 m c))
theorem keep8_main_arg6 : W8 m c (Proc.devRef .tc main_arg6) = (m ((c : Thread nD τ).loc main_arg6)) :=
  (W8_of_ne m c main_arg6 (by decide)).trans ((StableHlo.after_of_writes_sub hostOps1 _ hostOps1_writes (by decide)).trans (keep6_main_arg6 m c))
theorem keep8_main_arg7 : W8 m c (Proc.devRef .tc main_arg7) = (m ((c : Thread nD τ).loc main_arg7)) :=
  (W8_of_ne m c main_arg7 (by decide)).trans ((StableHlo.after_of_writes_sub hostOps1 _ hostOps1_writes (by decide)).trans (keep6_main_arg7 m c))
theorem keep8_main_arg8 : W8 m c (Proc.devRef .tc main_arg8) = (m ((c : Thread nD τ).loc main_arg8)) :=
  (W8_of_ne m c main_arg8 (by decide)).trans ((StableHlo.after_of_writes_sub hostOps1 _ hostOps1_writes (by decide)).trans (keep6_main_arg8 m c))
theorem keep8_main_arg9 : W8 m c (Proc.devRef .tc main_arg9) = (m ((c : Thread nD τ).loc main_arg9)) :=
  (W8_of_ne m c main_arg9 (by decide)).trans ((StableHlo.after_of_writes_sub hostOps1 _ hostOps1_writes (by decide)).trans (keep6_main_arg9 m c))
theorem keep8_main_v11 : W8 m c (Proc.devRef .tc main_v11) = Cert.KSide.norm (m ((c : Thread nD τ).loc main_arg8)) :=
  (W8_of_ne m c main_v11 (by decide)).trans ((StableHlo.after_of_writes_sub hostOps1 _ hostOps1_writes (by decide)).trans (keep6_main_v11 m c))
theorem keep8_main_v14 : W8 m c (Proc.devRef .tc main_v14) = Cert.KSide.norm (m ((c : Thread nD τ).loc main_arg9)) :=
  (W8_of_ne m c main_v14 (by decide)).trans ((StableHlo.after_of_writes_sub hostOps1 _ hostOps1_writes (by decide)).trans (keep6_main_v14 m c))
theorem keep8_main_v15 : W8 m c (Proc.devRef .tc main_v15) = HV0 m c :=
  (W8_of_ne m c main_v15 (by decide)).trans ((StableHlo.after_of_writes_sub hostOps1 _ hostOps1_writes (by decide)).trans (keep6_main_v15 m c))

/-- The features after graph-convolution layer 0. -/
theorem out1 : W8 m c (Proc.devRef .tc main_v36) = HV1 m c := by
  refine (W8_out m c).trans ((final1 (U7 m) c).trans ?_)
  have e_agg : W7 m c (Proc.devRef .tc main_v29) = Cert.KSide.A (m ((c : Thread nD τ).loc main_arg8)) (m ((c : Thread nD τ).loc main_arg9)) (HV0 m c) := by
    refine (ho1_agg (W6 m c)).trans ?_
    rw [keep6_main_v11, keep6_main_v14, keep6_main_arg8, keep6_main_arg9, keep6_main_v15]
    rfl
  have e_h0 : W7 m c (Proc.devRef .tc main_v15) = HV0 m c :=
    (StableHlo.after_of_writes_sub hostOps1 _ hostOps1_writes (by decide)).trans (keep6_main_v15 m c)
  have e_h : W7 m c (Proc.devRef .tc main_v15) = HV0 m c :=
    (StableHlo.after_of_writes_sub hostOps1 _ hostOps1_writes (by decide)).trans (keep6_main_v15 m c)
  have e_s1 : W7 m c (Proc.devRef .tc main_v31) = Cert.KSide.s1 (m ((c : Thread nD τ).loc main_arg3)) 0 := (ho1_s1 (W6 m c)).trans (by rw [keep6_main_arg3])
  have e_s2 : W7 m c (Proc.devRef .tc main_v33) = Cert.KSide.s2 (m ((c : Thread nD τ).loc main_arg4)) 0 := (ho1_s2 (W6 m c)).trans (by rw [keep6_main_arg4])
  have e_sb : W7 m c (Proc.devRef .tc main_v35) = Cert.KSide.sb (m ((c : Thread nD τ).loc main_arg5)) 0 := (ho1_sb (W6 m c)).trans (by rw [keep6_main_arg5])
  show Cert.Gcn.ofEntries (Cert.Gcn.comb _ _ (W7 m c (Proc.devRef .tc main_v29)) (W7 m c (Proc.devRef .tc main_v15)) (W7 m c (Proc.devRef .tc main_v15))
    (W7 m c (Proc.devRef .tc main_v31)) (W7 m c (Proc.devRef .tc main_v33)) (W7 m c (Proc.devRef .tc main_v35))) = _
  rw [e_agg, e_h0, e_s1, e_s2, e_sb]
theorem keep10_main_arg3 : W10 m c (Proc.devRef .tc main_arg3) = (m ((c : Thread nD τ).loc main_arg3)) :=
  (W10_of_ne m c main_arg3 (by decide)).trans ((StableHlo.after_of_writes_sub hostOps2 _ hostOps2_writes (by decide)).trans (keep8_main_arg3 m c))
theorem keep10_main_arg4 : W10 m c (Proc.devRef .tc main_arg4) = (m ((c : Thread nD τ).loc main_arg4)) :=
  (W10_of_ne m c main_arg4 (by decide)).trans ((StableHlo.after_of_writes_sub hostOps2 _ hostOps2_writes (by decide)).trans (keep8_main_arg4 m c))
theorem keep10_main_arg5 : W10 m c (Proc.devRef .tc main_arg5) = (m ((c : Thread nD τ).loc main_arg5)) :=
  (W10_of_ne m c main_arg5 (by decide)).trans ((StableHlo.after_of_writes_sub hostOps2 _ hostOps2_writes (by decide)).trans (keep8_main_arg5 m c))
theorem keep10_main_arg6 : W10 m c (Proc.devRef .tc main_arg6) = (m ((c : Thread nD τ).loc main_arg6)) :=
  (W10_of_ne m c main_arg6 (by decide)).trans ((StableHlo.after_of_writes_sub hostOps2 _ hostOps2_writes (by decide)).trans (keep8_main_arg6 m c))
theorem keep10_main_arg7 : W10 m c (Proc.devRef .tc main_arg7) = (m ((c : Thread nD τ).loc main_arg7)) :=
  (W10_of_ne m c main_arg7 (by decide)).trans ((StableHlo.after_of_writes_sub hostOps2 _ hostOps2_writes (by decide)).trans (keep8_main_arg7 m c))
theorem keep10_main_arg8 : W10 m c (Proc.devRef .tc main_arg8) = (m ((c : Thread nD τ).loc main_arg8)) :=
  (W10_of_ne m c main_arg8 (by decide)).trans ((StableHlo.after_of_writes_sub hostOps2 _ hostOps2_writes (by decide)).trans (keep8_main_arg8 m c))
theorem keep10_main_arg9 : W10 m c (Proc.devRef .tc main_arg9) = (m ((c : Thread nD τ).loc main_arg9)) :=
  (W10_of_ne m c main_arg9 (by decide)).trans ((StableHlo.after_of_writes_sub hostOps2 _ hostOps2_writes (by decide)).trans (keep8_main_arg9 m c))
theorem keep10_main_v11 : W10 m c (Proc.devRef .tc main_v11) = Cert.KSide.norm (m ((c : Thread nD τ).loc main_arg8)) :=
  (W10_of_ne m c main_v11 (by decide)).trans ((StableHlo.after_of_writes_sub hostOps2 _ hostOps2_writes (by decide)).trans (keep8_main_v11 m c))
theorem keep10_main_v14 : W10 m c (Proc.devRef .tc main_v14) = Cert.KSide.norm (m ((c : Thread nD τ).loc main_arg9)) :=
  (W10_of_ne m c main_v14 (by decide)).trans ((StableHlo.after_of_writes_sub hostOps2 _ hostOps2_writes (by decide)).trans (keep8_main_v14 m c))
theorem keep10_main_v15 : W10 m c (Proc.devRef .tc main_v15) = HV0 m c :=
  (W10_arr m c 1).trans (((dat2 (U9 m) c).arrAt_in 1 rfl _).trans ((A_eq2 (U9 m) c 1).trans ((StableHlo.after_of_writes_sub hostOps2 _ hostOps2_writes (by decide)).trans (keep8_main_v15 m c))))

/-- The features after graph-convolution layer 1. -/
theorem out2 : W10 m c (Proc.devRef .tc main_v57) = HV2 m c := by
  refine (W10_arr m c 6).trans ((final2 (U9 m) c).trans ?_)
  have e_agg : W9 m c (Proc.devRef .tc main_v50) = Cert.KSide.A (m ((c : Thread nD τ).loc main_arg8)) (m ((c : Thread nD τ).loc main_arg9)) (HV1 m c) := by
    refine (ho2_agg (W8 m c)).trans ?_
    rw [keep8_main_v11, keep8_main_v14, keep8_main_arg8, keep8_main_arg9, out1]
    rfl
  have e_h0 : W9 m c (Proc.devRef .tc main_v15) = HV0 m c :=
    (StableHlo.after_of_writes_sub hostOps2 _ hostOps2_writes (by decide)).trans (keep8_main_v15 m c)
  have e_h : W9 m c (Proc.devRef .tc main_v36) = HV1 m c :=
    (StableHlo.after_of_writes_sub hostOps2 _ hostOps2_writes (by decide)).trans (out1 m c)
  have e_s1 : W9 m c (Proc.devRef .tc main_v52) = Cert.KSide.s1 (m ((c : Thread nD τ).loc main_arg3)) 1 := (ho2_s1 (W8 m c)).trans (by rw [keep8_main_arg3])
  have e_s2 : W9 m c (Proc.devRef .tc main_v54) = Cert.KSide.s2 (m ((c : Thread nD τ).loc main_arg4)) 1 := (ho2_s2 (W8 m c)).trans (by rw [keep8_main_arg4])
  have e_sb : W9 m c (Proc.devRef .tc main_v56) = Cert.KSide.sb (m ((c : Thread nD τ).loc main_arg5)) 1 := (ho2_sb (W8 m c)).trans (by rw [keep8_main_arg5])
  show Cert.Gcn.ofEntries (Cert.Gcn.comb _ _ (W9 m c (Proc.devRef .tc main_v50)) (W9 m c (Proc.devRef .tc main_v15)) (W9 m c (Proc.devRef .tc main_v36))
    (W9 m c (Proc.devRef .tc main_v52)) (W9 m c (Proc.devRef .tc main_v54)) (W9 m c (Proc.devRef .tc main_v56))) = _
  rw [e_agg, e_h0, e_h, e_s1, e_s2, e_sb]
theorem keep12_main_arg3 : W12 m c (Proc.devRef .tc main_arg3) = (m ((c : Thread nD τ).loc main_arg3)) :=
  (W12_of_ne m c main_arg3 (by decide)).trans ((StableHlo.after_of_writes_sub hostOps3 _ hostOps3_writes (by decide)).trans (keep10_main_arg3 m c))
theorem keep12_main_arg4 : W12 m c (Proc.devRef .tc main_arg4) = (m ((c : Thread nD τ).loc main_arg4)) :=
  (W12_of_ne m c main_arg4 (by decide)).trans ((StableHlo.after_of_writes_sub hostOps3 _ hostOps3_writes (by decide)).trans (keep10_main_arg4 m c))
theorem keep12_main_arg5 : W12 m c (Proc.devRef .tc main_arg5) = (m ((c : Thread nD τ).loc main_arg5)) :=
  (W12_of_ne m c main_arg5 (by decide)).trans ((StableHlo.after_of_writes_sub hostOps3 _ hostOps3_writes (by decide)).trans (keep10_main_arg5 m c))
theorem keep12_main_arg6 : W12 m c (Proc.devRef .tc main_arg6) = (m ((c : Thread nD τ).loc main_arg6)) :=
  (W12_of_ne m c main_arg6 (by decide)).trans ((StableHlo.after_of_writes_sub hostOps3 _ hostOps3_writes (by decide)).trans (keep10_main_arg6 m c))
theorem keep12_main_arg7 : W12 m c (Proc.devRef .tc main_arg7) = (m ((c : Thread nD τ).loc main_arg7)) :=
  (W12_of_ne m c main_arg7 (by decide)).trans ((StableHlo.after_of_writes_sub hostOps3 _ hostOps3_writes (by decide)).trans (keep10_main_arg7 m c))
theorem keep12_main_arg8 : W12 m c (Proc.devRef .tc main_arg8) = (m ((c : Thread nD τ).loc main_arg8)) :=
  (W12_of_ne m c main_arg8 (by decide)).trans ((StableHlo.after_of_writes_sub hostOps3 _ hostOps3_writes (by decide)).trans (keep10_main_arg8 m c))
theorem keep12_main_arg9 : W12 m c (Proc.devRef .tc main_arg9) = (m ((c : Thread nD τ).loc main_arg9)) :=
  (W12_of_ne m c main_arg9 (by decide)).trans ((StableHlo.after_of_writes_sub hostOps3 _ hostOps3_writes (by decide)).trans (keep10_main_arg9 m c))
theorem keep12_main_v11 : W12 m c (Proc.devRef .tc main_v11) = Cert.KSide.norm (m ((c : Thread nD τ).loc main_arg8)) :=
  (W12_of_ne m c main_v11 (by decide)).trans ((StableHlo.after_of_writes_sub hostOps3 _ hostOps3_writes (by decide)).trans (keep10_main_v11 m c))
theorem keep12_main_v14 : W12 m c (Proc.devRef .tc main_v14) = Cert.KSide.norm (m ((c : Thread nD τ).loc main_arg9)) :=
  (W12_of_ne m c main_v14 (by decide)).trans ((StableHlo.after_of_writes_sub hostOps3 _ hostOps3_writes (by decide)).trans (keep10_main_v14 m c))
theorem keep12_main_v15 : W12 m c (Proc.devRef .tc main_v15) = HV0 m c :=
  (W12_arr m c 1).trans (((dat3 (U11 m) c).arrAt_in 1 rfl _).trans ((A_eq3 (U11 m) c 1).trans ((StableHlo.after_of_writes_sub hostOps3 _ hostOps3_writes (by decide)).trans (keep10_main_v15 m c))))

/-- The features after graph-convolution layer 2. -/
theorem out3 : W12 m c (Proc.devRef .tc main_v78) = HV3 m c := by
  refine (W12_arr m c 6).trans ((final3 (U11 m) c).trans ?_)
  have e_agg : W11 m c (Proc.devRef .tc main_v71) = Cert.KSide.A (m ((c : Thread nD τ).loc main_arg8)) (m ((c : Thread nD τ).loc main_arg9)) (HV2 m c) := by
    refine (ho3_agg (W10 m c)).trans ?_
    rw [keep10_main_v11, keep10_main_v14, keep10_main_arg8, keep10_main_arg9, out2]
    rfl
  have e_h0 : W11 m c (Proc.devRef .tc main_v15) = HV0 m c :=
    (StableHlo.after_of_writes_sub hostOps3 _ hostOps3_writes (by decide)).trans (keep10_main_v15 m c)
  have e_h : W11 m c (Proc.devRef .tc main_v57) = HV2 m c :=
    (StableHlo.after_of_writes_sub hostOps3 _ hostOps3_writes (by decide)).trans (out2 m c)
  have e_s1 : W11 m c (Proc.devRef .tc main_v73) = Cert.KSide.s1 (m ((c : Thread nD τ).loc main_arg3)) 2 := (ho3_s1 (W10 m c)).trans (by rw [keep10_main_arg3])
  have e_s2 : W11 m c (Proc.devRef .tc main_v75) = Cert.KSide.s2 (m ((c : Thread nD τ).loc main_arg4)) 2 := (ho3_s2 (W10 m c)).trans (by rw [keep10_main_arg4])
  have e_sb : W11 m c (Proc.devRef .tc main_v77) = Cert.KSide.sb (m ((c : Thread nD τ).loc main_arg5)) 2 := (ho3_sb (W10 m c)).trans (by rw [keep10_main_arg5])
  show Cert.Gcn.ofEntries (Cert.Gcn.comb _ _ (W11 m c (Proc.devRef .tc main_v71)) (W11 m c (Proc.devRef .tc main_v15)) (W11 m c (Proc.devRef .tc main_v57))
    (W11 m c (Proc.devRef .tc main_v73)) (W11 m c (Proc.devRef .tc main_v75)) (W11 m c (Proc.devRef .tc main_v77))) = _
  rw [e_agg, e_h0, e_h, e_s1, e_s2, e_sb]
theorem keep14_main_arg3 : W14 m c (Proc.devRef .tc main_arg3) = (m ((c : Thread nD τ).loc main_arg3)) :=
  (W14_of_ne m c main_arg3 (by decide)).trans ((StableHlo.after_of_writes_sub hostOps4 _ hostOps4_writes (by decide)).trans (keep12_main_arg3 m c))
theorem keep14_main_arg4 : W14 m c (Proc.devRef .tc main_arg4) = (m ((c : Thread nD τ).loc main_arg4)) :=
  (W14_of_ne m c main_arg4 (by decide)).trans ((StableHlo.after_of_writes_sub hostOps4 _ hostOps4_writes (by decide)).trans (keep12_main_arg4 m c))
theorem keep14_main_arg5 : W14 m c (Proc.devRef .tc main_arg5) = (m ((c : Thread nD τ).loc main_arg5)) :=
  (W14_of_ne m c main_arg5 (by decide)).trans ((StableHlo.after_of_writes_sub hostOps4 _ hostOps4_writes (by decide)).trans (keep12_main_arg5 m c))
theorem keep14_main_arg6 : W14 m c (Proc.devRef .tc main_arg6) = (m ((c : Thread nD τ).loc main_arg6)) :=
  (W14_of_ne m c main_arg6 (by decide)).trans ((StableHlo.after_of_writes_sub hostOps4 _ hostOps4_writes (by decide)).trans (keep12_main_arg6 m c))
theorem keep14_main_arg7 : W14 m c (Proc.devRef .tc main_arg7) = (m ((c : Thread nD τ).loc main_arg7)) :=
  (W14_of_ne m c main_arg7 (by decide)).trans ((StableHlo.after_of_writes_sub hostOps4 _ hostOps4_writes (by decide)).trans (keep12_main_arg7 m c))
theorem keep14_main_arg8 : W14 m c (Proc.devRef .tc main_arg8) = (m ((c : Thread nD τ).loc main_arg8)) :=
  (W14_of_ne m c main_arg8 (by decide)).trans ((StableHlo.after_of_writes_sub hostOps4 _ hostOps4_writes (by decide)).trans (keep12_main_arg8 m c))
theorem keep14_main_arg9 : W14 m c (Proc.devRef .tc main_arg9) = (m ((c : Thread nD τ).loc main_arg9)) :=
  (W14_of_ne m c main_arg9 (by decide)).trans ((StableHlo.after_of_writes_sub hostOps4 _ hostOps4_writes (by decide)).trans (keep12_main_arg9 m c))
theorem keep14_main_v11 : W14 m c (Proc.devRef .tc main_v11) = Cert.KSide.norm (m ((c : Thread nD τ).loc main_arg8)) :=
  (W14_of_ne m c main_v11 (by decide)).trans ((StableHlo.after_of_writes_sub hostOps4 _ hostOps4_writes (by decide)).trans (keep12_main_v11 m c))
theorem keep14_main_v14 : W14 m c (Proc.devRef .tc main_v14) = Cert.KSide.norm (m ((c : Thread nD τ).loc main_arg9)) :=
  (W14_of_ne m c main_v14 (by decide)).trans ((StableHlo.after_of_writes_sub hostOps4 _ hostOps4_writes (by decide)).trans (keep12_main_v14 m c))
theorem keep14_main_v15 : W14 m c (Proc.devRef .tc main_v15) = HV0 m c :=
  (W14_arr m c 1).trans (((dat4 (U13 m) c).arrAt_in 1 rfl _).trans ((A_eq4 (U13 m) c 1).trans ((StableHlo.after_of_writes_sub hostOps4 _ hostOps4_writes (by decide)).trans (keep12_main_v15 m c))))

/-- The features after graph-convolution layer 3. -/
theorem out4 : W14 m c (Proc.devRef .tc main_v99) = HV4 m c := by
  refine (W14_arr m c 6).trans ((final4 (U13 m) c).trans ?_)
  have e_agg : W13 m c (Proc.devRef .tc main_v92) = Cert.KSide.A (m ((c : Thread nD τ).loc main_arg8)) (m ((c : Thread nD τ).loc main_arg9)) (HV3 m c) := by
    refine (ho4_agg (W12 m c)).trans ?_
    rw [keep12_main_v11, keep12_main_v14, keep12_main_arg8, keep12_main_arg9, out3]
    rfl
  have e_h0 : W13 m c (Proc.devRef .tc main_v15) = HV0 m c :=
    (StableHlo.after_of_writes_sub hostOps4 _ hostOps4_writes (by decide)).trans (keep12_main_v15 m c)
  have e_h : W13 m c (Proc.devRef .tc main_v78) = HV3 m c :=
    (StableHlo.after_of_writes_sub hostOps4 _ hostOps4_writes (by decide)).trans (out3 m c)
  have e_s1 : W13 m c (Proc.devRef .tc main_v94) = Cert.KSide.s1 (m ((c : Thread nD τ).loc main_arg3)) 3 := (ho4_s1 (W12 m c)).trans (by rw [keep12_main_arg3])
  have e_s2 : W13 m c (Proc.devRef .tc main_v96) = Cert.KSide.s2 (m ((c : Thread nD τ).loc main_arg4)) 3 := (ho4_s2 (W12 m c)).trans (by rw [keep12_main_arg4])
  have e_sb : W13 m c (Proc.devRef .tc main_v98) = Cert.KSide.sb (m ((c : Thread nD τ).loc main_arg5)) 3 := (ho4_sb (W12 m c)).trans (by rw [keep12_main_arg5])
  show Cert.Gcn.ofEntries (Cert.Gcn.comb _ _ (W13 m c (Proc.devRef .tc main_v92)) (W13 m c (Proc.devRef .tc main_v15)) (W13 m c (Proc.devRef .tc main_v78))
    (W13 m c (Proc.devRef .tc main_v94)) (W13 m c (Proc.devRef .tc main_v96)) (W13 m c (Proc.devRef .tc main_v98))) = _
  rw [e_agg, e_h0, e_h, e_s1, e_s2, e_sb]

/-- THE RESULT ARRAY after the run: the network of the argument arrays. -/
theorem result_eq : W15 m c (Proc.devRef .tc main_v100) = Cert.Gcn.net (Cert.KSide.A (m ((c : Thread nD τ).loc main_arg8)) (m ((c : Thread nD τ).loc main_arg9))) (Cert.KSide.s1 (m ((c : Thread nD τ).loc main_arg3))) (Cert.KSide.s2 (m ((c : Thread nD τ).loc main_arg4)))
    (Cert.KSide.sb (m ((c : Thread nD τ).loc main_arg5))) (m ((c : Thread nD τ).loc main_arg0)) (m ((c : Thread nD τ).loc main_arg1)) (m ((c : Thread nD τ).loc main_arg2)) (m ((c : Thread nD τ).loc main_arg6)) (m ((c : Thread nD τ).loc main_arg7)) := by
  refine (W15_arr m c 3).trans ((final5 (U14 m) c).trans ?_)
  show Cert.Gcn.ofEntries (Cert.Gcn.fc2 (W14 m c (Proc.devRef .tc main_v99)) (W14 m c (Proc.devRef .tc main_arg6)) (W14 m c (Proc.devRef .tc main_arg7))) = _
  rw [out4, keep14_main_arg6, keep14_main_arg7]
  rfl

end Cert.KernelIdeal.HandV

end
-- ==== Proof.KBReg0.lean ====
/-
  Pallas call 0 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.Kernel.Launch
import proofs.«153677_j23742579212601_1_alg».proof.Proof.Gen.Kernel.Skeleton
import proofs.«153677_j23742579212601_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S4000x256 := Rect.unit (s := S4000x256) ![0, 0] S4000x256.size inb_S4000x256_S4000x256_0_0
abbrev r0_1 : Rect S256x128 := Rect.unit (s := S256x128) ![0, 0] S256x128.size inb_S256x128_S256x128_0_0
abbrev r0_2 : Rect S128 := Rect.unit (s := S128) ![0] S128.size inb_S128_S128_0
abbrev r0_3 : Rect S4000x128 := Rect.unit (s := S4000x128) ![0, 0] S4000x128.size inb_S4000x128_S4000x128_0_0

/-- The output window's staging buffer after the body: its one store, of the body's value of the loaded blocks. -/
def out0_3 (x0 : Vec F S4000x256 .f32) (x1 : Vec F S256x128 .f32) (x2 : Vec F S128 .f32) : Vec F S4000x128 .f32 :=
  View.canon [⟨r0_3, k0_pay1 (View.ld x0 r0_0) (View.ld x1 r0_1) (View.ld x2 r0_2)⟩]

/-- The store covers the buffer. -/
theorem cover0_3 (p0 : Vec F S4000x128 .f32) (y : S4000x128.Idx) :
    ∃ pc ∈ ([⟨r0_3, p0⟩] : List (View.Piece (Elt F) S4000x128 .f32)), y ∈ pc.1.set :=
  View.cover_of_tiled [⟨r0_3, p0⟩] S4000x128.size (by rfl) y

set_option maxHeartbeats 1000000 in
/-- The kernel body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S4000x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S4000x128 .f32) (harg4 : arg4.IsWhole)
    (x0 : Vec F S4000x256 .f32) (x1 : Vec F S256x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc1_kernel i arg1 harg1 arg2 harg2 arg3 harg3 arg4 harg4) K := by
  simp only [cc0__fc1_kernel_eq_skeleton]; unfold cc0__fc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at the body's value of the input blocks; the scoped rest and the
    generator register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KBReg2.lean ====
/-
  Pallas call 2 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.Kernel.Launch
import proofs.«153677_j23742579212601_1_alg».proof.Proof.Gen.Kernel.Skeleton
import proofs.«153677_j23742579212601_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S4000x128 := Rect.unit (s := S4000x128) ![0, 0] S4000x128.size inb_S4000x128_S4000x128_0_0
abbrev r2_1 : Rect S4000x128 := Rect.unit (s := S4000x128) ![0, 0] S4000x128.size inb_S4000x128_S4000x128_0_0
abbrev r2_2 : Rect S4000x128 := Rect.unit (s := S4000x128) ![0, 0] S4000x128.size inb_S4000x128_S4000x128_0_0
abbrev r2_3 : Rect S128x128 := Rect.unit (s := S128x128) ![0, 0] S128x128.size inb_S128x128_S128x128_0_0
abbrev r2_4 : Rect S128x128 := Rect.unit (s := S128x128) ![0, 0] S128x128.size inb_S128x128_S128x128_0_0
abbrev r2_5 : Rect S128 := Rect.unit (s := S128) ![0] S128.size inb_S128_S128_0
abbrev r2_6 : Rect S4000x128 := Rect.unit (s := S4000x128) ![0, 0] S4000x128.size inb_S4000x128_S4000x128_0_0

/-- The output window's staging buffer after the body: its one store, of the body's value of the loaded blocks. -/
def out2_6 (x0 : Vec F S4000x128 .f32) (x1 : Vec F S4000x128 .f32) (x2 : Vec F S4000x128 .f32) (x3 : Vec F S128x128 .f32) (x4 : Vec F S128x128 .f32) (x5 : Vec F S128 .f32) : Vec F S4000x128 .f32 :=
  View.canon [⟨r2_6, k2_pay1 (View.ld x0 r2_0) (View.ld x1 r2_1) (View.ld x2 r2_2) (View.ld x3 r2_3) (View.ld x4 r2_4) (View.ld x5 r2_5)⟩]

/-- The store covers the buffer. -/
theorem cover2_6 (p0 : Vec F S4000x128 .f32) (y : S4000x128.Idx) :
    ∃ pc ∈ ([⟨r2_6, p0⟩] : List (View.Piece (Elt F) S4000x128 .f32)), y ∈ pc.1.set :=
  View.cover_of_tiled [⟨r2_6, p0⟩] S4000x128.size (by rfl) y

set_option maxHeartbeats 1000000 in
/-- The kernel body on whole staging memrefs, the inputs' at contents `xW` and the output's at anything, runs to the
    continuation holding the inputs' as they were and the output's at `out2_6` of the inputs'. -/
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core `c`: the arrays as the region finds them; after the body at point `t` each
    input's buffer at its block and the output's at the body's value of the input blocks; the scoped rest and the
    generator register pass through untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KBReg3.lean ====
/-
  Pallas call 3 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.Kernel.Launch
import proofs.«153677_j23742579212601_1_alg».proof.Proof.Gen.Kernel.Skeleton
import proofs.«153677_j23742579212601_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S4000x128 := Rect.unit (s := S4000x128) ![0, 0] S4000x128.size inb_S4000x128_S4000x128_0_0
abbrev r3_1 : Rect S4000x128 := Rect.unit (s := S4000x128) ![0, 0] S4000x128.size inb_S4000x128_S4000x128_0_0
abbrev r3_2 : Rect S4000x128 := Rect.unit (s := S4000x128) ![0, 0] S4000x128.size inb_S4000x128_S4000x128_0_0
abbrev r3_3 : Rect S128x128 := Rect.unit (s := S128x128) ![0, 0] S128x128.size inb_S128x128_S128x128_0_0
abbrev r3_4 : Rect S128x128 := Rect.unit (s := S128x128) ![0, 0] S128x128.size inb_S128x128_S128x128_0_0
abbrev r3_5 : Rect S128 := Rect.unit (s := S128) ![0] S128.size inb_S128_S128_0
abbrev r3_6 : Rect S4000x128 := Rect.unit (s := S4000x128) ![0, 0] S4000x128.size inb_S4000x128_S4000x128_0_0

/-- The output window's staging buffer after the body: its one store, of the body's value of the loaded blocks. -/
def out3_6 (x0 : Vec F S4000x128 .f32) (x1 : Vec F S4000x128 .f32) (x2 : Vec F S4000x128 .f32) (x3 : Vec F S128x128 .f32) (x4 : Vec F S128x128 .f32) (x5 : Vec F S128 .f32) : Vec F S4000x128 .f32 :=
  View.canon [⟨r3_6, k3_pay1 (View.ld x0 r3_0) (View.ld x1 r3_1) (View.ld x2 r3_2) (View.ld x3 r3_3) (View.ld x4 r3_4) (View.ld x5 r3_5)⟩]

/-- The store covers the buffer. -/
theorem cover3_6 (p0 : Vec F S4000x128 .f32) (y : S4000x128.Idx) :
    ∃ pc ∈ ([⟨r3_6, p0⟩] : List (View.Piece (Elt F) S4000x128 .f32)), y ∈ pc.1.set :=
  View.cover_of_tiled [⟨r3_6, p0⟩] S4000x128.size (by rfl) y

set_option maxHeartbeats 1000000 in
/-- The kernel body on whole staging memrefs, the inputs' at contents `xW` and the output's at anything, runs to the
    continuation holding the inputs' as they were and the output's at `out3_6` of the inputs'. -/
theorem sound_kernel3 (c : Dev nD) (E : Set ℕ) (i : grid3.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__combine_kernel i arg1 harg1 arg2 harg2 arg3 harg3 arg4 harg4 arg5 harg5 arg6 harg6 arg7 harg7) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3 on core `c`: the arrays as the region finds them; after the body at point `t` each
    input's buffer at its block and the output's at the body's value of the input blocks; the scoped rest and the
    generator register pass through untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.KBReg4.lean ====
/-
  Pallas call 4 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.Kernel.Launch
import proofs.«153677_j23742579212601_1_alg».proof.Proof.Gen.Kernel.Skeleton
import proofs.«153677_j23742579212601_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_0 : Rect S4000x128 := Rect.unit (s := S4000x128) ![0, 0] S4000x128.size inb_S4000x128_S4000x128_0_0
abbrev r4_1 : Rect S4000x128 := Rect.unit (s := S4000x128) ![0, 0] S4000x128.size inb_S4000x128_S4000x128_0_0
abbrev r4_2 : Rect S4000x128 := Rect.unit (s := S4000x128) ![0, 0] S4000x128.size inb_S4000x128_S4000x128_0_0
abbrev r4_3 : Rect S128x128 := Rect.unit (s := S128x128) ![0, 0] S128x128.size inb_S128x128_S128x128_0_0
abbrev r4_4 : Rect S128x128 := Rect.unit (s := S128x128) ![0, 0] S128x128.size inb_S128x128_S128x128_0_0
abbrev r4_5 : Rect S128 := Rect.unit (s := S128) ![0] S128.size inb_S128_S128_0
abbrev r4_6 : Rect S4000x128 := Rect.unit (s := S4000x128) ![0, 0] S4000x128.size inb_S4000x128_S4000x128_0_0

/-- The output window's staging buffer after the body: its one store, of the body's value of the loaded blocks. -/
def out4_6 (x0 : Vec F S4000x128 .f32) (x1 : Vec F S4000x128 .f32) (x2 : Vec F S4000x128 .f32) (x3 : Vec F S128x128 .f32) (x4 : Vec F S128x128 .f32) (x5 : Vec F S128 .f32) : Vec F S4000x128 .f32 :=
  View.canon [⟨r4_6, k4_pay1 (View.ld x0 r4_0) (View.ld x1 r4_1) (View.ld x2 r4_2) (View.ld x3 r4_3) (View.ld x4 r4_4) (View.ld x5 r4_5)⟩]

/-- The store covers the buffer. -/
theorem cover4_6 (p0 : Vec F S4000x128 .f32) (y : S4000x128.Idx) :
    ∃ pc ∈ ([⟨r4_6, p0⟩] : List (View.Piece (Elt F) S4000x128 .f32)), y ∈ pc.1.set :=
  View.cover_of_tiled [⟨r4_6, p0⟩] S4000x128.size (by rfl) y

set_option maxHeartbeats 1000000 in
/-- The kernel body on whole staging memrefs, the inputs' at contents `xW` and the output's at anything, runs to the
    continuation holding the inputs' as they were and the output's at `out4_6` of the inputs'. -/
theorem sound_kernel4 (c : Dev nD) (E : Set ℕ) (i : grid4.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__combine_kernel i arg1 harg1 arg2 harg2 arg3 harg3 arg4 harg4 arg5 harg5 arg6 harg6 arg7 harg7) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of pipeline 4 on core `c`: the arrays as the region finds them; after the body at point `t` each
    input's buffer at its block and the output's at the body's value of the input blocks; the scoped rest and the
    generator register pass through untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation4 (c : Dev nD) : BodyObligation (dat4 (F := F) V c) (defs₀ (F := F)) Variants.none () Set.univ := fun t => by
  rw [bigSep_W4, bigSep_W4]
  exact sound_body4 V c t

end Region

end Cert.Kernel.Hand

end
-- ==== Proof.KBReg5.lean ====
/-
  Pallas call 5 of the program as one region of @main, at any contents `V` of the TensorCore's buffers when the
  region is entered: the block of each window at a grid point, what the kernel body leaves in the output window's
  staging buffer (its one whole-block store of the body's value of the input blocks), the body's triple, the
  pipeline's proof data (inputs kept, the output block the body's value of the input blocks at the point), and
  the body obligation at every point.
-/
import proofs.«153677_j23742579212601_1_alg».proof.Proof.Gen.Kernel.Launch
import proofs.«153677_j23742579212601_1_alg».proof.Proof.Gen.Kernel.Skeleton
import proofs.«153677_j23742579212601_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_0 : Rect S4000x128 := Rect.unit (s := S4000x128) ![0, 0] S4000x128.size inb_S4000x128_S4000x128_0_0
abbrev r5_1 : Rect S128x64 := Rect.unit (s := S128x64) ![0, 0] S128x64.size inb_S128x64_S128x64_0_0
abbrev r5_2 : Rect S64 := Rect.unit (s := S64) ![0] S64.size inb_S64_S64_0
abbrev r5_3 : Rect S4000x64 := Rect.unit (s := S4000x64) ![0, 0] S4000x64.size inb_S4000x64_S4000x64_0_0

/-- The output window's staging buffer after the body: its one store, of the body's value of the loaded blocks. -/
def out5_3 (x0 : Vec F S4000x128 .f32) (x1 : Vec F S128x64 .f32) (x2 : Vec F S64 .f32) : Vec F S4000x64 .f32 :=
  View.canon [⟨r5_3, k5_pay1 (View.ld x0 r5_0) (View.ld x1 r5_1) (View.ld x2 r5_2)⟩]

/-- The store covers the buffer. -/
theorem cover5_3 (p0 : Vec F S4000x64 .f32) (y : S4000x64.Idx) :
    ∃ pc ∈ ([⟨r5_3, p0⟩] : List (View.Piece (Elt F) S4000x64 .f32)), y ∈ pc.1.set :=
  View.cover_of_tiled [⟨r5_3, p0⟩] S4000x64.size (by rfl) y

set_option maxHeartbeats 1000000 in
/-- The kernel body on whole staging memrefs, the inputs' at contents `xW` and the output's at anything, runs to the
    continuation holding the inputs' as they were and the output's at `out5_3` of the inputs'. -/
theorem sound_kernel5 (c : Dev nD) (E : Set ℕ) (i : grid5.Coords) (arg1 : Memref sig .tc .vmem S4000x128 .f32) (harg1 : arg1.IsWhole) (arg2 : Memref sig .tc .vmem S128x64 .f32) (harg2 : arg2.IsWhole) (arg3 : Memref sig .tc .vmem S64 .f32) (harg3 : arg3.IsWhole) (arg4 : Memref sig .tc .vmem S4000x64 .f32) (harg4 : arg4.IsWhole)
    (x0 : Vec F S4000x128 .f32) (x1 : Vec F S128x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__fc2_kernel i arg1 harg1 arg2 harg2 arg3 harg3 arg4 harg4) K := by
  simp only [cc5__fc2_kernel_eq_skeleton]; unfold cc5__fc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body at point `t` each
    input's buffer at its block and the output's at the body's value of the input blocks; the scoped rest and the
    generator register pass through untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Region

end Cert.Kernel.Hand

end
-- ==== Proof.KBReg1.lean ====
/-
  Kernel call 1 of the program (the first combine layer) as one region of @main, at any contents `V` of the
  TensorCore's buffers when the region is entered: the block of each window at a grid point, what the kernel body
  leaves in the output window's staging buffer (its one whole-block store of the body's value of the six input
  blocks), the body's triple, the pipeline's proof data and the body obligation at every point.
  Windows 1 and 2 of this call stage the SAME array (the layer's input features, passed twice), so the proof data
  hold that array at two complementary half shares, one per window; every other input array is held whole.
-/
import proofs.«153677_j23742579212601_1_alg».proof.Proof.Gen.Kernel.Launch
import proofs.«153677_j23742579212601_1_alg».proof.Proof.Gen.Kernel.Skeleton
import proofs.«153677_j23742579212601_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S128 := Rect.unit (s := S128) ![0] S128.size inb_S128_S128_0

/-- The output window's staging buffer after the body: its one store, of the body's value of the loaded blocks. -/
def out1_6 (x0 : Vec F S4000x128 .f32) (x1 : Vec F S4000x128 .f32) (x2 : Vec F S4000x128 .f32) (x3 : Vec F S128x128 .f32)
    (x4 : Vec F S128x128 .f32) (x5 : Vec F S128 .f32) : Vec F S4000x128 .f32 :=
  View.canon [⟨r1_0, k1_pay1 (View.ld x0 r1_0) (View.ld x1 r1_0) (View.ld x2 r1_0) (View.ld x3 r1_1) (View.ld x4 r1_1) (View.ld x5 r1_2)⟩]

/-- The store covers the buffer. -/
theorem cover1_6 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

set_option maxHeartbeats 1000000 in
/-- The kernel body on whole staging memrefs, the inputs' at contents `xW` and the output's at anything, runs to the
    continuation holding the inputs' as they were and the output's at `out1_6` of the inputs'. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__combine_kernel i arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t` each
    input's buffer at its block and the output's at the body's value of the input blocks; the scoped rest and the
    generator register pass through untouched; nothing owed. Windows 1 and 2 read one array: each holds it at one of
    the two complementary halves of the full share; the other input arrays are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- The shares the proof data hold the arrays at: the array of windows 1 and 2 halved between them, every other
    array whole. -/
theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KBReg1b.lean ====
/-
  Kernel call 1 (the first combine layer) as a region: its windows' arrays split out of the core's unscoped buffers
  when the region is entered and put back when it is left. Six distinct buffers stand behind the seven windows: the
  layer's input features are read through windows 1 and 2, so that buffer's points-to is halved along the share at
  entry, one half per window, and the two halves are rejoined at exit (an input array is never written, so both halves
  still hold the entry contents). The output window's array returns at what the write-backs leave.
-/
import proofs.«153677_j23742579212601_1_alg».proof.Proof.KBReg1
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The distinct buffers behind the seven windows' arrays. -/
theorem arrImage1 : (Finset.univ.image (Pipeline.arrRef spec1) : Finset (Ref sig .tc))
    = {main_v29, main_v15, main_v31, main_v33, main_v35, main_v36} := by decide

/-- A window's array, a whole buffer, held at the window's share. -/
theorem arr1_piece (c : Dev nD) (w : Fin cfg1.W) (q : PosShare TreeShare) (hq : (dat1 V c).share w = q)
    (G : Buf (Elt F) ((cfg1.win w).arr.view.loc (c : Thread nD τ))) :
    ((cfg1.win w).arr.view.loc (c : Thread nD τ) ↦[(cfg1.win w).arr.view.set]{(dat1 V c).share w} G : sProp 𝕄)
      = (((c : Thread nD τ).loc (Pipeline.arrRef spec1 w)) ↦{q} G) := by
  rw [(arr_whole1 w).set_eq_univ, hq]

/-- The pipeline's arrays at contents `G`, window by window: the shared buffer at its two halves. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_v29) ↦{fullShare} G 0) ∗
      (((c : Thread nD τ).loc main_v15) ↦{fullShare.left} G 1) ∗
      (((c : Thread nD τ).loc main_v15) ↦{fullShare.right} G 2) ∗
      (((c : Thread nD τ).loc main_v31) ↦{fullShare} G 3) ∗
      (((c : Thread nD τ).loc main_v33) ↦{fullShare} G 4) ∗
      (((c : Thread nD τ).loc main_v35) ↦{fullShare} G 5) ∗
      (((c : Thread nD τ).loc main_v36) ↦{fullShare} G 6)) := by
  unfold Dat.arrays
  rw [bigSep_W1]
  exact congrArg₂ BI.sep (arr1_piece V c 0 fullShare (share1_0 V c) (G 0))
    (congrArg₂ BI.sep (arr1_piece V c 1 fullShare.left (share1_1 V c) (G 1))
    (congrArg₂ BI.sep (arr1_piece V c 2 fullShare.right (share1_2 V c) (G 2))
    (congrArg₂ BI.sep (arr1_piece V c 3 fullShare (share1_3 V c) (G 3))
    (congrArg₂ BI.sep (arr1_piece V c 4 fullShare (share1_4 V c) (G 4))
    (congrArg₂ BI.sep (arr1_piece V c 5 fullShare (share1_5 V c) (G 5))
      (arr1_piece V c 6 fullShare (share1_6 V c) (G 6)))))))

/-- The core's unscoped buffers at contents `X`: the six buffers behind the windows, and the rest. -/
theorem unscopedBufs1_eq (c : Dev nD) (X : (b : Ref sig .tc) → Buf (Elt F) ((c : Thread nD τ).loc b)) :
    (unscopedBufs (Ix := Unit) (Name := ℕ) (U := UR sig nD τ) (Lvl := ℕ) c X : sProp 𝕄) = iprop(
      ((((c : Thread nD τ).loc main_v29) ↦{fullShare} X main_v29) ∗
      (((c : Thread nD τ).loc main_v15) ↦{fullShare} X main_v15) ∗
      (((c : Thread nD τ).loc main_v31) ↦{fullShare} X main_v31) ∗
      (((c : Thread nD τ).loc main_v33) ↦{fullShare} X main_v33) ∗
      (((c : Thread nD τ).loc main_v35) ↦{fullShare} X main_v35) ∗
      (((c : Thread nD τ).loc main_v36) ↦{fullShare} X main_v36))
      ∗ Pipeline.unscopedRest (Ix := Unit) (Name := ℕ) (U := UR sig nD τ) (Lvl := ℕ) spec1 c X) := by
  have h : (unscopedBufs (Ix := Unit) (Name := ℕ) (U := UR sig nD τ) (Lvl := ℕ) c X : sProp 𝕄)
      = iprop(Pipeline.arrBufs (Ix := Unit) (Name := ℕ) (U := UR sig nD τ) (Lvl := ℕ) spec1 c X ∗ Pipeline.unscopedRest (Ix := Unit) (Name := ℕ) (U := UR sig nD τ) (Lvl := ℕ) spec1 c X) :=
    Pipeline.unscopedBufs_split₀ cfgs (1 : Fin 6) winFacts₀1.arr_unscoped c X
  rw [h]
  unfold Pipeline.arrBufs
  rw [arrImage1, bigSep_insert (by decide), bigSep_insert (by decide), bigSep_insert (by decide), bigSep_insert (by decide),
    bigSep_insert (by decide), bigSep_singleton]
  rfl

/-- ENTRY: the core's unscoped buffers at the entry contents give the pipeline's arrays at their entry contents — the
    buffer read through windows 1 and 2 halved between them — beside the unscoped buffers no window stages. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [unscopedBufs1_eq, arrays1_eq]
  iintro ⟨⟨H29, H15, H31, H33, H35, H36⟩, Hrest⟩
  ihave H := (pointsTo_share (PosShare.mem_left_op_right fullShare)).1 $$ H15
  icases H with ⟨H15a, H15b⟩
  isplitr [Hrest]
  swap; · iexact Hrest
  isplitl [H29]; · iexact H29
  isplitl [H15a]; · iexact H15a
  isplitl [H15b]; · iexact H15b
  isplitl [H31]; · iexact H31
  isplitl [H33]; · iexact H33
  isplitl [H35]; · iexact H35
  iexact H36

/-- EXIT: the pipeline's arrays at what it leaves — each input array at its entry contents, the two halves of the
    shared buffer rejoined, the output array at its write-backs — and the unscoped buffers no window stages are the
    core's unscoped buffers at any contents `V'` that have the output array at what the write-backs leave and agree
    with the entry contents everywhere else. -/
theorem exit1 (c : Dev nD) (V' : (b : Ref sig .tc) → Buf (Elt F) ((c : Thread nD τ).loc b))
    (hout : (dat1 V c).arrAt 6 cfg1.N = V' main_v36) (hrest : ∀ b, b ≠ main_v36 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have e0 : (dat1 V c).arrAt 0 cfg1.N = V' main_v29 :=
    ((dat1 V c).arrAt_in 0 rfl _).trans ((A_eq1 V c 0).trans (hrest main_v29 (by decide)).symm)
  have e1 : (dat1 V c).arrAt 1 cfg1.N = V' main_v15 :=
    ((dat1 V c).arrAt_in 1 rfl _).trans ((A_eq1 V c 1).trans (hrest main_v15 (by decide)).symm)
  have e2 : (dat1 V c).arrAt 2 cfg1.N = V' main_v15 :=
    ((dat1 V c).arrAt_in 2 rfl _).trans ((A_eq1 V c 2).trans (hrest main_v15 (by decide)).symm)
  have e3 : (dat1 V c).arrAt 3 cfg1.N = V' main_v31 :=
    ((dat1 V c).arrAt_in 3 rfl _).trans ((A_eq1 V c 3).trans (hrest main_v31 (by decide)).symm)
  have e4 : (dat1 V c).arrAt 4 cfg1.N = V' main_v33 :=
    ((dat1 V c).arrAt_in 4 rfl _).trans ((A_eq1 V c 4).trans (hrest main_v33 (by decide)).symm)
  have e5 : (dat1 V c).arrAt 5 cfg1.N = V' main_v35 :=
    ((dat1 V c).arrAt_in 5 rfl _).trans ((A_eq1 V c 5).trans (hrest main_v35 (by decide)).symm)
  have hR : (Pipeline.unscopedRest (Ix := Unit) (Name := ℕ) (U := UR sig nD τ) (Lvl := ℕ) spec1 c (V c) : sProp 𝕄) = Pipeline.unscopedRest (Ix := Unit) (Name := ℕ) (U := UR sig nD τ) (Lvl := ℕ) spec1 c V' := by
    unfold Pipeline.unscopedRest
    exact bigSep_congr fun b hb => by
      rw [hrest b fun e => (Finset.mem_sdiff.mp hb).2 (e ▸ Finset.mem_image.mpr ⟨6, Finset.mem_univ _, rfl⟩)]
  rw [unscopedBufs1_eq, arrays1_eq, hR]
  iintro ⟨⟨H29, H15a, H15b, H31, H33, H35, H36⟩, Hrest⟩
  ihave H15 := ((pointsTo_share (f := V' main_v15) (PosShare.mem_left_op_right fullShare)).2) $$ [H15a H15b]
  · isplitl [H15a]
    · iapply (Entails.of_eq (congrArg (fun x => (((c : Thread nD τ).loc main_v15) ↦{fullShare.left} x : sProp 𝕄)) e1)); iexact H15a
    · iapply (Entails.of_eq (congrArg (fun x => (((c : Thread nD τ).loc main_v15) ↦{fullShare.right} x : sProp 𝕄)) e2)); iexact H15b
  isplitr [Hrest]
  swap; · iexact Hrest
  isplitl [H29]
  · iapply (Entails.of_eq (congrArg (fun x => (((c : Thread nD τ).loc main_v29) ↦{fullShare} x : sProp 𝕄)) e0)); iexact H29
  isplitl [H15]; · iexact H15
  isplitl [H31]
  · iapply (Entails.of_eq (congrArg (fun x => (((c : Thread nD τ).loc main_v31) ↦{fullShare} x : sProp 𝕄)) e3)); iexact H31
  isplitl [H33]
  · iapply (Entails.of_eq (congrArg (fun x => (((c : Thread nD τ).loc main_v33) ↦{fullShare} x : sProp 𝕄)) e4)); iexact H33
  isplitl [H35]
  · iapply (Entails.of_eq (congrArg (fun x => (((c : Thread nD τ).loc main_v35) ↦{fullShare} x : sProp 𝕄)) e5)); iexact H35
  iapply (Entails.of_eq (congrArg (fun x => (((c : Thread nD τ).loc main_v36) ↦{fullShare} x : sProp 𝕄)) hout)); iexact H36

end Region

end Cert.Kernel.Hand

end
-- ==== Proof.KBRun.lean ====
/-
  The whole program as a run of its segments: the buffers' contents at each boundary of @main as a fold from the
  launch memory (a host stretch applies its operations; a Pallas call leaves its arrays at what its pipeline writes
  back and every other buffer as entered), each argument walked back through the fold to the launch memory, the six
  pipelines' proof data each at its region's entry contents, each Pallas call as a region entered from and left at
  those contents, and the run: every weakly fair execution terminates with every unscoped buffer at the last contents.
-/
import proofs.«153677_j23742579212601_1_alg».proof.Proof.Gen.Kernel.Regions
import proofs.«153677_j23742579212601_1_alg».proof.Proof.KBReg0
import proofs.«153677_j23742579212601_1_alg».proof.Proof.KBReg2
import proofs.«153677_j23742579212601_1_alg».proof.Proof.KBReg3
import proofs.«153677_j23742579212601_1_alg».proof.Proof.KBReg4
import proofs.«153677_j23742579212601_1_alg».proof.Proof.KBReg5
import proofs.«153677_j23742579212601_1_alg».proof.Proof.KBReg1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After the host stretch `hostOps0_3`. -/
abbrev W4 : Dev nD → Valuation τ sig (Elt F) := fun c => StableHlo.after hostOps0_3 (W3 m c)
/-- After the host stretch `hostOps0_4`. -/
abbrev W5 : Dev nD → Valuation τ sig (Elt F) := fun c => StableHlo.after hostOps0_4 (W4 m c)
/-- The same read at the TensorCore's references. -/
abbrev U5 : (c : Dev nD) → (b : Ref sig .tc) → Buf (Elt F) ((c : Thread nD τ).loc b) := fun c b => W5 m c b
/-- At the exit of Pallas call 0: its arrays at what the pipeline leaves (the inputs as entered, the output's write-backs
    folded), every other buffer as entered. -/
def W6 (c : Dev nD) : Valuation τ sig (Elt F) :=
  Pipeline.withArrays spec0 c (W5 m c) fun w => (dat0 (U5 m) c).arrAt w cfg0.N
theorem W6_arr (c : Dev nD) (w : Fin cfg0.W) :
    W6 m c (Proc.devRef .tc (Pipeline.arrRef spec0 w)) = (dat0 (U5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
/-- The same read at the TensorCore's references. -/
abbrev U6 : (c : Dev nD) → (b : Ref sig .tc) → Buf (Elt F) ((c : Thread nD τ).loc b) := fun c b => W6 m c b
theorem hF0 (c : Dev nD) (w : Fin cfg0.W) : (dat0 (U5 m) c).arrAt w cfg0.N = U6 m c (Pipeline.arrRef spec0 w) :=
  (W6_arr m c w).symm
theorem hrest0 (c : Dev nD) : ∀ b, b ∉ Finset.univ.image (Pipeline.arrRef spec0) → U6 m c b = U5 m c b :=
  fun b hb => W6_of_ne m c b fun w e => hb (Finset.mem_image.mpr ⟨w, Finset.mem_univ _, e⟩)
/-- After the host stretch `hostOps1`. -/
abbrev W7 : Dev nD → Valuation τ sig (Elt F) := fun c => StableHlo.after hostOps1 (W6 m c)
/-- The same read at the TensorCore's references. -/
abbrev U7 : (c : Dev nD) → (b : Ref sig .tc) → Buf (Elt F) ((c : Thread nD τ).loc b) := fun c b => W7 m c b
/-- At the exit of Pallas call 1: the output array `main_v36` at what the pipeline leaves, every other buffer as entered
    (two of its input windows read one array, which it leaves as entered). -/
def W8 (c : Dev nD) : Valuation τ sig (Elt F) :=
  Function.update (W7 m c) (Proc.devRef .tc main_v36) ((dat1 (U7 m) c).arrAt 6 cfg1.N)
theorem W8_out (c : Dev nD) : W8 m c (Proc.devRef .tc main_v36) = (dat1 (U7 m) c).arrAt 6 cfg1.N := by
  unfold W8; exact Function.update_self _ _ _
theorem W8_of_ne (c : Dev nD) (b : Ref sig .tc) (hb : b ≠ main_v36) :
    W8 m c (Proc.devRef .tc b) = W7 m c (Proc.devRef .tc b) := by
  unfold W8; exact Function.update_of_ne (StableHlo.devRef_ne_of_ne hb) _ _
/-- The same read at the TensorCore's references. -/
abbrev U8 : (c : Dev nD) → (b : Ref sig .tc) → Buf (Elt F) ((c : Thread nD τ).loc b) := fun c b => W8 m c b
/-- After the host stretch `hostOps2`. -/
abbrev W9 : Dev nD → Valuation τ sig (Elt F) := fun c => StableHlo.after hostOps2 (W8 m c)
/-- The same read at the TensorCore's references. -/
abbrev U9 : (c : Dev nD) → (b : Ref sig .tc) → Buf (Elt F) ((c : Thread nD τ).loc b) := fun c b => W9 m c b
/-- At the exit of Pallas call 2: its arrays at what the pipeline leaves (the inputs as entered, the output's write-backs
    folded), every other buffer as entered. -/
def W10 (c : Dev nD) : Valuation τ sig (Elt F) :=
  Pipeline.withArrays spec2 c (W9 m c) fun w => (dat2 (U9 m) c).arrAt w cfg2.N
theorem W10_arr (c : Dev nD) (w : Fin cfg2.W) :
    W10 m c (Proc.devRef .tc (Pipeline.arrRef spec2 w)) = (dat2 (U9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- The same read at the TensorCore's references. -/
abbrev U10 : (c : Dev nD) → (b : Ref sig .tc) → Buf (Elt F) ((c : Thread nD τ).loc b) := fun c b => W10 m c b
theorem hF2 (c : Dev nD) (w : Fin cfg2.W) : (dat2 (U9 m) c).arrAt w cfg2.N = U10 m c (Pipeline.arrRef spec2 w) :=
  (W10_arr m c w).symm
theorem hrest2 (c : Dev nD) : ∀ b, b ∉ Finset.univ.image (Pipeline.arrRef spec2) → U10 m c b = U9 m c b :=
  fun b hb => W10_of_ne m c b fun w e => hb (Finset.mem_image.mpr ⟨w, Finset.mem_univ _, e⟩)
/-- After the host stretch `hostOps3`. -/
abbrev W11 : Dev nD → Valuation τ sig (Elt F) := fun c => StableHlo.after hostOps3 (W10 m c)
/-- The same read at the TensorCore's references. -/
abbrev U11 : (c : Dev nD) → (b : Ref sig .tc) → Buf (Elt F) ((c : Thread nD τ).loc b) := fun c b => W11 m c b
/-- At the exit of Pallas call 3: its arrays at what the pipeline leaves (the inputs as entered, the output's write-backs
    folded), every other buffer as entered. -/
def W12 (c : Dev nD) : Valuation τ sig (Elt F) :=
  Pipeline.withArrays spec3 c (W11 m c) fun w => (dat3 (U11 m) c).arrAt w cfg3.N
theorem W12_arr (c : Dev nD) (w : Fin cfg3.W) :
    W12 m c (Proc.devRef .tc (Pipeline.arrRef spec3 w)) = (dat3 (U11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
/-- The same read at the TensorCore's references. -/
abbrev U12 : (c : Dev nD) → (b : Ref sig .tc) → Buf (Elt F) ((c : Thread nD τ).loc b) := fun c b => W12 m c b
theorem hF3 (c : Dev nD) (w : Fin cfg3.W) : (dat3 (U11 m) c).arrAt w cfg3.N = U12 m c (Pipeline.arrRef spec3 w) :=
  (W12_arr m c w).symm
theorem hrest3 (c : Dev nD) : ∀ b, b ∉ Finset.univ.image (Pipeline.arrRef spec3) → U12 m c b = U11 m c b :=
  fun b hb => W12_of_ne m c b fun w e => hb (Finset.mem_image.mpr ⟨w, Finset.mem_univ _, e⟩)
/-- After the host stretch `hostOps4`. -/
abbrev W13 : Dev nD → Valuation τ sig (Elt F) := fun c => StableHlo.after hostOps4 (W12 m c)
/-- The same read at the TensorCore's references. -/
abbrev U13 : (c : Dev nD) → (b : Ref sig .tc) → Buf (Elt F) ((c : Thread nD τ).loc b) := fun c b => W13 m c b
/-- At the exit of Pallas call 4: its arrays at what the pipeline leaves (the inputs as entered, the output's write-backs
    folded), every other buffer as entered. -/
def W14 (c : Dev nD) : Valuation τ sig (Elt F) :=
  Pipeline.withArrays spec4 c (W13 m c) fun w => (dat4 (U13 m) c).arrAt w cfg4.N
theorem W14_arr (c : Dev nD) (w : Fin cfg4.W) :
    W14 m c (Proc.devRef .tc (Pipeline.arrRef spec4 w)) = (dat4 (U13 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
/-- The same read at the TensorCore's references. -/
abbrev U14 : (c : Dev nD) → (b : Ref sig .tc) → Buf (Elt F) ((c : Thread nD τ).loc b) := fun c b => W14 m c b
theorem hF4 (c : Dev nD) (w : Fin cfg4.W) : (dat4 (U13 m) c).arrAt w cfg4.N = U14 m c (Pipeline.arrRef spec4 w) :=
  (W14_arr m c w).symm
theorem hrest4 (c : Dev nD) : ∀ b, b ∉ Finset.univ.image (Pipeline.arrRef spec4) → U14 m c b = U13 m c b :=
  fun b hb => W14_of_ne m c b fun w e => hb (Finset.mem_image.mpr ⟨w, Finset.mem_univ _, e⟩)
/-- At the exit of Pallas call 5: its arrays at what the pipeline leaves (the inputs as entered, the output's write-backs
    folded), every other buffer as entered. -/
def W15 (c : Dev nD) : Valuation τ sig (Elt F) :=
  Pipeline.withArrays spec5 c (W14 m c) fun w => (dat5 (U14 m) c).arrAt w cfg5.N
theorem W15_arr (c : Dev nD) (w : Fin cfg5.W) :
    W15 m c (Proc.devRef .tc (Pipeline.arrRef spec5 w)) = (dat5 (U14 m) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m c (Proc.devRef .tc b) = W14 m c (Proc.devRef .tc b) := by
  unfold W15; exact Pipeline.withArrays_of_ne spec5 c _ _ b hb
/-- The same read at the TensorCore's references. -/
abbrev U15 : (c : Dev nD) → (b : Ref sig .tc) → Buf (Elt F) ((c : Thread nD τ).loc b) := fun c b => W15 m c b
theorem hF5 (c : Dev nD) (w : Fin cfg5.W) : (dat5 (U14 m) c).arrAt w cfg5.N = U15 m c (Pipeline.arrRef spec5 w) :=
  (W15_arr m c w).symm
theorem hrest5 (c : Dev nD) : ∀ b, b ∉ Finset.univ.image (Pipeline.arrRef spec5) → U15 m c b = U14 m c b :=
  fun b hb => W15_of_ne m c b fun w e => hb (Finset.mem_image.mpr ⟨w, Finset.mem_univ _, e⟩)

/-! ### The arguments end as launched: no host operation and no region writes one -/

theorem W15_main_arg0 (c : Dev nD) : W15 m c (Proc.devRef .tc main_arg0) = m ((c : Thread nD τ).loc main_arg0) :=
  calc W15 m c (Proc.devRef .tc main_arg0)
    _ = W14 m c (Proc.devRef .tc main_arg0) := W15_of_ne m c main_arg0 (by decide)
    _ = W13 m c (Proc.devRef .tc main_arg0) := W14_of_ne m c main_arg0 (by decide)
    _ = W12 m c (Proc.devRef .tc main_arg0) := StableHlo.after_of_writes_sub hostOps4 _ hostOps4_writes (by decide)
    _ = W11 m c (Proc.devRef .tc main_arg0) := W12_of_ne m c main_arg0 (by decide)
    _ = W10 m c (Proc.devRef .tc main_arg0) := StableHlo.after_of_writes_sub hostOps3 _ hostOps3_writes (by decide)
    _ = W9 m c (Proc.devRef .tc main_arg0) := W10_of_ne m c main_arg0 (by decide)
    _ = W8 m c (Proc.devRef .tc main_arg0) := StableHlo.after_of_writes_sub hostOps2 _ hostOps2_writes (by decide)
    _ = W7 m c (Proc.devRef .tc main_arg0) := W8_of_ne m c main_arg0 (by decide)
    _ = W6 m c (Proc.devRef .tc main_arg0) := StableHlo.after_of_writes_sub hostOps1 _ hostOps1_writes (by decide)
    _ = W5 m c (Proc.devRef .tc main_arg0) := (W6_arr m c 0).trans (((dat0 (U5 m) c).arrAt_in 0 rfl _).trans (A_eq0 (U5 m) c 0))
    _ = W4 m c (Proc.devRef .tc main_arg0) := StableHlo.after_of_writes_sub hostOps0_4 _ hostOps0_4_writes (by decide)
    _ = W3 m c (Proc.devRef .tc main_arg0) := StableHlo.after_of_writes_sub hostOps0_3 _ hostOps0_3_writes (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W15_main_arg1 (c : Dev nD) : W15 m c (Proc.devRef .tc main_arg1) = m ((c : Thread nD τ).loc main_arg1) :=
  calc W15 m c (Proc.devRef .tc main_arg1)
    _ = W14 m c (Proc.devRef .tc main_arg1) := W15_of_ne m c main_arg1 (by decide)
    _ = W13 m c (Proc.devRef .tc main_arg1) := W14_of_ne m c main_arg1 (by decide)
    _ = W12 m c (Proc.devRef .tc main_arg1) := StableHlo.after_of_writes_sub hostOps4 _ hostOps4_writes (by decide)
    _ = W11 m c (Proc.devRef .tc main_arg1) := W12_of_ne m c main_arg1 (by decide)
    _ = W10 m c (Proc.devRef .tc main_arg1) := StableHlo.after_of_writes_sub hostOps3 _ hostOps3_writes (by decide)
    _ = W9 m c (Proc.devRef .tc main_arg1) := W10_of_ne m c main_arg1 (by decide)
    _ = W8 m c (Proc.devRef .tc main_arg1) := StableHlo.after_of_writes_sub hostOps2 _ hostOps2_writes (by decide)
    _ = W7 m c (Proc.devRef .tc main_arg1) := W8_of_ne m c main_arg1 (by decide)
    _ = W6 m c (Proc.devRef .tc main_arg1) := StableHlo.after_of_writes_sub hostOps1 _ hostOps1_writes (by decide)
    _ = W5 m c (Proc.devRef .tc main_arg1) := (W6_arr m c 1).trans (((dat0 (U5 m) c).arrAt_in 1 rfl _).trans (A_eq0 (U5 m) c 1))
    _ = W4 m c (Proc.devRef .tc main_arg1) := StableHlo.after_of_writes_sub hostOps0_4 _ hostOps0_4_writes (by decide)
    _ = W3 m c (Proc.devRef .tc main_arg1) := StableHlo.after_of_writes_sub hostOps0_3 _ hostOps0_3_writes (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W15_main_arg2 (c : Dev nD) : W15 m c (Proc.devRef .tc main_arg2) = m ((c : Thread nD τ).loc main_arg2) :=
  calc W15 m c (Proc.devRef .tc main_arg2)
    _ = W14 m c (Proc.devRef .tc main_arg2) := W15_of_ne m c main_arg2 (by decide)
    _ = W13 m c (Proc.devRef .tc main_arg2) := W14_of_ne m c main_arg2 (by decide)
    _ = W12 m c (Proc.devRef .tc main_arg2) := StableHlo.after_of_writes_sub hostOps4 _ hostOps4_writes (by decide)
    _ = W11 m c (Proc.devRef .tc main_arg2) := W12_of_ne m c main_arg2 (by decide)
    _ = W10 m c (Proc.devRef .tc main_arg2) := StableHlo.after_of_writes_sub hostOps3 _ hostOps3_writes (by decide)
    _ = W9 m c (Proc.devRef .tc main_arg2) := W10_of_ne m c main_arg2 (by decide)
    _ = W8 m c (Proc.devRef .tc main_arg2) := StableHlo.after_of_writes_sub hostOps2 _ hostOps2_writes (by decide)
    _ = W7 m c (Proc.devRef .tc main_arg2) := W8_of_ne m c main_arg2 (by decide)
    _ = W6 m c (Proc.devRef .tc main_arg2) := StableHlo.after_of_writes_sub hostOps1 _ hostOps1_writes (by decide)
    _ = W5 m c (Proc.devRef .tc main_arg2) := (W6_arr m c 2).trans (((dat0 (U5 m) c).arrAt_in 2 rfl _).trans (A_eq0 (U5 m) c 2))
    _ = W4 m c (Proc.devRef .tc main_arg2) := StableHlo.after_of_writes_sub hostOps0_4 _ hostOps0_4_writes (by decide)
    _ = W3 m c (Proc.devRef .tc main_arg2) := StableHlo.after_of_writes_sub hostOps0_3 _ hostOps0_3_writes (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W15_main_arg3 (c : Dev nD) : W15 m c (Proc.devRef .tc main_arg3) = m ((c : Thread nD τ).loc main_arg3) :=
  calc W15 m c (Proc.devRef .tc main_arg3)
    _ = W14 m c (Proc.devRef .tc main_arg3) := W15_of_ne m c main_arg3 (by decide)
    _ = W13 m c (Proc.devRef .tc main_arg3) := W14_of_ne m c main_arg3 (by decide)
    _ = W12 m c (Proc.devRef .tc main_arg3) := StableHlo.after_of_writes_sub hostOps4 _ hostOps4_writes (by decide)
    _ = W11 m c (Proc.devRef .tc main_arg3) := W12_of_ne m c main_arg3 (by decide)
    _ = W10 m c (Proc.devRef .tc main_arg3) := StableHlo.after_of_writes_sub hostOps3 _ hostOps3_writes (by decide)
    _ = W9 m c (Proc.devRef .tc main_arg3) := W10_of_ne m c main_arg3 (by decide)
    _ = W8 m c (Proc.devRef .tc main_arg3) := StableHlo.after_of_writes_sub hostOps2 _ hostOps2_writes (by decide)
    _ = W7 m c (Proc.devRef .tc main_arg3) := W8_of_ne m c main_arg3 (by decide)
    _ = W6 m c (Proc.devRef .tc main_arg3) := StableHlo.after_of_writes_sub hostOps1 _ hostOps1_writes (by decide)
    _ = W5 m c (Proc.devRef .tc main_arg3) := W6_of_ne m c main_arg3 (by decide)
    _ = W4 m c (Proc.devRef .tc main_arg3) := StableHlo.after_of_writes_sub hostOps0_4 _ hostOps0_4_writes (by decide)
    _ = W3 m c (Proc.devRef .tc main_arg3) := StableHlo.after_of_writes_sub hostOps0_3 _ hostOps0_3_writes (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W15_main_arg4 (c : Dev nD) : W15 m c (Proc.devRef .tc main_arg4) = m ((c : Thread nD τ).loc main_arg4) :=
  calc W15 m c (Proc.devRef .tc main_arg4)
    _ = W14 m c (Proc.devRef .tc main_arg4) := W15_of_ne m c main_arg4 (by decide)
    _ = W13 m c (Proc.devRef .tc main_arg4) := W14_of_ne m c main_arg4 (by decide)
    _ = W12 m c (Proc.devRef .tc main_arg4) := StableHlo.after_of_writes_sub hostOps4 _ hostOps4_writes (by decide)
    _ = W11 m c (Proc.devRef .tc main_arg4) := W12_of_ne m c main_arg4 (by decide)
    _ = W10 m c (Proc.devRef .tc main_arg4) := StableHlo.after_of_writes_sub hostOps3 _ hostOps3_writes (by decide)
    _ = W9 m c (Proc.devRef .tc main_arg4) := W10_of_ne m c main_arg4 (by decide)
    _ = W8 m c (Proc.devRef .tc main_arg4) := StableHlo.after_of_writes_sub hostOps2 _ hostOps2_writes (by decide)
    _ = W7 m c (Proc.devRef .tc main_arg4) := W8_of_ne m c main_arg4 (by decide)
    _ = W6 m c (Proc.devRef .tc main_arg4) := StableHlo.after_of_writes_sub hostOps1 _ hostOps1_writes (by decide)
    _ = W5 m c (Proc.devRef .tc main_arg4) := W6_of_ne m c main_arg4 (by decide)
    _ = W4 m c (Proc.devRef .tc main_arg4) := StableHlo.after_of_writes_sub hostOps0_4 _ hostOps0_4_writes (by decide)
    _ = W3 m c (Proc.devRef .tc main_arg4) := StableHlo.after_of_writes_sub hostOps0_3 _ hostOps0_3_writes (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W15_main_arg5 (c : Dev nD) : W15 m c (Proc.devRef .tc main_arg5) = m ((c : Thread nD τ).loc main_arg5) :=
  calc W15 m c (Proc.devRef .tc main_arg5)
    _ = W14 m c (Proc.devRef .tc main_arg5) := W15_of_ne m c main_arg5 (by decide)
    _ = W13 m c (Proc.devRef .tc main_arg5) := W14_of_ne m c main_arg5 (by decide)
    _ = W12 m c (Proc.devRef .tc main_arg5) := StableHlo.after_of_writes_sub hostOps4 _ hostOps4_writes (by decide)
    _ = W11 m c (Proc.devRef .tc main_arg5) := W12_of_ne m c main_arg5 (by decide)
    _ = W10 m c (Proc.devRef .tc main_arg5) := StableHlo.after_of_writes_sub hostOps3 _ hostOps3_writes (by decide)
    _ = W9 m c (Proc.devRef .tc main_arg5) := W10_of_ne m c main_arg5 (by decide)
    _ = W8 m c (Proc.devRef .tc main_arg5) := StableHlo.after_of_writes_sub hostOps2 _ hostOps2_writes (by decide)
    _ = W7 m c (Proc.devRef .tc main_arg5) := W8_of_ne m c main_arg5 (by decide)
    _ = W6 m c (Proc.devRef .tc main_arg5) := StableHlo.after_of_writes_sub hostOps1 _ hostOps1_writes (by decide)
    _ = W5 m c (Proc.devRef .tc main_arg5) := W6_of_ne m c main_arg5 (by decide)
    _ = W4 m c (Proc.devRef .tc main_arg5) := StableHlo.after_of_writes_sub hostOps0_4 _ hostOps0_4_writes (by decide)
    _ = W3 m c (Proc.devRef .tc main_arg5) := StableHlo.after_of_writes_sub hostOps0_3 _ hostOps0_3_writes (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl
theorem W15_main_arg6 (c : Dev nD) : W15 m c (Proc.devRef .tc main_arg6) = m ((c : Thread nD τ).loc main_arg6) :=
  calc W15 m c (Proc.devRef .tc main_arg6)
    _ = W14 m c (Proc.devRef .tc main_arg6) := (W15_arr m c 1).trans (((dat5 (U14 m) c).arrAt_in 1 rfl _).trans (A_eq5 (U14 m) c 1))
    _ = W13 m c (Proc.devRef .tc main_arg6) := W14_of_ne m c main_arg6 (by decide)
    _ = W12 m c (Proc.devRef .tc main_arg6) := StableHlo.after_of_writes_sub hostOps4 _ hostOps4_writes (by decide)
    _ = W11 m c (Proc.devRef .tc main_arg6) := W12_of_ne m c main_arg6 (by decide)
    _ = W10 m c (Proc.devRef .tc main_arg6) := StableHlo.after_of_writes_sub hostOps3 _ hostOps3_writes (by decide)
    _ = W9 m c (Proc.devRef .tc main_arg6) := W10_of_ne m c main_arg6 (by decide)
    _ = W8 m c (Proc.devRef .tc main_arg6) := StableHlo.after_of_writes_sub hostOps2 _ hostOps2_writes (by decide)
    _ = W7 m c (Proc.devRef .tc main_arg6) := W8_of_ne m c main_arg6 (by decide)
    _ = W6 m c (Proc.devRef .tc main_arg6) := StableHlo.after_of_writes_sub hostOps1 _ hostOps1_writes (by decide)
    _ = W5 m c (Proc.devRef .tc main_arg6) := W6_of_ne m c main_arg6 (by decide)
    _ = W4 m c (Proc.devRef .tc main_arg6) := StableHlo.after_of_writes_sub hostOps0_4 _ hostOps0_4_writes (by decide)
    _ = W3 m c (Proc.devRef .tc main_arg6) := StableHlo.after_of_writes_sub hostOps0_3 _ hostOps0_3_writes (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl
theorem W15_main_arg7 (c : Dev nD) : W15 m c (Proc.devRef .tc main_arg7) = m ((c : Thread nD τ).loc main_arg7) :=
  calc W15 m c (Proc.devRef .tc main_arg7)
    _ = W14 m c (Proc.devRef .tc main_arg7) := (W15_arr m c 2).trans (((dat5 (U14 m) c).arrAt_in 2 rfl _).trans (A_eq5 (U14 m) c 2))
    _ = W13 m c (Proc.devRef .tc main_arg7) := W14_of_ne m c main_arg7 (by decide)
    _ = W12 m c (Proc.devRef .tc main_arg7) := StableHlo.after_of_writes_sub hostOps4 _ hostOps4_writes (by decide)
    _ = W11 m c (Proc.devRef .tc main_arg7) := W12_of_ne m c main_arg7 (by decide)
    _ = W10 m c (Proc.devRef .tc main_arg7) := StableHlo.after_of_writes_sub hostOps3 _ hostOps3_writes (by decide)
    _ = W9 m c (Proc.devRef .tc main_arg7) := W10_of_ne m c main_arg7 (by decide)
    _ = W8 m c (Proc.devRef .tc main_arg7) := StableHlo.after_of_writes_sub hostOps2 _ hostOps2_writes (by decide)
    _ = W7 m c (Proc.devRef .tc main_arg7) := W8_of_ne m c main_arg7 (by decide)
    _ = W6 m c (Proc.devRef .tc main_arg7) := StableHlo.after_of_writes_sub hostOps1 _ hostOps1_writes (by decide)
    _ = W5 m c (Proc.devRef .tc main_arg7) := W6_of_ne m c main_arg7 (by decide)
    _ = W4 m c (Proc.devRef .tc main_arg7) := StableHlo.after_of_writes_sub hostOps0_4 _ hostOps0_4_writes (by decide)
    _ = W3 m c (Proc.devRef .tc main_arg7) := StableHlo.after_of_writes_sub hostOps0_3 _ hostOps0_3_writes (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl
theorem W15_main_arg8 (c : Dev nD) : W15 m c (Proc.devRef .tc main_arg8) = m ((c : Thread nD τ).loc main_arg8) :=
  calc W15 m c (Proc.devRef .tc main_arg8)
    _ = W14 m c (Proc.devRef .tc main_arg8) := W15_of_ne m c main_arg8 (by decide)
    _ = W13 m c (Proc.devRef .tc main_arg8) := W14_of_ne m c main_arg8 (by decide)
    _ = W12 m c (Proc.devRef .tc main_arg8) := StableHlo.after_of_writes_sub hostOps4 _ hostOps4_writes (by decide)
    _ = W11 m c (Proc.devRef .tc main_arg8) := W12_of_ne m c main_arg8 (by decide)
    _ = W10 m c (Proc.devRef .tc main_arg8) := StableHlo.after_of_writes_sub hostOps3 _ hostOps3_writes (by decide)
    _ = W9 m c (Proc.devRef .tc main_arg8) := W10_of_ne m c main_arg8 (by decide)
    _ = W8 m c (Proc.devRef .tc main_arg8) := StableHlo.after_of_writes_sub hostOps2 _ hostOps2_writes (by decide)
    _ = W7 m c (Proc.devRef .tc main_arg8) := W8_of_ne m c main_arg8 (by decide)
    _ = W6 m c (Proc.devRef .tc main_arg8) := StableHlo.after_of_writes_sub hostOps1 _ hostOps1_writes (by decide)
    _ = W5 m c (Proc.devRef .tc main_arg8) := W6_of_ne m c main_arg8 (by decide)
    _ = W4 m c (Proc.devRef .tc main_arg8) := StableHlo.after_of_writes_sub hostOps0_4 _ hostOps0_4_writes (by decide)
    _ = W3 m c (Proc.devRef .tc main_arg8) := StableHlo.after_of_writes_sub hostOps0_3 _ hostOps0_3_writes (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl
theorem W15_main_arg9 (c : Dev nD) : W15 m c (Proc.devRef .tc main_arg9) = m ((c : Thread nD τ).loc main_arg9) :=
  calc W15 m c (Proc.devRef .tc main_arg9)
    _ = W14 m c (Proc.devRef .tc main_arg9) := W15_of_ne m c main_arg9 (by decide)
    _ = W13 m c (Proc.devRef .tc main_arg9) := W14_of_ne m c main_arg9 (by decide)
    _ = W12 m c (Proc.devRef .tc main_arg9) := StableHlo.after_of_writes_sub hostOps4 _ hostOps4_writes (by decide)
    _ = W11 m c (Proc.devRef .tc main_arg9) := W12_of_ne m c main_arg9 (by decide)
    _ = W10 m c (Proc.devRef .tc main_arg9) := StableHlo.after_of_writes_sub hostOps3 _ hostOps3_writes (by decide)
    _ = W9 m c (Proc.devRef .tc main_arg9) := W10_of_ne m c main_arg9 (by decide)
    _ = W8 m c (Proc.devRef .tc main_arg9) := StableHlo.after_of_writes_sub hostOps2 _ hostOps2_writes (by decide)
    _ = W7 m c (Proc.devRef .tc main_arg9) := W8_of_ne m c main_arg9 (by decide)
    _ = W6 m c (Proc.devRef .tc main_arg9) := StableHlo.after_of_writes_sub hostOps1 _ hostOps1_writes (by decide)
    _ = W5 m c (Proc.devRef .tc main_arg9) := W6_of_ne m c main_arg9 (by decide)
    _ = W4 m c (Proc.devRef .tc main_arg9) := StableHlo.after_of_writes_sub hostOps0_4 _ hostOps0_4_writes (by decide)
    _ = W3 m c (Proc.devRef .tc main_arg9) := StableHlo.after_of_writes_sub hostOps0_3 _ hostOps0_3_writes (by decide)
    _ = W2 m c (Proc.devRef .tc main_arg9) := StableHlo.after_of_writes_sub hostOps0_2 _ hostOps0_2_writes (by decide)
    _ = W1 m c (Proc.devRef .tc main_arg9) := StableHlo.after_of_writes_sub hostOps0_1 _ hostOps0_1_writes (by decide)
    _ = W0 m c (Proc.devRef .tc main_arg9) := StableHlo.after_of_writes_sub hostOps0 _ hostOps0_writes (by decide)
    _ = m ((c : Thread nD τ).loc main_arg9) := rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (U5 m) c
  | ⟨1, _⟩ => fun c => dat1 (U7 m) c
  | ⟨2, _⟩ => fun c => dat2 (U9 m) c
  | ⟨3, _⟩ => fun c => dat3 (U11 m) c
  | ⟨4, _⟩ => fun c => dat4 (U13 m) c
  | ⟨5, _⟩ => fun c => dat5 (U14 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W15 m c) ∗ ∃ r, prngReg c r)

/-! ## The regions as segments -/

set_option backward.isDefEq.respectTransparency.types false in
/-- Pallas call 0 over the thread state: entered from every unscoped buffer at `W5`, left at `W6`. Its arrays split
    out of the unscoped buffers and put back at the exit contents; the generator register into the invariant and out;
    nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (U5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U5 m c) (U6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W7`, left at `W8`. Its arrays split
    out of the unscoped buffers and put back at the exit contents; the generator register into the invariant and out;
    nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := entry1 (U7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (U7 m c)) ⊢ (unscopedBufs c (U8 m c) : sProp 𝕄) :=
      exit1 (U7 m) c (U8 m c) (W8_out m c).symm (fun b hb => W8_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at `W9`, left at `W10`. Its arrays split
    out of the unscoped buffers and put back at the exit contents; the generator register into the invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (U9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U9 m c) (U10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 over the thread state: entered from every unscoped buffer at `W11`, left at `W12`. Its arrays split
    out of the unscoped buffers and put back at the exit contents; the generator register into the invariant and out;
    nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U11 m) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (U11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U11 m c) (U12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 4 over the thread state: entered from every unscoped buffer at `W13`, left at `W14`. Its arrays split
    out of the unscoped buffers and put back at the exit contents; the generator register into the invariant and out;
    nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U13 m) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (U13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U13 m c) (U14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 5 over the thread state: entered from every unscoped buffer at `W14`, left at `W15`. Its arrays split
    out of the unscoped buffers and put back at the exit contents; the generator register into the invariant and out;
    nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U14 m) c).loose
  hwaits := Pipeline.hwaits_of_owed_zero _ _ _ _ L lv 5 fun _ _ => rfl
  pre c := iprop(StableHlo.held (c : Thread nD τ) (Pipeline.ucRefs τ sig) (W14 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U14 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (U14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (U14 m c) (U15 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's segments in order: a host segment per stretch from its boundary's contents, a region per Pallas call. -/
abbrev msegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m),
    .host (hseg hostOps4 hostOps4_sub hostOps4_fresh (W12 m)),
    .region (reg4 m),
    .region (reg5 m) ]
/-- @main is the run of the segments. -/
theorem main_run (c : Dev nD) : main (F := F) c = Pipeline.Seg.run (msegs m) := (main_chain c).trans (by chain_rfl)

set_option backward.isDefEq.respectTransparency.types false in
/-- THE RUN: from any memory with zero counters, every weakly fair execution of @main on the TensorCores terminates,
    nothing faulting, and every final state holds each unscoped TensorCore buffer at the last contents `W15`. -/
theorem run (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W15 m c b) :=
  Pipeline.θ_run_regions_kit (pcfgs (F := F)) adm (pdats m) () cellOf_inj emb₁ defs₀ 𝒱₀ L lv m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h => h)

end Cert.Kernel.Hand

end
-- ==== Proof.Bridge.lean ====
/-
  The host-side pieces of the two programs are the same functions.

  The kernel's program and the reference compute one layer's neighbour aggregation, the degree norms, the gather's
  row indices and the slices of the stacked weights and biases by the same host operations at the same shapes and
  dimension numbers; the two programs' records of those numbers hold the same data, so each piece of the one is the
  corresponding piece of the other by unfolding.
-/
import proofs.«153677_j23742579212601_1_alg».proof.Proof.KISide
import proofs.«153677_j23742579212601_1_alg».proof.Proof.RefSideDefs

noncomputable section

namespace Cert.Bridge

open Idealize.ShloMosaic

variable [Cert.KernelIdeal.Facts] [Cert.ReferenceIdeal.Facts]

theorem norm_eq (e : IVec Cert.ReferenceIdeal.S640000 32) : Cert.KSide.norm e = Cert.RefSide.norm e := rfl

theorem fix_eq (e : IVec Cert.ReferenceIdeal.S640000 32) : Cert.KSide.fix e = Cert.RefSide.fix e := rfl

theorem A_eq (src dst : IVec Cert.ReferenceIdeal.S640000 32) : Cert.KSide.A src dst = Cert.RefSide.A src dst := rfl

theorem s1_eq (W : FVec Ideal Cert.ReferenceIdeal.S4x128x128 .f32) : Cert.KSide.s1 W = Cert.RefSide.s1 W := rfl

theorem s2_eq (W : FVec Ideal Cert.ReferenceIdeal.S4x128x128 .f32) : Cert.KSide.s2 W = Cert.RefSide.s2 W := rfl

theorem sb_eq (b : FVec Ideal Cert.ReferenceIdeal.S4x128 .f32) : Cert.KSide.sb b = Cert.RefSide.sb b := rfl

end Cert.Bridge

end
-- ==== Proof.lean ====
/-
  The five claims of this certificate and how each is closed.

  The kernel's program is a graph-convolution network over 40000 nodes and 640000 edges: a dense layer with a
  rectifier, four layers each made of a neighbour aggregation (a gather of scaled rows at the edges' sources, a
  scatter-add at their destinations, a scaling by the degree norms) followed by a mixing of the aggregated and the
  first layer's features through two weight matrices, a bias, the layer's input added and a rectifier, then a last
  dense layer.  The reference is the same network as one straight line of host operations.

  Frames (three claims).  Each program runs to the end from any memory with zero counters and leaves its ten
  argument arrays as they were: the kernel's program at both float instances by its run read region by region (the
  final contents of every buffer that is not scoped, specialized at the arguments), the reference by its run as a
  list of host operations.
  Preservation is trivial: no operation of the kernel's program was rewritten for reading it on the extended reals.
  The algebraic claim.  On the extended reals both programs end with the SAME function of the arguments at their
  result: the network of the specification, entry by entry, applied to the arguments, where the neighbour
  aggregation, the slices of the stacked weights and the rows of the stacked biases are each program's own host
  terms.  Those host terms are the same operations at the same shapes and dimension numbers in the two programs,
  hence equal by unfolding; with the hypothesis that the two memories agree on the arguments, the reference's result
  is the kernel's.
-/
import proofs.«153677_j23742579212601_1_alg».proof.Defs
import proofs.«153677_j23742579212601_1_alg».proof.Proof.Gen.Kernel
import proofs.«153677_j23742579212601_1_alg».proof.Proof.Gen.Kernel.Skeleton
import proofs.«153677_j23742579212601_1_alg».proof.Proof.Gen.Kernel.Launch
import proofs.«153677_j23742579212601_1_alg».proof.Proof.Gen.Kernel.Regions
import proofs.«153677_j23742579212601_1_alg».proof.Proof.Gen.Kernel.Points
import proofs.«153677_j23742579212601_1_alg».proof.Proof.Gen.KernelIdeal
import proofs.«153677_j23742579212601_1_alg».proof.Proof.Gen.KernelIdeal.Skeleton
import proofs.«153677_j23742579212601_1_alg».proof.Proof.Gen.KernelIdeal.Launch
import proofs.«153677_j23742579212601_1_alg».proof.Proof.Gen.KernelIdeal.Regions
import proofs.«153677_j23742579212601_1_alg».proof.Proof.Gen.KernelIdeal.Points
import proofs.«153677_j23742579212601_1_alg».proof.Proof.Gen.ReferenceIdeal
import proofs.«153677_j23742579212601_1_alg».proof.Proof.Gen.Pre_finite_inputs
import proofs.«153677_j23742579212601_1_alg».proof.Proof.RefSide
import proofs.«153677_j23742579212601_1_alg».proof.Proof.KIChain
import proofs.«153677_j23742579212601_1_alg».proof.Proof.KBRun
import proofs.«153677_j23742579212601_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program, at the bit-exact instance, runs to the end and leaves its arguments unchanged. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W15_main_arg0 m c),
     (h c _ (Cert.Kernel.Hand.mem_uc Cert.Kernel.main_arg1 (by decide))).trans (Cert.Kernel.Hand.W15_main_arg1 m c),
     (h c _ (Cert.Kernel.Hand.mem_uc Cert.Kernel.main_arg2 (by decide))).trans (Cert.Kernel.Hand.W15_main_arg2 m c),
     (h c _ (Cert.Kernel.Hand.mem_uc Cert.Kernel.main_arg3 (by decide))).trans (Cert.Kernel.Hand.W15_main_arg3 m c),
     (h c _ (Cert.Kernel.Hand.mem_uc Cert.Kernel.main_arg4 (by decide))).trans (Cert.Kernel.Hand.W15_main_arg4 m c),
     (h c _ (Cert.Kernel.Hand.mem_uc Cert.Kernel.main_arg5 (by decide))).trans (Cert.Kernel.Hand.W15_main_arg5 m c),
     (h c _ (Cert.Kernel.Hand.mem_uc Cert.Kernel.main_arg6 (by decide))).trans (Cert.Kernel.Hand.W15_main_arg6 m c),
     (h c _ (Cert.Kernel.Hand.mem_uc Cert.Kernel.main_arg7 (by decide))).trans (Cert.Kernel.Hand.W15_main_arg7 m c),
     (h c _ (Cert.Kernel.Hand.mem_uc Cert.Kernel.main_arg8 (by decide))).trans (Cert.Kernel.Hand.W15_main_arg8 m c),
     (h c _ (Cert.Kernel.Hand.mem_uc Cert.Kernel.main_arg9 (by decide))).trans (Cert.Kernel.Hand.W15_main_arg9 m c)⟩)
    (Cert.Kernel.Hand.run (F := Bits) m ρ)

/-- The same at the ideal instance. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W15_main_arg0 m c),
     (h c _ (Cert.KernelIdeal.Hand.mem_uc Cert.KernelIdeal.main_arg1 (by decide))).trans (Cert.KernelIdeal.Hand.W15_main_arg1 m c),
     (h c _ (Cert.KernelIdeal.Hand.mem_uc Cert.KernelIdeal.main_arg2 (by decide))).trans (Cert.KernelIdeal.Hand.W15_main_arg2 m c),
     (h c _ (Cert.KernelIdeal.Hand.mem_uc Cert.KernelIdeal.main_arg3 (by decide))).trans (Cert.KernelIdeal.Hand.W15_main_arg3 m c),
     (h c _ (Cert.KernelIdeal.Hand.mem_uc Cert.KernelIdeal.main_arg4 (by decide))).trans (Cert.KernelIdeal.Hand.W15_main_arg4 m c),
     (h c _ (Cert.KernelIdeal.Hand.mem_uc Cert.KernelIdeal.main_arg5 (by decide))).trans (Cert.KernelIdeal.Hand.W15_main_arg5 m c),
     (h c _ (Cert.KernelIdeal.Hand.mem_uc Cert.KernelIdeal.main_arg6 (by decide))).trans (Cert.KernelIdeal.Hand.W15_main_arg6 m c),
     (h c _ (Cert.KernelIdeal.Hand.mem_uc Cert.KernelIdeal.main_arg7 (by decide))).trans (Cert.KernelIdeal.Hand.W15_main_arg7 m c),
     (h c _ (Cert.KernelIdeal.Hand.mem_uc Cert.KernelIdeal.main_arg8 (by decide))).trans (Cert.KernelIdeal.Hand.W15_main_arg8 m c),
     (h c _ (Cert.KernelIdeal.Hand.mem_uc Cert.KernelIdeal.main_arg9 (by decide))).trans (Cert.KernelIdeal.Hand.W15_main_arg9 m c)⟩)
    (Cert.KernelIdeal.Hand.run (F := Ideal) m ρ)

/-- On the extended reals, from memories agreeing on the arguments, the two programs end with equal results: the
    network of the specification applied to the arguments. -/
theorem algebraic : Cert.algebraic_KernelIdeal_ReferenceIdeal := by
  intro m ρ m' ρ' _ hagree
  refine ⟨fun (c : Dev Cert.KernelIdeal.nD) => Cert.Gcn.net (Cert.KSide.A (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (Cert.KSide.s1 (m ((c.tc : Thread Cert.KernelIdeal.nD Cert.KernelIdeal.τ).loc Cert.KernelIdeal.main_arg3))) (Cert.KSide.s2 (m ((c.tc : Thread Cert.KernelIdeal.nD Cert.KernelIdeal.τ).loc Cert.KernelIdeal.main_arg4))) (Cert.KSide.sb (m ((c.tc : Thread Cert.KernelIdeal.nD Cert.KernelIdeal.τ).loc Cert.KernelIdeal.main_arg5)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run (Cert.KernelIdeal.defs (F := Ideal)) _ _).mono (fun r h c =>
      ⟨(h c _ (Cert.KernelIdeal.Hand.mem_uc Cert.KernelIdeal.main_v100 (by decide))).trans (Cert.KernelIdeal.HandV.result_eq m c),
       (h c _ (Cert.KernelIdeal.Hand.mem_uc Cert.KernelIdeal.main_arg0 (by decide))).trans (Cert.KernelIdeal.Hand.W15_main_arg0 m c),
       (h c _ (Cert.KernelIdeal.Hand.mem_uc Cert.KernelIdeal.main_arg1 (by decide))).trans (Cert.KernelIdeal.Hand.W15_main_arg1 m c),
       (h c _ (Cert.KernelIdeal.Hand.mem_uc Cert.KernelIdeal.main_arg2 (by decide))).trans (Cert.KernelIdeal.Hand.W15_main_arg2 m c),
       (h c _ (Cert.KernelIdeal.Hand.mem_uc Cert.KernelIdeal.main_arg3 (by decide))).trans (Cert.KernelIdeal.Hand.W15_main_arg3 m c),
       (h c _ (Cert.KernelIdeal.Hand.mem_uc Cert.KernelIdeal.main_arg4 (by decide))).trans (Cert.KernelIdeal.Hand.W15_main_arg4 m c),
       (h c _ (Cert.KernelIdeal.Hand.mem_uc Cert.KernelIdeal.main_arg5 (by decide))).trans (Cert.KernelIdeal.Hand.W15_main_arg5 m c),
       (h c _ (Cert.KernelIdeal.Hand.mem_uc Cert.KernelIdeal.main_arg6 (by decide))).trans (Cert.KernelIdeal.Hand.W15_main_arg6 m c),
       (h c _ (Cert.KernelIdeal.Hand.mem_uc Cert.KernelIdeal.main_arg7 (by decide))).trans (Cert.KernelIdeal.Hand.W15_main_arg7 m c),
       (h c _ (Cert.KernelIdeal.Hand.mem_uc Cert.KernelIdeal.main_arg8 (by decide))).trans (Cert.KernelIdeal.Hand.W15_main_arg8 m c),
       (h c _ (Cert.KernelIdeal.Hand.mem_uc Cert.KernelIdeal.main_arg9 (by decide))).trans (Cert.KernelIdeal.Hand.W15_main_arg9 m c)⟩)
      (Cert.KernelIdeal.Hand.run (F := Ideal) m ρ)
  · refine (θ_run (Cert.ReferenceIdeal.defs (F := Ideal)) _ _).mono (fun r h c => ?_) (Cert.RefSide.run m' ρ')
    obtain ⟨h0, h1, h2, h3, h4, h5, h6, h7, h8, h9⟩ := hagree c
    obtain ⟨hv, ha⟩ := h c
    refine ⟨hv.trans ?_, ha⟩
    rw [h0, h1, h2, h3, h4, h5, h6, h7, h8, h9, ← Cert.Bridge.A_eq, ← Cert.Bridge.s1_eq, ← Cert.Bridge.s2_eq, ← Cert.Bridge.sb_eq]

/-- The certificate's claim: the programs' stated facts, the three frames, the (trivial) preservation and the
    algebraic equivalence. -/
theorem claim : Cert.Claim :=
  ⟨Cert.Kernel.Gen.facts, Cert.KernelIdeal.Gen.facts, Cert.ReferenceIdeal.Gen.facts, Cert.Pre_finite_inputs.Gen.facts,
    frame_k, frame_ki, Cert.RefSide.frame_ri, trivial, algebraic⟩

end Cert.Proof

end
